-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v42)) (v1 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_v45) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_v100) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1 : Shape := ⟨1, ![1]⟩
abbrev S2x1x2048 : Shape := ⟨3, ![2, 1, 2048]⟩
abbrev S64x512 : Shape := ⟨2, ![64, 512]⟩
abbrev S6144x512 : Shape := ⟨2, ![6144, 512]⟩
abbrev S6144x2048 : Shape := ⟨2, ![6144, 2048]⟩
abbrev S6144 : Shape := ⟨1, ![6144]⟩
abbrev S16x2048 : Shape := ⟨2, ![16, 2048]⟩
abbrev S16 : Shape := ⟨1, ![16]⟩
abbrev S_ : Shape := ⟨0, ![]⟩

class Facts : Prop where
  bcast_S_S2x1x2048 : S_.BroadcastsInDim S2x1x2048 (![] : Fin 0 → Fin S2x1x2048.rank)
  reducesTo_S2x1x2048_S_d0_1_2 : S2x1x2048.ReducesTo [0, 1, 2] S_
  h_S_ : 0 < S_.numel
  bcast_S_S64x512 : S_.BroadcastsInDim S64x512 (![] : Fin 0 → Fin S64x512.rank)
  reducesTo_S64x512_S_d0_1 : S64x512.ReducesTo [0, 1] S_
  bcast_S_S6144x512 : S_.BroadcastsInDim S6144x512 (![] : Fin 0 → Fin S6144x512.rank)
  reducesTo_S6144x512_S_d0_1 : S6144x512.ReducesTo [0, 1] S_
  bcast_S_S6144x2048 : S_.BroadcastsInDim S6144x2048 (![] : Fin 0 → Fin S6144x2048.rank)
  reducesTo_S6144x2048_S_d0_1 : S6144x2048.ReducesTo [0, 1] S_
  bcast_S_S6144 : S_.BroadcastsInDim S6144 (![] : Fin 0 → Fin S6144.rank)
  reducesTo_S6144_S_d0 : S6144.ReducesTo [0] S_
  bcast_S_S16x2048 : S_.BroadcastsInDim S16x2048 (![] : Fin 0 → Fin S16x2048.rank)
  reducesTo_S16x2048_S_d0_1 : S16x2048.ReducesTo [0, 1] S_
  bcast_S_S16 : S_.BroadcastsInDim S16 (![] : Fin 0 → Fin S16.rank)
  reducesTo_S16_S_d0 : S16.ReducesTo [0] S_

variable [Facts]

def fn_part3 {F : FTy → Type} [FloatOps F] (main_arg12 : FVec F S16 .f32) (main_v48 : IVec S_ 1) (main_v49 : FVec F S16x2048 .f32) (main_v50 : FVec F S16x2048 .f32) : IVec S_ 1 :=
  let main_v51 : IVec S16x2048 1 := cmpf .olt main_v49 main_v50
  let main_c_19 : IVec S_ 1 := constantI S_ 1 1#1
  let main_v52 : IVec S_ 1 := (fun x v => Host.reduce IntOp.andi x v reducesTo_S16x2048_S_d0_1 h_S_) main_v51 main_c_19
  let main_v53 : IVec S_ 1 := andi main_v48 main_v52
  let main_v54 : FVec F S16 .f32 := Host.absf main_arg12
  let main_cst_20 : FVec F S_ .f32 := constant S_ .f32 0x7F800000#32
  let main_v55 : FVec F S16 .f32 := broadcastInDim S16 ![] bcast_S_S16 main_cst_20
  let main_v56 : IVec S16 1 := cmpf .olt main_v54 main_v55
  let main_c_21 : IVec S_ 1 := constantI S_ 1 1#1
  let main_v57 : IVec S_ 1 := (fun x v => Host.reduce IntOp.andi x v reducesTo_S16_S_d0 h_S_) main_v56 main_c_21
  let main_v58 : IVec S_ 1 := andi main_v53 main_v57
  main_v58

def fn_part2 {F : FTy → Type} [FloatOps F] (main_arg8 : FVec F S6144x2048 .f32) (main_arg9 : FVec F S6144 .f32) (main_arg10 : FVec F S6144 .f32) (main_arg11 : FVec F S16x2048 .f32) (main_arg12 : FVec F S16 .f32) (main_v33 : IVec S_ 1) : IVec S_ 1 :=
  let main_v34 : FVec F S6144x2048 .f32 := Host.absf main_arg8
  let main_cst_12 : FVec F S_ .f32 := constant S_ .f32 0x7F800000#32
  let main_v35 : FVec F S6144x2048 .f32 := broadcastInDim S6144x2048 ![] bcast_S_S6144x2048 main_cst_12
  let main_v36 : IVec S6144x2048 1 := cmpf .olt main_v34 main_v35
  let main_c_13 : IVec S_ 1 := constantI S_ 1 1#1
  let main_v37 : IVec S_ 1 := (fun x v => Host.reduce IntOp.andi x v reducesTo_S6144x2048_S_d0_1 h_S_) main_v36 main_c_13
  let main_v38 : IVec S_ 1 := andi main_v33 main_v37
  let main_v39 : FVec F S6144 .f32 := Host.absf main_arg9
  let main_cst_14 : FVec F S_ .f32 := constant S_ .f32 0x7F800000#32
  let main_v40 : FVec F S6144 .f32 := broadcastInDim S6144 ![] bcast_S_S6144 main_cst_14
  let main_v41 : IVec S6144 1 := cmpf .olt main_v39 main_v40
  let main_c_15 : IVec S_ 1 := constantI S_ 1 1#1
  let main_v42 : IVec S_ 1 := (fun x v => Host.reduce IntOp.andi x v reducesTo_S6144_S_d0 h_S_) main_v41 main_c_15
  let main_v43 : IVec S_ 1 := andi main_v38 main_v42
  let main_v44 : FVec F S6144 .f32 := Host.absf main_arg10
  let main_cst_16 : FVec F S_ .f32 := constant S_ .f32 0x7F800000#32
  let main_v45 : FVec F S6144 .f32 := broadcastInDim S6144 ![] bcast_S_S6144 main_cst_16
  let main_v46 : IVec S6144 1 := cmpf .olt main_v44 main_v45
  let main_c_17 : IVec S_ 1 := constantI S_ 1 1#1
  let main_v47 : IVec S_ 1 := (fun x v => Host.reduce IntOp.andi x v reducesTo_S6144_S_d0 h_S_) main_v46 main_c_17
  let main_v48 : IVec S_ 1 := andi main_v43 main_v47
  let main_v49 : FVec F S16x2048 .f32 := Host.absf main_arg11
  let main_cst_18 : FVec F S_ .f32 := constant S_ .f32 0x7F800000#32
  let main_v50 : FVec F S16x2048 .f32 := broadcastInDim S16x2048 ![] bcast_S_S16x2048 main_cst_18
  fn_part3 (F := F) main_arg12 main_v48 main_v49 main_v50

def fn_part1 {F : FTy → Type} [FloatOps F] (main_arg5 : FVec F S6144 .f32) (main_arg6 : FVec F S6144 .f32) (main_arg7 : FVec F S6144x2048 .f32) (main_arg8 : FVec F S6144x2048 .f32) (main_arg9 : FVec F S6144 .f32) (main_arg10 : FVec F S6144 .f32) (main_arg11 : FVec F S16x2048 .f32) (main_arg12 : FVec F S16 .f32) (main_v13 : IVec S_ 1) (main_v16 : IVec S6144x2048 1) : IVec S_ 1 :=
  let main_c_5 : IVec S_ 1 := constantI S_ 1 1#1
  let main_v17 : IVec S_ 1 := (fun x v => Host.reduce IntOp.andi x v reducesTo_S6144x2048_S_d0_1 h_S_) main_v16 main_c_5
  let main_v18 : IVec S_ 1 := andi main_v13 main_v17
  let main_v19 : FVec F S6144 .f32 := Host.absf main_arg5
  let main_cst_6 : FVec F S_ .f32 := constant S_ .f32 0x7F800000#32
  let main_v20 : FVec F S6144 .f32 := broadcastInDim S6144 ![] bcast_S_S6144 main_cst_6
  let main_v21 : IVec S6144 1 := cmpf .olt main_v19 main_v20
  let main_c_7 : IVec S_ 1 := constantI S_ 1 1#1
  let main_v22 : IVec S_ 1 := (fun x v => Host.reduce IntOp.andi x v reducesTo_S6144_S_d0 h_S_) main_v21 main_c_7
  let main_v23 : IVec S_ 1 := andi main_v18 main_v22
  let main_v24 : FVec F S6144 .f32 := Host.absf main_arg6
  let main_cst_8 : FVec F S_ .f32 := constant S_ .f32 0x7F800000#32
  let main_v25 : FVec F S6144 .f32 := broadcastInDim S6144 ![] bcast_S_S6144 main_cst_8
  let main_v26 : IVec S6144 1 := cmpf .olt main_v24 main_v25
  let main_c_9 : IVec S_ 1 := constantI S_ 1 1#1
  let main_v27 : IVec S_ 1 := (fun x v => Host.reduce IntOp.andi x v reducesTo_S6144_S_d0 h_S_) main_v26 main_c_9
  let main_v28 : IVec S_ 1 := andi main_v23 main_v27
  let main_v29 : FVec F S6144x2048 .f32 := Host.absf main_arg7
  let main_cst_10 : FVec F S_ .f32 := constant S_ .f32 0x7F800000#32
  let main_v30 : FVec F S6144x2048 .f32 := broadcastInDim S6144x2048 ![] bcast_S_S6144x2048 main_cst_10
  let main_v31 : IVec S6144x2048 1 := cmpf .olt main_v29 main_v30
  let main_c_11 : IVec S_ 1 := constantI S_ 1 1#1
  let main_v32 : IVec S_ 1 := (fun x v => Host.reduce IntOp.andi x v reducesTo_S6144x2048_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : IVec S1 32) (main_arg1 : FVec F S2x1x2048 .f32) (main_arg2 : FVec F S64x512 .f32) (main_arg3 : FVec F S6144x512 .f32) (main_arg4 : FVec F S6144x2048 .f32) (main_arg5 : FVec F S6144 .f32) (main_arg6 : FVec F S6144 .f32) (main_arg7 : FVec F S6144x2048 .f32) (main_arg8 : FVec F S6144x2048 .f32) (main_arg9 : FVec F S6144 .f32) (main_arg10 : FVec F S6144 .f32) (main_arg11 : FVec F S16x2048 .f32) (main_arg12 : FVec F S16 .f32) : IVec S_ 1 :=
  let main_v0 : FVec F S2x1x2048 .f32 := Host.absf main_arg1
  let main_cst : FVec F S_ .f32 := constant S_ .f32 0x7F800000#32
  let main_v1 : FVec F S2x1x2048 .f32 := broadcastInDim S2x1x2048 ![] bcast_S_S2x1x2048 main_cst
  let main_v2 : IVec S2x1x2048 1 := cmpf .olt main_v0 main_v1
  let main_c : IVec S_ 1 := constantI S_ 1 1#1
  let main_v3 : IVec S_ 1 := (fun x v => Host.reduce IntOp.andi x v reducesTo_S2x1x2048_S_d0_1_2 h_S_) main_v2 main_c
  let main_v4 : FVec F S64x512 .f32 := Host.absf main_arg2
  let main_cst_0 : FVec F S_ .f32 := constant S_ .f32 0x7F800000#32
  let main_v5 : FVec F S64x512 .f32 := broadcastInDim S64x512 ![] bcast_S_S64x512 main_cst_0
  let main_v6 : IVec S64x512 1 := cmpf .olt main_v4 main_v5
  let main_c_1 : IVec S_ 1 := constantI S_ 1 1#1
  let main_v7 : IVec S_ 1 := (fun x v => Host.reduce IntOp.andi x v reducesTo_S64x512_S_d0_1 h_S_) main_v6 main_c_1
  let main_v8 : IVec S_ 1 := andi main_v3 main_v7
  let main_v9 : FVec F S6144x512 .f32 := Host.absf main_arg3
  let main_cst_2 : FVec F S_ .f32 := constant S_ .f32 0x7F800000#32
  let main_v10 : FVec F S6144x512 .f32 := broadcastInDim S6144x512 ![] bcast_S_S6144x512 main_cst_2
  let main_v11 : IVec S6144x512 1 := cmpf .olt main_v9 main_v10
  let main_c_3 : IVec S_ 1 := constantI S_ 1 1#1
  let main_v12 : IVec S_ 1 := (fun x v => Host.reduce IntOp.andi x v reducesTo_S6144x512_S_d0_1 h_S_) main_v11 main_c_3
  let main_v13 : IVec S_ 1 := andi main_v8 main_v12
  let main_v14 : FVec F S6144x2048 .f32 := Host.absf main_arg4
  let main_cst_4 : FVec F S_ .f32 := constant S_ .f32 0x7F800000#32
  let main_v15 : FVec F S6144x2048 .f32 := broadcastInDim S6144x2048 ![] bcast_S_S6144x2048 main_cst_4
  let main_v16 : IVec S6144x2048 1 := cmpf .olt main_v14 main_v15
  fn_part1 (F := F) main_arg5 main_arg6 main_arg7 main_arg8 main_arg9 main_arg10 main_arg11 main_arg12 main_v13 main_v16
-- ==== Kernel.lean ====
abbrev S1 : Shape := ⟨1, ![1]⟩
abbrev S2x1x2048 : Shape := ⟨3, ![2, 1, 2048]⟩
abbrev S64x512 : Shape := ⟨2, ![64, 512]⟩
abbrev S6144x512 : Shape := ⟨2, ![6144, 512]⟩
abbrev S6144x2048 : Shape := ⟨2, ![6144, 2048]⟩
abbrev S6144 : Shape := ⟨1, ![6144]⟩
abbrev S16x2048 : Shape := ⟨2, ![16, 2048]⟩
abbrev S16 : Shape := ⟨1, ![16]⟩
abbrev S_ : Shape := ⟨0, ![]⟩
abbrev S1x512 : Shape := ⟨2, ![1, 512]⟩
abbrev S512 : Shape := ⟨1, ![512]⟩
abbrev S1x1x2048 : Shape := ⟨3, ![1, 1, 2048]⟩
abbrev S1x2048 : Shape := ⟨2, ![1, 2048]⟩
abbrev S3x2048x512 : Shape := ⟨3, ![3, 2048, 512]⟩
abbrev S3x2048x2048 : Shape := ⟨3, ![3, 2048, 2048]⟩
abbrev S3x2048 : Shape := ⟨2, ![3, 2048]⟩
abbrev S3x256x512 : Shape := ⟨3, ![3, 256, 512]⟩
abbrev S3x256x2048 : Shape := ⟨3, ![3, 256, 2048]⟩
abbrev S3x256 : Shape := ⟨2, ![3, 256]⟩
abbrev S1x256 : Shape := ⟨2, ![1, 256]⟩
abbrev S1x256x512 : Shape := ⟨3, ![1, 256, 512]⟩
abbrev S256x512 : Shape := ⟨2, ![256, 512]⟩
abbrev S256 : Shape := ⟨1, ![256]⟩
abbrev S1x256x2048 : Shape := ⟨3, ![1, 256, 2048]⟩
abbrev S256x2048 : Shape := ⟨2, ![256, 2048]⟩
abbrev S2048x16 : Shape := ⟨2, ![2048, 16]⟩
abbrev S1x16 : Shape := ⟨2, ![1, 16]⟩
abbrev S1x1 : Shape := ⟨2, ![1, 1]⟩

abbrev nBuf : Space → Nat
  | .hbm => 69
  | .vmem => 24
  | .smem => 0
  | _ => 0

abbrev bufTy : (tb : Table) → Fin (tcTables nBuf tb) → BufTy
  | .hbm, ⟨0, _⟩ => ⟨S1, .i32⟩
  | .hbm, ⟨1, _⟩ => ⟨S2x1x2048, .f32⟩
  | .hbm, ⟨2, _⟩ => ⟨S64x512, .f32⟩
  | .hbm, ⟨3, _⟩ => ⟨S6144x512, .f32⟩
  | .hbm, ⟨4, _⟩ => ⟨S6144x2048, .f32⟩
  | .hbm, ⟨5, _⟩ => ⟨S6144, .f32⟩
  | .hbm, ⟨6, _⟩ => ⟨S6144, .f32⟩
  | .hbm, ⟨7, _⟩ => ⟨S6144x2048, .f32⟩
  | .hbm, ⟨8, _⟩ => ⟨S6144x2048, .f32⟩
  | .hbm, ⟨9, _⟩ => ⟨S6144, .f32⟩
  | .hbm, ⟨10, _⟩ => ⟨S6144, .f32⟩
  | .hbm, ⟨11, _⟩ => ⟨S16x2048, .f32⟩
  | .hbm, ⟨12, _⟩ => ⟨S16, .f32⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i1⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S1x512, .f32⟩
  | .hbm, ⟨28, _⟩ => ⟨S512, .f32⟩
  | .hbm, ⟨29, _⟩ => ⟨S1x512, .f32⟩
  | .hbm, ⟨30, _⟩ => ⟨S1x1x2048, .f32⟩
  | .hbm, ⟨31, _⟩ => ⟨S1x2048, .f32⟩
  | .hbm, ⟨32, _⟩ => ⟨S1x1x2048, .f32⟩
  | .hbm, ⟨33, _⟩ => ⟨S1x2048, .f32⟩
  | .hbm, ⟨34, _⟩ => ⟨S3x2048x512, .f32⟩
  | .hbm, ⟨35, _⟩ => ⟨S3x2048x512, .bf16⟩
  | .hbm, ⟨36, _⟩ => ⟨S3x2048x2048, .f32⟩
  | .hbm, ⟨37, _⟩ => ⟨S3x2048x2048, .bf16⟩
  | .hbm, ⟨38, _⟩ => ⟨S3x2048, .f32⟩
  | .hbm, ⟨39, _⟩ => ⟨S3x2048, .f32⟩
  | .hbm, ⟨40, _⟩ => ⟨S3x2048x2048, .f32⟩
  | .hbm, ⟨41, _⟩ => ⟨S3x2048x2048, .bf16⟩
  | .hbm, ⟨42, _⟩ => ⟨S3x2048x2048, .f32⟩
  | .hbm, ⟨43, _⟩ => ⟨S3x2048x2048, .bf16⟩
  | .hbm, ⟨44, _⟩ => ⟨S3x2048, .f32⟩
  | .hbm, ⟨45, _⟩ => ⟨S3x2048, .f32⟩
  | .hbm, ⟨46, _⟩ => ⟨S1x2048, .f32⟩
  | .hbm, ⟨47, _⟩ => ⟨S1x2048, .f32⟩
  | .hbm, ⟨48, _⟩ => ⟨S2048x16, .f32⟩
  | .hbm, ⟨49, _⟩ => ⟨S1x16, .f32⟩
  | .hbm, ⟨50, _⟩ => ⟨S1x16, .f32⟩
  | .hbm, ⟨51, _⟩ => ⟨S1x16, .f32⟩
  | .hbm, ⟨52, _⟩ => ⟨S_, .f32⟩
  | .hbm, ⟨53, _⟩ => ⟨S1, .f32⟩
  | .hbm, ⟨54, _⟩ => ⟨S_, .f32⟩
  | .hbm, ⟨55, _⟩ => ⟨S1, .f32⟩
  | .hbm, ⟨56, _⟩ => ⟨S1, .f32⟩
  | .hbm, ⟨57, _⟩ => ⟨S1x1, .f32⟩
  | .hbm, ⟨58, _⟩ => ⟨S1x16, .f32⟩
  | .hbm, ⟨59, _⟩ => ⟨S1x16, .f32⟩
  | .hbm, ⟨60, _⟩ => ⟨S1x16, .f32⟩
  | .hbm, ⟨61, _⟩ => ⟨S_, .f32⟩
  | .hbm, ⟨62, _⟩ => ⟨S1, .f32⟩
  | .hbm, ⟨63, _⟩ => ⟨S1x1, .f32⟩
  | .hbm, ⟨64, _⟩ => ⟨S1x16, .f32⟩
  | .hbm, ⟨65, _⟩ => ⟨S1x16, .f32⟩
  | .hbm, ⟨66, _⟩ => ⟨S1x1x2048, .f32⟩
  | .hbm, ⟨67, _⟩ => ⟨S1x1x2048, .f32⟩
  | .hbm, ⟨68, _⟩ => ⟨S2x1x2048, .f32⟩
  | .local _ .vmem, ⟨0, _⟩ => ⟨S1x512, .f32⟩
  | .local _ .vmem, ⟨1, _⟩ => ⟨S1x2048, .f32⟩
  | .local _ .vmem, ⟨2, _⟩ => ⟨S3x256x512, .bf16⟩
  | .local _ .vmem, ⟨3, _⟩ => ⟨S3x256x512, .bf16⟩
  | .local _ .vmem, ⟨4, _⟩ => ⟨S3x256x2048, .bf16⟩
  | .local _ .vmem, ⟨5, _⟩ => ⟨S3x256x2048, .bf16⟩
  | .local _ .vmem, ⟨6, _⟩ => ⟨S3x256, .f32⟩
  | .local _ .vmem, ⟨7, _⟩ => ⟨S3x256, .f32⟩
  | .local _ .vmem, ⟨8, _⟩ => ⟨S3x256, .f32⟩
  | .local _ .vmem, ⟨9, _⟩ => ⟨S3x256, .f32⟩
  | .local _ .vmem, ⟨10, _⟩ => ⟨S1x256, .f32⟩
  | .local _ .vmem, ⟨11, _⟩ => ⟨S1x256, .f32⟩
  | .local _ .vmem, ⟨12, _⟩ => ⟨S1x2048, .f32⟩
  | .local _ .vmem, ⟨13, _⟩ => ⟨S1x2048, .f32⟩
  | .local _ .vmem, ⟨14, _⟩ => ⟨S3x256x2048, .bf16⟩
  | .local _ .vmem, ⟨15, _⟩ => ⟨S3x256x2048, .bf16⟩
  | .local _ .vmem, ⟨16, _⟩ => ⟨S3x256x2048, .bf16⟩
  | .local _ .vmem, ⟨17, _⟩ => ⟨S3x256x2048, .bf16⟩
  | .local _ .vmem, ⟨18, _⟩ => ⟨S3x256, .f32⟩
  | .local _ .vmem, ⟨19, _⟩ => ⟨S3x256, .f32⟩
  | .local _ .vmem, ⟨20, _⟩ => ⟨S3x256, .f32⟩
  | .local _ .vmem, ⟨21, _⟩ => ⟨S3x256, .f32⟩
  | .local _ .vmem, ⟨22, _⟩ => ⟨S1x256, .f32⟩
  | .local _ .vmem, ⟨23, _⟩ => ⟨S1x256, .f32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_c_1 : Ref sig .tc := ⟨.hbm, 19, rfl⟩
abbrev main_c_2 : Ref sig .tc := ⟨.hbm, 20, rfl⟩
abbrev main_v4 : Ref sig .tc := ⟨.hbm, 21, rfl⟩
abbrev main_c_3 : Ref sig .tc := ⟨.hbm, 22, rfl⟩
abbrev main_c_4 : Ref sig .tc := ⟨.hbm, 23, rfl⟩
abbrev main_v5 : Ref sig .tc := ⟨.hbm, 24, rfl⟩
abbrev main_c_5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst : Ref sig .tc := ⟨.hbm, 52, rfl⟩
abbrev main_v32 : Ref sig .tc := ⟨.hbm, 53, rfl⟩
abbrev main_cst_6 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_7 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem1_0 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23

abbrev nD : Nat := 1
abbrev τ : Topo := Topo.v7x

variable {F : FTy → Type} [FloatOps F]

abbrev grid0 : Pipeline.Grid := ⟨1, ![8], ![false]⟩

def k0_mult1 (i : grid0.Coords) : BitVec 32 :=
  let arg0 : BitVec 32 := BitVec.ofNat 32 (i 0).val
  let c256_i32 : BitVec 32 := 256#32
  let v0 : BitVec 32 := Scalar.muli arg0 c256_i32
  v0
def k0_off1 (i : grid0.Coords) : Fin 2 → Nat :=
  let c0_3 : Index := 0#32
  let arg0 : BitVec 32 := BitVec.ofNat 32 (i 0).val
  let c256_i32 : BitVec 32 := 256#32
  let v0 : BitVec 32 := Scalar.muli arg0 c256_i32
  let v1 : BitVec 32 := v0
  let v8 : Index := Scalar.indexCast v1
  ![0, v8.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S3x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![8], ![false]⟩

def k1_mult1 (i : grid1.Coords) : BitVec 32 :=
  let arg0 : BitVec 32 := BitVec.ofNat 32 (i 0).val
  let c256_i32 : BitVec 32 := 256#32
  let v0 : BitVec 32 := Scalar.muli arg0 c256_i32
  v0
def k1_off1 (i : grid1.Coords) : Fin 2 → Nat :=
  let c0_3 : Index := 0#32
  let arg0 : BitVec 32 := BitVec.ofNat 32 (i 0).val
  let c256_i32 : BitVec 32 := 256#32
  let v0 : BitVec 32 := Scalar.muli arg0 c256_i32
  let v1 : BitVec 32 := v0
  let v8 : Index := Scalar.indexCast v1
  ![0, v8.toNat]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1x2048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S3x256x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S3x256x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S3x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S3x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  shapeCasts_S1_S_ : S1.ShapeCasts S_
  sliceFits_S64x512_S1x512 : S64x512.Slices (fun _ => 0) S1x512
  h_S_ : 0 < S_.numel
  shapeCasts_S1x512_S512 : S1x512.ShapeCasts S512
  bcast_S512_S1x512_1 : S512.BroadcastsInDim S1x512 (![1] : Fin 1 → Fin S1x512.rank)
  slices_S2x1x2048_S1x1x2048_0_0_0 : S2x1x2048.Slices ![0, 0, 0] S1x1x2048
  shapeCasts_S1x1x2048_S1x2048 : S1x1x2048.ShapeCasts S1x2048
  slices_S2x1x2048_S1x1x2048_1_0_0 : S2x1x2048.Slices ![1, 0, 0] S1x1x2048
  shapeCasts_S6144x512_S3x2048x512 : S6144x512.ShapeCasts S3x2048x512
  bitsLt_bf16_f32 : FTy.bits .bf16 < FTy.bits .f32
  shapeCasts_S6144x2048_S3x2048x2048 : S6144x2048.ShapeCasts S3x2048x2048
  shapeCasts_S6144_S3x2048 : S6144.ShapeCasts S3x2048
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  h_S1x256 : 0 < S1x256.numel
  shapeCasts_S1x256_S1x256 : S1x256.ShapeCasts S1x256
  inb_S3x256x512_S1x256x512_0_0_0 : ∀ a, (![0, 0, 0] : Fin 3 → Nat) a + S1x256x512.size a ≤ S3x256x512.size a
  h_S1x256x512 : 0 < S1x256x512.numel
  shapeCasts_S1x256x512_S256x512 : S1x256x512.ShapeCasts S256x512
  inb_S3x256_S1x256_0_0 : ∀ a, (![0, 0] : Fin 2 → Nat) a + S1x256.size a ≤ S3x256.size a
  shapeCasts_S1x256_S256 : S1x256.ShapeCasts S256
  shapeCasts_S256_S1x256 : S256.ShapeCasts S1x256
  inb_S3x256x512_S1x256x512_1_0_0 : ∀ a, (![1, 0, 0] : Fin 3 → Nat) a + S1x256x512.size a ≤ S3x256x512.size a
  inb_S3x256_S1x256_1_0 : ∀ a, (![1, 0] : Fin 2 → Nat) a + S1x256.size a ≤ S3x256.size a
  inb_S3x256x512_S1x256x512_2_0_0 : ∀ a, (![2, 0, 0] : Fin 3 → Nat) a + S1x256x512.size a ≤ S3x256x512.size a
  inb_S3x256_S1x256_2_0 : ∀ a, (![2, 0] : Fin 2 → Nat) a + S1x256.size a ≤ S3x256.size a
  inb_S3x256x2048_S1x256x2048_0_0_0 : ∀ a, (![0, 0, 0] : Fin 3 → Nat) a + S1x256x2048.size a ≤ S3x256x2048.size a
  h_S1x256x2048 : 0 < S1x256x2048.numel
  shapeCasts_S1x256x2048_S256x2048 : S1x256x2048.ShapeCasts S256x2048
  inb_S3x256x2048_S1x256x2048_1_0_0 : ∀ a, (![1, 0, 0] : Fin 3 → Nat) a + S1x256x2048.size a ≤ S3x256x2048.size a
  inb_S3x256x2048_S1x256x2048_2_0_0 : ∀ a, (![2, 0, 0] : Fin 3 → Nat) a + S1x256x2048.size a ≤ S3x256x2048.size a
  inb_S1x256_S1x256_0_0 : ∀ a, (![0, 0] : Fin 2 → Nat) a + S1x256.size a ≤ S1x256.size a
  transposes_S16x2048_S2048x16_1_0 : S16x2048.Transposes [1, 0] S2048x16
  bcast_S16_S1x16_1 : S16.BroadcastsInDim S1x16 (![1] : Fin 1 → Fin S1x16.rank)
  reducesTo_S1x16_S1_d1 : S1x16.ReducesTo [1] S1
  bcast_S_S1 : S_.BroadcastsInDim S1 (![] : Fin 0 → Fin S1.rank)
  bcast_S1_S1x1_0 : S1.BroadcastsInDim S1x1 (![0] : Fin 1 → Fin S1x1.rank)
  bcast_S1x1_S1x16_0_1 : S1x1.BroadcastsInDim S1x16 (![0, 1] : Fin 2 → Fin S1x16.rank)
  bcast_S1x2048_S1x1x2048_1_2 : S1x2048.BroadcastsInDim S1x1x2048 (![1, 2] : Fin 2 → Fin S1x1x2048.rank)
  concatenates_S1x1x2048_S1x1x2048_S2x1x2048_d0 : Shape.Concatenates [S1x1x2048, S1x1x2048] S2x1x2048 0
  dot_S1x512_S256x512_S1x256_1_1_0_0_n_n_wf : DotDims.WF S1x512 S256x512 S1x256 [1] [1] [0] [0] [] []
  dot_S1x2048_S256x2048_S1x256_1_1_0_0_n_n_wf : DotDims.WF S1x2048 S256x2048 S1x256 [1] [1] [0] [0] [] []
  dot_S1x2048_S2048x16_S1x16_1_0_0_1_n_n_wf : DotDims.WF S1x2048 S2048x16 S1x16 [1] [0] [0] [1] [] []
  hrank0 : 0 < grid0.rank
  k0_mult1_dvd : ∀ i : grid0.Coords, 128 ∣ (k0_mult1 i).toNat
  k0_off1_inb : ∀ i : grid0.Coords, ∀ a, (k0_off1 i) a + S1x256.size a ≤ S1x2048.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x512.size a ≤ S1x512.size a
  hwx0_0 : ∀ i : grid0.Coords, EltTy.bits .f32 = 32 ∨ (Rect.block (s := S1x512) S1x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x2048.size a
  hwx0_1 : ∀ i : grid0.Coords, EltTy.bits .f32 = 32 ∨ (Rect.block (s := S1x2048) S1x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3x256x512.size a ≤ S3x2048x512.size a
  hwx0_2 : ∀ i : grid0.Coords, EltTy.bits .bf16 = 32 ∨ (Rect.block (s := S3x2048x512) S3x256x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S3x256x2048.size a ≤ S3x2048x2048.size a
  hwx0_3 : ∀ i : grid0.Coords, EltTy.bits .bf16 = 32 ∨ (Rect.block (s := S3x2048x2048) S3x256x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S3x256.size a ≤ S3x2048.size a
  hwx0_4 : ∀ i : grid0.Coords, EltTy.bits .f32 = 32 ∨ (Rect.block (s := S3x2048) S3x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S3x256.size a ≤ S3x2048.size a
  hwx0_5 : ∀ i : grid0.Coords, EltTy.bits .f32 = 32 ∨ (Rect.block (s := S3x2048) S3x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x2048.size a
  hwx0_6 : ∀ i : grid0.Coords, EltTy.bits .f32 = 32 ∨ (Rect.block (s := S1x2048) S1x256.size (cc0_transform_6 i) (hinb0_6 i)).WholeWords (EltTy.packing .f32)
  hrank1 : 0 < grid1.rank
  k1_mult1_dvd : ∀ i : grid1.Coords, 128 ∣ (k1_mult1 i).toNat
  k1_off1_inb : ∀ i : grid1.Coords, ∀ a, (k1_off1 i) a + S1x256.size a ≤ S1x2048.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x2048.size a ≤ S1x2048.size a
  hwx1_0 : ∀ i : grid1.Coords, EltTy.bits .f32 = 32 ∨ (Rect.block (s := S1x2048) S1x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x2048.size a ≤ S1x2048.size a
  hwx1_1 : ∀ i : grid1.Coords, EltTy.bits .f32 = 32 ∨ (Rect.block (s := S1x2048) S1x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S3x256x2048.size a ≤ S3x2048x2048.size a
  hwx1_2 : ∀ i : grid1.Coords, EltTy.bits .bf16 = 32 ∨ (Rect.block (s := S3x2048x2048) S3x256x2048.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S3x256x2048.size a ≤ S3x2048x2048.size a
  hwx1_3 : ∀ i : grid1.Coords, EltTy.bits .bf16 = 32 ∨ (Rect.block (s := S3x2048x2048) S3x256x2048.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S3x256.size a ≤ S3x2048.size a
  hwx1_4 : ∀ i : grid1.Coords, EltTy.bits .f32 = 32 ∨ (Rect.block (s := S3x2048) S3x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S3x256.size a ≤ S3x2048.size a
  hwx1_5 : ∀ i : grid1.Coords, EltTy.bits .f32 = 32 ∨ (Rect.block (s := S3x2048) S3x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x2048.size a
  hwx1_6 : ∀ i : grid1.Coords, EltTy.bits .f32 = 32 ∨ (Rect.block (s := S1x2048) S1x256.size (cc1_transform_6 i) (hinb1_6 i)).WholeWords (EltTy.packing .f32)

variable [Facts₀]

def dot_S1x512_S256x512_S1x256_1_1_0_0_n_n : DotDims S1x512 S256x512 S1x256 where
  lhsContracting := [1]
  rhsContracting := [1]
  lhsNonContracting := [0]
  rhsNonContracting := [0]
  lhsBatch := []
  rhsBatch := []
  wf := dot_S1x512_S256x512_S1x256_1_1_0_0_n_n_wf
def dot_S1x2048_S256x2048_S1x256_1_1_0_0_n_n : DotDims S1x2048 S256x2048 S1x256 where
  lhsContracting := [1]
  rhsContracting := [1]
  lhsNonContracting := [0]
  rhsNonContracting := [0]
  lhsBatch := []
  rhsBatch := []
  wf := dot_S1x2048_S256x2048_S1x256_1_1_0_0_n_n_wf
def dot_S1x2048_S2048x16_S1x16_1_0_0_1_n_n : DotDims S1x2048 S2048x16 S1x16 where
  lhsContracting := [1]
  rhsContracting := [0]
  lhsNonContracting := [0]
  rhsNonContracting := [1]
  lhsBatch := []
  rhsBatch := []
  wf := dot_S1x2048_S2048x16_S1x16_1_0_0_1_n_n_wf

abbrev win0_0 : Pipeline.Window sig grid0 :=
  Pipeline.Window.ofSpec (Memref.whole main_v9) S1x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S3x256x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S3x256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v18) S3x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v19) S3x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v26) S1x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v26) S1x2048.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v13) S1x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v21) S3x256x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v23) S3x256x2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v24) S3x256.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v25) S3x256.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v27) S1x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S1 : Shape := ⟨1, ![1]⟩
abbrev S2x1x2048 : Shape := ⟨3, ![2, 1, 2048]⟩
abbrev S64x512 : Shape := ⟨2, ![64, 512]⟩
abbrev S6144x512 : Shape := ⟨2, ![6144, 512]⟩
abbrev S6144x2048 : Shape := ⟨2, ![6144, 2048]⟩
abbrev S6144 : Shape := ⟨1, ![6144]⟩
abbrev S16x2048 : Shape := ⟨2, ![16, 2048]⟩
abbrev S16 : Shape := ⟨1, ![16]⟩
abbrev S_ : Shape := ⟨0, ![]⟩
abbrev S1x1 : Shape := ⟨2, ![1, 1]⟩
abbrev S1x512 : Shape := ⟨2, ![1, 512]⟩
abbrev S1x1x2048 : Shape := ⟨3, ![1, 1, 2048]⟩
abbrev S1x2048 : Shape := ⟨2, ![1, 2048]⟩
abbrev S512x6144 : Shape := ⟨2, ![512, 6144]⟩
abbrev S1x6144 : Shape := ⟨2, ![1, 6144]⟩
abbrev S2048x6144 : Shape := ⟨2, ![2048, 6144]⟩
abbrev S2048x16 : Shape := ⟨2, ![2048, 16]⟩
abbrev S1x16 : Shape := ⟨2, ![1, 16]⟩

abbrev nBuf : Space → Nat
  | .hbm => 129
  | .vmem => 0
  | .smem => 0
  | _ => 0

abbrev hbmTy0_0 (i : Nat) : BufTy := match i % 128 with
  | 0 => ⟨S1, .i32⟩
  | 1 => ⟨S2x1x2048, .f32⟩
  | 2 => ⟨S64x512, .f32⟩
  | 3 => ⟨S6144x512, .f32⟩
  | 4 => ⟨S6144x2048, .f32⟩
  | 5 => ⟨S6144, .f32⟩
  | 6 => ⟨S6144, .f32⟩
  | 7 => ⟨S6144x2048, .f32⟩
  | 8 => ⟨S6144x2048, .f32⟩
  | 9 => ⟨S6144, .f32⟩
  | 10 => ⟨S6144, .f32⟩
  | 11 => ⟨S16x2048, .f32⟩
  | 12 => ⟨S16, .f32⟩
  | 13 => ⟨S_, .i32⟩
  | 14 => ⟨S1, .i32⟩
  | 15 => ⟨S1, .i1⟩
  | 16 => ⟨S_, .i32⟩
  | 17 => ⟨S1, .i32⟩
  | 18 => ⟨S1, .i32⟩
  | 19 => ⟨S1, .i32⟩
  | 20 => ⟨S1x1, .i32⟩
  | 21 => ⟨S1x512, .f32⟩
  | 22 => ⟨S1x1x2048, .f32⟩
  | 23 => ⟨S1x2048, .f32⟩
  | 24 => ⟨S512x6144, .f32⟩
  | 25 => ⟨S1x6144, .f32⟩
  | 26 => ⟨S1x6144, .f32⟩
  | 27 => ⟨S1x6144, .f32⟩
  | 28 => ⟨S2048x6144, .f32⟩
  | 29 => ⟨S1x6144, .f32⟩
  | 30 => ⟨S1x6144, .f32⟩
  | 31 => ⟨S1x6144, .f32⟩
  | 32 => ⟨S1x2048, .f32⟩
  | 33 => ⟨S1x2048, .f32⟩
  | 34 => ⟨S1x2048, .f32⟩
  | 35 => ⟨S1x2048, .f32⟩
  | 36 => ⟨S1x2048, .f32⟩
  | 37 => ⟨S1x2048, .f32⟩
  | 38 => ⟨S1x2048, .f32⟩
  | 39 => ⟨S1x2048, .f32⟩
  | 40 => ⟨S1x2048, .f32⟩
  | 41 => ⟨S_, .f32⟩
  | 42 => ⟨S1x2048, .f32⟩
  | 43 => ⟨S1x2048, .f32⟩
  | 44 => ⟨S_, .f32⟩
  | 45 => ⟨S1x2048, .f32⟩
  | 46 => ⟨S1x2048, .f32⟩
  | 47 => ⟨S1x2048, .f32⟩
  | 48 => ⟨S1x2048, .f32⟩
  | 49 => ⟨S1x2048, .f32⟩
  | 50 => ⟨S_, .f32⟩
  | 51 => ⟨S1x2048, .f32⟩
  | 52 => ⟨S1x2048, .f32⟩
  | 53 => ⟨S_, .f32⟩
  | 54 => ⟨S1x2048, .f32⟩
  | 55 => ⟨S1x2048, .f32⟩
  | 56 => ⟨S1x2048, .f32⟩
  | 57 => ⟨S1x2048, .f32⟩
  | 58 => ⟨S1x2048, .f32⟩
  | 59 => ⟨S_, .f32⟩
  | 60 => ⟨S1x2048, .f32⟩
  | 61 => ⟨S1x2048, .f32⟩
  | 62 => ⟨S1x2048, .f32⟩
  | 63 => ⟨S1x2048, .f32⟩
  | 64 => ⟨S1x2048, .f32⟩
  | 65 => ⟨S1x1x2048, .f32⟩
  | 66 => ⟨S1x2048, .f32⟩
  | 67 => ⟨S2048x6144, .f32⟩
  | 68 => ⟨S1x6144, .f32⟩
  | 69 => ⟨S1x6144, .f32⟩
  | 70 => ⟨S1x6144, .f32⟩
  | 71 => ⟨S2048x6144, .f32⟩
  | 72 => ⟨S1x6144, .f32⟩
  | 73 => ⟨S1x6144, .f32⟩
  | 74 => ⟨S1x6144, .f32⟩
  | 75 => ⟨S1x2048, .f32⟩
  | 76 => ⟨S1x2048, .f32⟩
  | 77 => ⟨S1x2048, .f32⟩
  | 78 => ⟨S1x2048, .f32⟩
  | 79 => ⟨S1x2048, .f32⟩
  | 80 => ⟨S1x2048, .f32⟩
  | 81 => ⟨S1x2048, .f32⟩
  | 82 => ⟨S1x2048, .f32⟩
  | 83 => ⟨S1x2048, .f32⟩
  | 84 => ⟨S_, .f32⟩
  | 85 => ⟨S1x2048, .f32⟩
  | 86 => ⟨S1x2048, .f32⟩
  | 87 => ⟨S_, .f32⟩
  | 88 => ⟨S1x2048, .f32⟩
  | 89 => ⟨S1x2048, .f32⟩
  | 90 => ⟨S1x2048, .f32⟩
  | 91 => ⟨S1x2048, .f32⟩
  | 92 => ⟨S1x2048, .f32⟩
  | 93 => ⟨S_, .f32⟩
  | 94 => ⟨S1x2048, .f32⟩
  | 95 => ⟨S1x2048, .f32⟩
  | 96 => ⟨S_, .f32⟩
  | 97 => ⟨S1x2048, .f32⟩
  | 98 => ⟨S1x2048, .f32⟩
  | 99 => ⟨S1x2048, .f32⟩
  | 100 => ⟨S1x2048, .f32⟩
  | 101 => ⟨S1x2048, .f32⟩
  | 102 => ⟨S_, .f32⟩
  | 103 => ⟨S1x2048, .f32⟩
  | 104 => ⟨S1x2048, .f32⟩
  | 105 => ⟨S1x2048, .f32⟩
  | 106 => ⟨S1x2048, .f32⟩
  | 107 => ⟨S1x2048, .f32⟩
  | 108 => ⟨S2048x16, .f32⟩
  | 109 => ⟨S1x16, .f32⟩
  | 110 => ⟨S1x16, .f32⟩
  | 111 => ⟨S1x16, .f32⟩
  | 112 => ⟨S_, .f32⟩
  | 113 => ⟨S1, .f32⟩
  | 114 => ⟨S_, .f32⟩
  | 115 => ⟨S1, .f32⟩
  | 116 => ⟨S1, .f32⟩
  | 117 => ⟨S1x1, .f32⟩
  | 118 => ⟨S1x16, .f32⟩
  | 119 => ⟨S1x16, .f32⟩
  | 120 => ⟨S1x16, .f32⟩
  | 121 => ⟨S_, .f32⟩
  | 122 => ⟨S1, .f32⟩
  | 123 => ⟨S1x1, .f32⟩
  | 124 => ⟨S1x16, .f32⟩
  | 125 => ⟨S1x16, .f32⟩
  | 126 => ⟨S1x1x2048, .f32⟩
  | 127 => ⟨S1x1x2048, .f32⟩
  | _ => ⟨S1, .i32⟩

abbrev hbmTy0_1 (i : Nat) : BufTy := match i % 128 with
  | 0 => ⟨S2x1x2048, .f32⟩
  | _ => ⟨S1, .i32⟩

abbrev hbmTy (i : Nat) : BufTy := match i / 128 with
  | 0 => hbmTy0_0 i
  | 1 => hbmTy0_1 i
  | _ => ⟨S1, .i32⟩

abbrev bufTy : (tb : Table) → Fin (tcTables nBuf tb) → BufTy
  | .hbm, ⟨i, _⟩ => hbmTy i
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst : Ref sig .tc := ⟨.hbm, 41, rfl⟩
abbrev main_v26 : Ref sig .tc := ⟨.hbm, 42, rfl⟩
abbrev main_v27 : Ref sig .tc := ⟨.hbm, 43, rfl⟩
abbrev main_cst_1 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_2 : Ref sig .tc := ⟨.hbm, 50, rfl⟩
abbrev main_v33 : Ref sig .tc := ⟨.hbm, 51, rfl⟩
abbrev main_v34 : Ref sig .tc := ⟨.hbm, 52, rfl⟩
abbrev main_cst_3 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_4 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_5 : Ref sig .tc := ⟨.hbm, 84, rfl⟩
abbrev main_v64 : Ref sig .tc := ⟨.hbm, 85, rfl⟩
abbrev main_v65 : Ref sig .tc := ⟨.hbm, 86, rfl⟩
abbrev main_cst_6 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_7 : Ref sig .tc := ⟨.hbm, 93, rfl⟩
abbrev main_v71 : Ref sig .tc := ⟨.hbm, 94, rfl⟩
abbrev main_v72 : Ref sig .tc := ⟨.hbm, 95, rfl⟩
abbrev main_cst_8 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_cst_9 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_cst_10 : Ref sig .tc := ⟨.hbm, 112, rfl⟩
abbrev main_v87 : Ref sig .tc := ⟨.hbm, 113, rfl⟩
abbrev main_cst_11 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_cst_12 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩

abbrev nD : Nat := 1
abbrev τ : Topo := Topo.v7x

variable {F : FTy → Type} [FloatOps F]

class Facts₀ : Prop where
  bcast_S_S1 : S_.BroadcastsInDim S1 (![] : Fin 0 → Fin S1.rank)
  bcast_S1_S1x1_0 : S1.BroadcastsInDim S1x1 (![0] : Fin 1 → Fin S1x1.rank)
  slices_S2x1x2048_S1x1x2048_0_0_0 : S2x1x2048.Slices ![0, 0, 0] S1x1x2048
  shapeCasts_S1x1x2048_S1x2048 : S1x1x2048.ShapeCasts S1x2048
  transposes_S6144x512_S512x6144_1_0 : S6144x512.Transposes [1, 0] S512x6144
  bcast_S6144_S1x6144_1 : S6144.BroadcastsInDim S1x6144 (![1] : Fin 1 → Fin S1x6144.rank)
  transposes_S6144x2048_S2048x6144_1_0 : S6144x2048.Transposes [1, 0] S2048x6144
  slices_S1x6144_S1x2048_0_0 : S1x6144.Slices ![0, 0] S1x2048
  slices_S1x6144_S1x2048_0_2048 : S1x6144.Slices ![0, 2048] S1x2048
  slices_S1x6144_S1x2048_0_4096 : S1x6144.Slices ![0, 4096] S1x2048
  bcast_S_S1x2048 : S_.BroadcastsInDim S1x2048 (![] : Fin 0 → Fin S1x2048.rank)
  slices_S2x1x2048_S1x1x2048_1_0_0 : S2x1x2048.Slices ![1, 0, 0] S1x1x2048
  transposes_S16x2048_S2048x16_1_0 : S16x2048.Transposes [1, 0] S2048x16
  bcast_S16_S1x16_1 : S16.BroadcastsInDim S1x16 (![1] : Fin 1 → Fin S1x16.rank)
  reducesTo_S1x16_S1_d1 : S1x16.ReducesTo [1] S1
  h_S_ : 0 < S_.numel
  bcast_S1x1_S1x16_0_1 : S1x1.BroadcastsInDim S1x16 (![0, 1] : Fin 2 → Fin S1x16.rank)
  bcast_S1x2048_S1x1x2048_1_2 : S1x2048.BroadcastsInDim S1x1x2048 (![1, 2] : Fin 2 → Fin S1x1x2048.rank)
  concatenates_S1x1x2048_S1x1x2048_S2x1x2048_d0 : Shape.Concatenates [S1x1x2048, S1x1x2048] S2x1x2048 0
  gather_S64x512_S1x1_S1x512_1_0_n_n_0_1_1512_wf : GatherDims.WF S64x512 S1x1 S1x512 [1] [0] [] [0] [] 1 ![1, 512]
  dot_S1x512_S512x6144_S1x6144_1_0_0_1_n_n_wf : DotDims.WF S1x512 S512x6144 S1x6144 [1] [0] [0] [1] [] []
  dot_S1x2048_S2048x6144_S1x6144_1_0_0_1_n_n_wf : DotDims.WF S1x2048 S2048x6144 S1x6144 [1] [0] [0] [1] [] []
  dot_S1x2048_S2048x16_S1x16_1_0_0_1_n_n_wf : DotDims.WF S1x2048 S2048x16 S1x16 [1] [0] [0] [1] [] []

variable [Facts₀]

def gather_S64x512_S1x1_S1x512_1_0_n_n_0_1_1512 : GatherDims S64x512 S1x1 S1x512 where
  offsetDims := [1]
  collapsedSliceDims := [0]
  operandBatchingDims := []
  startIndicesBatchingDims := []
  startIndexMap := [0]
  indexVectorDim := 1
  sliceSizes := ![1, 512]
  wf := gather_S64x512_S1x1_S1x512_1_0_n_n_0_1_1512_wf
def dot_S1x512_S512x6144_S1x6144_1_0_0_1_n_n : DotDims S1x512 S512x6144 S1x6144 where
  lhsContracting := [1]
  rhsContracting := [0]
  lhsNonContracting := [0]
  rhsNonContracting := [1]
  lhsBatch := []
  rhsBatch := []
  wf := dot_S1x512_S512x6144_S1x6144_1_0_0_1_n_n_wf
def dot_S1x2048_S2048x6144_S1x6144_1_0_0_1_n_n : DotDims S1x2048 S2048x6144 S1x6144 where
  lhsContracting := [1]
  rhsContracting := [0]
  lhsNonContracting := [0]
  rhsNonContracting := [1]
  lhsBatch := []
  rhsBatch := []
  wf := dot_S1x2048_S2048x6144_S1x6144_1_0_0_1_n_n_wf
def dot_S1x2048_S2048x16_S1x16_1_0_0_1_n_n : DotDims S1x2048 S2048x16 S1x16 where
  lhsContracting := [1]
  rhsContracting := [0]
  lhsNonContracting := [0]
  rhsNonContracting := [1]
  lhsBatch := []
  rhsBatch := []
  wf := dot_S1x2048_S2048x16_S1x16_1_0_0_1_n_n_wf

class Facts : Prop extends Facts₀ where

variable [Facts]
-- ==== Proof.KBits.Region0.lean ====
import proofs.«140640_j85452669321958_2_alg».proof.Proof.Gen.Kernel.Launch
import proofs.«140640_j85452669321958_2_alg».proof.Proof.Gen.Kernel.Skeleton
import proofs.«140640_j85452669321958_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 0: one recurrent layer's step as a pipeline over eight column blocks

The region's kernel computes, at grid point `i`, columns `256·i … 256·i+255` of the new hidden row
`h' = (1 − z) ⊙ n + z ⊙ h`, where `r = σ(x·Wᵢᵣᵀ + bᵢᵣ + h·Wₕᵣᵀ + bₕᵣ)`, `z = σ(x·Wᵢ𝓏ᵀ + bᵢ𝓏 + h·Wₕ𝓏ᵀ + bₕ𝓏)`,
`n = tanh(x·Wᵢₙᵀ + bᵢₙ + r ⊙ (h·Wₕₙᵀ + bₕₙ))`. Everything here is stated at a PARAMETER `V`, the
contents of the TensorCore's buffers when the region is entered:

* `iblk0 V c w t` — window `w`'s block at point `t`, read off its array;
* the rectangles the body reads (`r0_…`) and the one it writes (`r0_O`, the whole output block);
* `out0_6` — what the body leaves in the output window's buffer, as a function of the six input blocks;
* `sound_kernel0` — the body's triple; `dat0` — the pipeline's proof data; `body_obligation0`.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array at the region's entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current staging buffer holds its block at every point, whether the pipeline fetched it there
or not: a window fetched only at the first point has a constant block index, so the block of the point before is the
block of this point. This holds for any proof data whose array is `V`'s and whose body leaves the block in place. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes -/

/-- the whole input row `x` -/
abbrev r0_X : Rect S1x512 := Rect.unit (s := S1x512) ![0, 0] S1x512.size inb_S1x512_S1x512_0_0
/-- the whole hidden row `h` -/
abbrev r0_H : Rect S1x2048 := Rect.unit (s := S1x2048) ![0, 0] S1x2048.size inb_S1x2048_S1x2048_0_0
/-- the 256 columns of `h` this point updates, at column `256·i` -/
abbrev r0_Ht (i : grid0.Coords) : Rect S1x2048 := Rect.unit (s := S1x2048) (k0_off1 i) S1x256.size (k0_off1_inb i)
/-- gate `g`'s 256 rows of the input weights' block -/
abbrev r0_Wi0 : Rect S3x256x512 := Rect.unit (s := S3x256x512) ![0, 0, 0] S1x256x512.size inb_S3x256x512_S1x256x512_0_0_0
abbrev r0_Wi1 : Rect S3x256x512 := Rect.unit (s := S3x256x512) ![1, 0, 0] S1x256x512.size inb_S3x256x512_S1x256x512_1_0_0
abbrev r0_Wi2 : Rect S3x256x512 := Rect.unit (s := S3x256x512) ![2, 0, 0] S1x256x512.size inb_S3x256x512_S1x256x512_2_0_0
/-- gate `g`'s 256 rows of the hidden weights' block -/
abbrev r0_Wh0 : Rect S3x256x2048 := Rect.unit (s := S3x256x2048) ![0, 0, 0] S1x256x2048.size inb_S3x256x2048_S1x256x2048_0_0_0
abbrev r0_Wh1 : Rect S3x256x2048 := Rect.unit (s := S3x256x2048) ![1, 0, 0] S1x256x2048.size inb_S3x256x2048_S1x256x2048_1_0_0
abbrev r0_Wh2 : Rect S3x256x2048 := Rect.unit (s := S3x256x2048) ![2, 0, 0] S1x256x2048.size inb_S3x256x2048_S1x256x2048_2_0_0
/-- gate `g`'s row of a bias block -/
abbrev r0_B0 : Rect S3x256 := Rect.unit (s := S3x256) ![0, 0] S1x256.size inb_S3x256_S1x256_0_0
abbrev r0_B1 : Rect S3x256 := Rect.unit (s := S3x256) ![1, 0] S1x256.size inb_S3x256_S1x256_1_0
abbrev r0_B2 : Rect S3x256 := Rect.unit (s := S3x256) ![2, 0] S1x256.size inb_S3x256_S1x256_2_0
/-- the whole output block -/
abbrev r0_O : Rect S1x256 := Rect.unit (s := S1x256) ![0, 0] S1x256.size inb_S1x256_S1x256_0_0

/-! ## What the body leaves in the output window's buffer -/

/-- The output window's staging buffer after the body at grid coordinate `i`, from the six input blocks: its one
    store, of the whole block, of the new hidden columns computed from `x` (`x0`), `h` (`x1`, whole and at the
    point's columns), the three gates' input weights and biases (`x2`, `x4`) and hidden weights and biases (`x3`, `x5`). -/
def out0_6 (i : grid0.Coords) (x0 : Vec F S1x512 .f32) (x1 : Vec F S1x2048 .f32) (x2 : Vec F S3x256x512 .bf16) (x3 : Vec F S3x256x2048 .bf16) (x4 : Vec F S3x256 .f32) (x5 : Vec F S3x256 .f32) : Vec F S1x256 .f32 :=
  View.canon [⟨r0_O, k0_pay1 (k0_pay3 (View.ld x1 r0_H)) (k0_pay4 (View.ld x1 (r0_Ht i)))
    (k0_pay5 (View.ld x0 r0_X) (View.ld x2 r0_Wi0) (View.ld x4 r0_B0))
    (k0_pay6 (View.ld x0 r0_X) (View.ld x2 r0_Wi1) (View.ld x4 r0_B1))
    (k0_pay7 (View.ld x0 r0_X) (View.ld x2 r0_Wi2) (View.ld x4 r0_B2))
    (View.ld x3 r0_Wh0) (View.ld x5 r0_B0) (View.ld x3 r0_Wh1) (View.ld x5 r0_B1) (View.ld x3 r0_Wh2) (View.ld x5 r0_B2)⟩]

/-- The one store is of the whole block, so it covers the buffer. -/
theorem cover0_6 (p0 : Vec F S1x256 .f32) (y : S1x256.Idx) :
    ∃ pc ∈ ([⟨r0_O, p0⟩] : List (View.Piece (Elt F) S1x256 .f32)), y ∈ pc.1.set :=
  View.cover_of_tiled [⟨r0_O, p0⟩] S1x256.size (by rfl) y

/-! ## The body's triple -/

set_option maxHeartbeats 4000000 in
/-- The kernel body at grid coordinate `i` on whole staging memrefs, the inputs' at read contents `xW` and the output's
    at anything, runs to the continuation holding the inputs' as they were and the output's at `out0_6` of them:
    every load is of a rectangle inside a held buffer, and the one store overwrites the output's buffer whole. -/
theorem sound_kernel0 (c : Dev nD) (E : Set ℕ) (i : grid0.Coords) (arg1 : Memref sig .tc .vmem S1x512 .f32) (harg1 : arg1.IsWhole) (arg2 : Memref sig .tc .vmem S1x2048 .f32) (harg2 : arg2.IsWhole) (arg3 : Memref sig .tc .vmem S3x256x512 .bf16) (harg3 : arg3.IsWhole) (arg4 : Memref sig .tc .vmem S3x256x2048 .bf16) (harg4 : arg4.IsWhole) (arg5 : Memref sig .tc .vmem S3x256 .f32) (harg5 : arg5.IsWhole) (arg6 : Memref sig .tc .vmem S3x256 .f32) (harg6 : arg6.IsWhole) (arg7 : Memref sig .tc .vmem S1x256 .f32) (harg7 : arg7.IsWhole)
    (x0 : Vec F S1x512 .f32) (x1 : Vec F S1x2048 .f32) (x2 : Vec F S3x256x512 .bf16) (x3 : Vec F S3x256x2048 .bf16) (x4 : Vec F S3x256 .f32) (x5 : Vec F S3x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 i x0 x1 x2 x3 x4 x5)) -∗ K ⟨⟩))
      ⊢ wp frame (wpE (defs₀ (F := F)) Variants.none c none) E (cc0__gru_kernel i arg1 harg1 arg2 harg2 arg3 harg3 arg4 harg4 arg5 harg5 arg6 harg6 arg7 harg7) K := by
  simp only [cc0__gru_kernel_eq_skeleton]; unfold cc0__gru_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The pipeline's proof data -/

/-- The proof data of the region's pipeline on core `c`: the arrays as the region finds them (`V`); after the body at
    point `t` each input's buffer at its block and the output's at `out0_6` of the input blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (grid0.coords t) (iblk0 V c 0 t) (iblk0 V c 1 t) (iblk0 V c 2 t) (iblk0 V c 3 t) (iblk0 V c 4 t) (iblk0 V c 5 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (grid0.coords t) (iblk0 V c 0 t) (iblk0 V c 1 t) (iblk0 V c 2 t) (iblk0 V c 3 t) (iblk0 V c 4 t) (iblk0 V c 5 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`: the invariant, the core's dues, and each window's current staging memref
    at what it holds before the body, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 1000000 in
/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KBits.Region1.lean ====
import proofs.«140640_j85452669321958_2_alg».proof.Proof.Gen.Kernel.Launch
import proofs.«140640_j85452669321958_2_alg».proof.Proof.Gen.Kernel.Skeleton
import proofs.«140640_j85452669321958_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 1: one recurrent layer's step as a pipeline over eight column blocks

The region's kernel computes, at grid point `i`, columns `256·i … 256·i+255` of the new hidden row
`h' = (1 − z) ⊙ n + z ⊙ h`, where `r = σ(x·Wᵢᵣᵀ + bᵢᵣ + h·Wₕᵣᵀ + bₕᵣ)`, `z = σ(x·Wᵢ𝓏ᵀ + bᵢ𝓏 + h·Wₕ𝓏ᵀ + bₕ𝓏)`,
`n = tanh(x·Wᵢₙᵀ + bᵢₙ + r ⊙ (h·Wₕₙᵀ + bₕₙ))`. Everything here is stated at a PARAMETER `V`, the
contents of the TensorCore's buffers when the region is entered:

* `iblk1 V c w t` — window `w`'s block at point `t`, read off its array;
* the rectangles the body reads (`r1_…`) and the one it writes (`r1_O`, the whole output block);
* `out1_6` — what the body leaves in the output window's buffer, as a function of the six input blocks;
* `sound_kernel1` — the body's triple; `dat1` — the pipeline's proof data; `body_obligation1`.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array at the region's entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current staging buffer holds its block at every point, whether the pipeline fetched it there
or not: a window fetched only at the first point has a constant block index, so the block of the point before is the
block of this point. This holds for any proof data whose array is `V`'s and whose body leaves the block in place. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes -/

/-- the whole input row `x` -/
abbrev r1_X : Rect S1x2048 := Rect.unit (s := S1x2048) ![0, 0] S1x2048.size inb_S1x2048_S1x2048_0_0
/-- the whole hidden row `h` -/
abbrev r1_H : Rect S1x2048 := Rect.unit (s := S1x2048) ![0, 0] S1x2048.size inb_S1x2048_S1x2048_0_0
/-- the 256 columns of `h` this point updates, at column `256·i` -/
abbrev r1_Ht (i : grid1.Coords) : Rect S1x2048 := Rect.unit (s := S1x2048) (k1_off1 i) S1x256.size (k1_off1_inb i)
/-- gate `g`'s 256 rows of the input weights' block -/
abbrev r1_Wi0 : Rect S3x256x2048 := Rect.unit (s := S3x256x2048) ![0, 0, 0] S1x256x2048.size inb_S3x256x2048_S1x256x2048_0_0_0
abbrev r1_Wi1 : Rect S3x256x2048 := Rect.unit (s := S3x256x2048) ![1, 0, 0] S1x256x2048.size inb_S3x256x2048_S1x256x2048_1_0_0
abbrev r1_Wi2 : Rect S3x256x2048 := Rect.unit (s := S3x256x2048) ![2, 0, 0] S1x256x2048.size inb_S3x256x2048_S1x256x2048_2_0_0
/-- gate `g`'s 256 rows of the hidden weights' block -/
abbrev r1_Wh0 : Rect S3x256x2048 := Rect.unit (s := S3x256x2048) ![0, 0, 0] S1x256x2048.size inb_S3x256x2048_S1x256x2048_0_0_0
abbrev r1_Wh1 : Rect S3x256x2048 := Rect.unit (s := S3x256x2048) ![1, 0, 0] S1x256x2048.size inb_S3x256x2048_S1x256x2048_1_0_0
abbrev r1_Wh2 : Rect S3x256x2048 := Rect.unit (s := S3x256x2048) ![2, 0, 0] S1x256x2048.size inb_S3x256x2048_S1x256x2048_2_0_0
/-- gate `g`'s row of a bias block -/
abbrev r1_B0 : Rect S3x256 := Rect.unit (s := S3x256) ![0, 0] S1x256.size inb_S3x256_S1x256_0_0
abbrev r1_B1 : Rect S3x256 := Rect.unit (s := S3x256) ![1, 0] S1x256.size inb_S3x256_S1x256_1_0
abbrev r1_B2 : Rect S3x256 := Rect.unit (s := S3x256) ![2, 0] S1x256.size inb_S3x256_S1x256_2_0
/-- the whole output block -/
abbrev r1_O : Rect S1x256 := Rect.unit (s := S1x256) ![0, 0] S1x256.size inb_S1x256_S1x256_0_0

/-! ## What the body leaves in the output window's buffer -/

/-- The output window's staging buffer after the body at grid coordinate `i`, from the six input blocks: its one
    store, of the whole block, of the new hidden columns computed from `x` (`x0`), `h` (`x1`, whole and at the
    point's columns), the three gates' input weights and biases (`x2`, `x4`) and hidden weights and biases (`x3`, `x5`). -/
def out1_6 (i : grid1.Coords) (x0 : Vec F S1x2048 .f32) (x1 : Vec F S1x2048 .f32) (x2 : Vec F S3x256x2048 .bf16) (x3 : Vec F S3x256x2048 .bf16) (x4 : Vec F S3x256 .f32) (x5 : Vec F S3x256 .f32) : Vec F S1x256 .f32 :=
  View.canon [⟨r1_O, k1_pay1 (k1_pay3 (View.ld x1 r1_H)) (k1_pay4 (View.ld x1 (r1_Ht i)))
    (k1_pay5 (View.ld x0 r1_X) (View.ld x2 r1_Wi0) (View.ld x4 r1_B0))
    (k1_pay6 (View.ld x0 r1_X) (View.ld x2 r1_Wi1) (View.ld x4 r1_B1))
    (k1_pay7 (View.ld x0 r1_X) (View.ld x2 r1_Wi2) (View.ld x4 r1_B2))
    (View.ld x3 r1_Wh0) (View.ld x5 r1_B0) (View.ld x3 r1_Wh1) (View.ld x5 r1_B1) (View.ld x3 r1_Wh2) (View.ld x5 r1_B2)⟩]

/-- The one store is of the whole block, so it covers the buffer. -/
theorem cover1_6 (p0 : Vec F S1x256 .f32) (y : S1x256.Idx) :
    ∃ pc ∈ ([⟨r1_O, p0⟩] : List (View.Piece (Elt F) S1x256 .f32)), y ∈ pc.1.set :=
  View.cover_of_tiled [⟨r1_O, p0⟩] S1x256.size (by rfl) y

/-! ## The body's triple -/

set_option maxHeartbeats 4000000 in
/-- The kernel body at grid coordinate `i` on whole staging memrefs, the inputs' at read contents `xW` and the output's
    at anything, runs to the continuation holding the inputs' as they were and the output's at `out1_6` of them:
    every load is of a rectangle inside a held buffer, and the one store overwrites the output's buffer whole. -/
theorem sound_kernel1 (c : Dev nD) (E : Set ℕ) (i : grid1.Coords) (arg1 : Memref sig .tc .vmem S1x2048 .f32) (harg1 : arg1.IsWhole) (arg2 : Memref sig .tc .vmem S1x2048 .f32) (harg2 : arg2.IsWhole) (arg3 : Memref sig .tc .vmem S3x256x2048 .bf16) (harg3 : arg3.IsWhole) (arg4 : Memref sig .tc .vmem S3x256x2048 .bf16) (harg4 : arg4.IsWhole) (arg5 : Memref sig .tc .vmem S3x256 .f32) (harg5 : arg5.IsWhole) (arg6 : Memref sig .tc .vmem S3x256 .f32) (harg6 : arg6.IsWhole) (arg7 : Memref sig .tc .vmem S1x256 .f32) (harg7 : arg7.IsWhole)
    (x0 : Vec F S1x2048 .f32) (x1 : Vec F S1x2048 .f32) (x2 : Vec F S3x256x2048 .bf16) (x3 : Vec F S3x256x2048 .bf16) (x4 : Vec F S3x256 .f32) (x5 : Vec F S3x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 i x0 x1 x2 x3 x4 x5)) -∗ K ⟨⟩))
      ⊢ wp frame (wpE (defs₀ (F := F)) Variants.none c none) E (cc1__gru_kernel i arg1 harg1 arg2 harg2 arg3 harg3 arg4 harg4 arg5 harg5 arg6 harg6 arg7 harg7) K := by
  simp only [cc1__gru_kernel_eq_skeleton]; unfold cc1__gru_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The pipeline's proof data -/

/-- The proof data of the region's pipeline on core `c`: the arrays as the region finds them (`V`); after the body at
    point `t` each input's buffer at its block and the output's at `out1_6` of the input blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (grid1.coords t) (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (grid1.coords t) (iblk1 V c 0 t) (iblk1 V c 1 t) (iblk1 V c 2 t) (iblk1 V c 3 t) (iblk1 V c 4 t) (iblk1 V c 5 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`: the invariant, the core's dues, and each window's current staging memref
    at what it holds before the body, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

set_option maxHeartbeats 1000000 in
/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KBits.Frame.lean ====
import proofs.«140640_j85452669321958_2_alg».proof.Proof.KBits.Region0
import proofs.«140640_j85452669321958_2_alg».proof.Proof.KBits.Region1
import proofs.«140640_j85452669321958_2_alg».proof.Proof.Gen.Kernel.Regions

/-!
# The run of the whole program, with every unscoped buffer's final contents named

The program is four segments: 33 host operations, the first layer's region, the second layer's region, 21 host
operations. The TensorCore's buffer contents at the five boundaries are a fold from the launch memory:

* `W0` — the launch memory; `W1` — after the first host stretch;
* `W2` — `W1` with region 0's arrays at what its pipeline leaves (inputs as entered, the output array with every
  block's write-back folded in); `W3` — `W2` with region 1's arrays likewise;
* `W4` — after the last host stretch.

`run_bufs`: every weakly fair execution from a memory with zero counters terminates, nothing faulting, and in every
final state each unscoped buffer of each core holds `W4`. `frame`: the thirteen argument arrays end as launched,
because no host operation and no region writes one.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents, region 1's entry contents). -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references (region 1's exit contents). -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the last host stretch: the contents the program returns with. -/
abbrev W4 : Dev nD → Valuation τ sig (Elt F) := fun c => StableHlo.after hostOps2 (W3 m ρ c)

/-! ### The arguments end as launched: no host operation writes one and no region has one among its arrays, so the
fold at an argument's buffer walks back to the launch memory -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_writes_sub hostOps2 _ hostOps2_writes (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_writes_sub hostOps2 _ hostOps2_writes (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_writes_sub hostOps2 _ hostOps2_writes (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := StableHlo.after_of_writes_sub hostOps2 _ hostOps2_writes (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := StableHlo.after_of_writes_sub hostOps2 _ hostOps2_writes (by decide)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := StableHlo.after_of_writes_sub hostOps2 _ hostOps2_writes (by decide)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := StableHlo.after_of_writes_sub hostOps2 _ hostOps2_writes (by decide)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl
theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := StableHlo.after_of_writes_sub hostOps2 _ hostOps2_writes (by decide)
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl
theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := StableHlo.after_of_writes_sub hostOps2 _ hostOps2_writes (by decide)
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl
theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := StableHlo.after_of_writes_sub hostOps2 _ hostOps2_writes (by decide)
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl
theorem W4_main_arg10 (c : Dev nD) : W4 m ρ c (Proc.devRef .tc main_arg10) = m ((c : Thread nD τ).loc main_arg10) :=
  calc W4 m ρ c (Proc.devRef .tc main_arg10)
    _ = W3 m ρ c (Proc.devRef .tc main_arg10) := StableHlo.after_of_writes_sub hostOps2 _ hostOps2_writes (by decide)
    _ = W2 m ρ c (Proc.devRef .tc main_arg10) := W3_of_ne m ρ c main_arg10 (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide)
    _ = m ((c : Thread nD τ).loc main_arg10) := rfl
theorem W4_main_arg11 (c : Dev nD) : W4 m ρ c (Proc.devRef .tc main_arg11) = m ((c : Thread nD τ).loc main_arg11) :=
  calc W4 m ρ c (Proc.devRef .tc main_arg11)
    _ = W3 m ρ c (Proc.devRef .tc main_arg11) := StableHlo.after_of_writes_sub hostOps2 _ hostOps2_writes (by decide)
    _ = W2 m ρ c (Proc.devRef .tc main_arg11) := W3_of_ne m ρ c main_arg11 (by decide)
    _ = W1 m ρ c (Proc.devRef .tc main_arg11) := W2_of_ne m ρ c main_arg11 (by decide)
    _ = W0 m ρ c (Proc.devRef .tc main_arg11) := StableHlo.after_of_writes_sub hostOps0 _ hostOps0_writes (by decide)
    _ = m ((c : Thread nD τ).loc main_arg11) := rfl
theorem W4_main_arg12 (c : Dev nD) : W4 m ρ c (Proc.devRef .tc main_arg12) = m ((c : Thread nD τ).loc main_arg12) :=
  calc W4 m ρ c (Proc.devRef .tc main_arg12)
    _ = W3 m ρ c (Proc.devRef .tc main_arg12) := StableHlo.after_of_writes_sub hostOps2 _ hostOps2_writes (by decide)
    _ = W2 m ρ c (Proc.devRef .tc main_arg12) := W3_of_ne m ρ c main_arg12 (by decide)
    _ = W1 m ρ c (Proc.devRef .tc main_arg12) := W2_of_ne m ρ c main_arg12 (by decide)
    _ = W0 m ρ c (Proc.devRef .tc main_arg12) := StableHlo.after_of_writes_sub hostOps0 _ hostOps0_writes (by decide)
    _ = m ((c : Thread nD τ).loc main_arg12) := rfl

/-! ## The proof data family and the thread state -/

/-- The prefetched tables' admissible contents: no pipeline has a table. -/
abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with
    those references at `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents `W4`, the generator
    register at some state. -/
abbrev Tₙ (c : Dev nD) : sProp 𝕄 := iprop(StableHlo.held (c : Thread nD τ) (Pipeline.ucRefs τ sig) (W4 m ρ c) ∗ ∃ r, prngReg c r)

/-! ## The regions as segments -/

-- a library lemma stated over the pinned configuration `pin pcs a p` unifies with the printed one only when
-- unification may unfold plain definitions in a metavariable's type
set_option backward.isDefEq.respectTransparency.types false in
/-- REGION 0 as a segment over the thread state: entered from every unscoped buffer at `W1`, left at `W2`. Its
    arrays are split out of the unscoped buffers at entry and put back at their final contents at exit; the generator
    register goes into the pipeline's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration `pin pcs a p` unifies with the printed one only when
-- unification may unfold plain definitions in a metavariable's type
set_option backward.isDefEq.respectTransparency.types false in
/-- REGION 1 as a segment over the thread state: entered from every unscoped buffer at `W2`, left at `W3`. Its
    arrays are split out of the unscoped buffers at entry and put back at their final contents at exit; the generator
    register goes into the pipeline's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The four segments in order: host stretch, region 0, region 1, host stretch. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
/-- The program IS the run of the segments. -/
theorem main_run (c : Dev nD) : main (F := F) c = Pipeline.Seg.run (segs m ρ) := (main_chain c).trans (by chain_rfl)

set_option backward.isDefEq.respectTransparency.types false in
/-- THE RUN: at the compiled mesh, from any memory with zero counters, every weakly fair execution of the program on the
    TensorCores terminates, nothing faulting, and in every final state every unscoped buffer of every core holds `W4`. -/
theorem run_bufs : θ_run defs (onTc (τ := τ) (main (F := F))) ⟨m, fun _ => 0, ρ⟩ (fun r => ∀ c : Dev nD,
      ∀ b ∈ Pipeline.ucRefs τ sig, r.2.mem ((c : Thread nD τ).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- THE FRAME: the thirteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c),
     (h c _ (mem_uc main_arg10 (by decide))).trans (W4_main_arg10 m ρ c),
     (h c _ (mem_uc main_arg11 (by decide))).trans (W4_main_arg11 m ρ c),
     (h c _ (mem_uc main_arg12 (by decide))).trans (W4_main_arg12 m ρ c)⟩) (run_bufs m ρ)

end Cert.Kernel.Hand

end
-- ==== Proof.KIdeal.Region0.lean ====
import proofs.«140640_j85452669321958_2_alg».proof.Proof.Gen.KernelIdeal.Launch
import proofs.«140640_j85452669321958_2_alg».proof.Proof.Gen.KernelIdeal.Skeleton
import proofs.«140640_j85452669321958_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 0: one recurrent layer's step as a pipeline over eight column blocks

The region's kernel computes, at grid point `i`, columns `256·i … 256·i+255` of the new hidden row
`h' = (1 − z) ⊙ n + z ⊙ h`, where `r = σ(x·Wᵢᵣᵀ + bᵢᵣ + h·Wₕᵣᵀ + bₕᵣ)`, `z = σ(x·Wᵢ𝓏ᵀ + bᵢ𝓏 + h·Wₕ𝓏ᵀ + bₕ𝓏)`,
`n = tanh(x·Wᵢₙᵀ + bᵢₙ + r ⊙ (h·Wₕₙᵀ + bₕₙ))`. Everything here is stated at a PARAMETER `V`, the
contents of the TensorCore's buffers when the region is entered:

* `iblk0 V c w t` — window `w`'s block at point `t`, read off its array;
* the rectangles the body reads (`r0_…`) and the one it writes (`r0_O`, the whole output block);
* `out0_6` — what the body leaves in the output window's buffer, as a function of the six input blocks;
* `sound_kernel0` — the body's triple; `dat0` — the pipeline's proof data; `body_obligation0`.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array at the region's entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current staging buffer holds its block at every point, whether the pipeline fetched it there
or not: a window fetched only at the first point has a constant block index, so the block of the point before is the
block of this point. This holds for any proof data whose array is `V`'s and whose body leaves the block in place. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes -/

/-- the whole input row `x` -/
abbrev r0_X : Rect S1x512 := Rect.unit (s := S1x512) ![0, 0] S1x512.size inb_S1x512_S1x512_0_0
/-- the whole hidden row `h` -/
abbrev r0_H : Rect S1x2048 := Rect.unit (s := S1x2048) ![0, 0] S1x2048.size inb_S1x2048_S1x2048_0_0
/-- the 256 columns of `h` this point updates, at column `256·i` -/
abbrev r0_Ht (i : grid0.Coords) : Rect S1x2048 := Rect.unit (s := S1x2048) (k0_off1 i) S1x256.size (k0_off1_inb i)
/-- gate `g`'s 256 rows of the input weights' block -/
abbrev r0_Wi0 : Rect S3x256x512 := Rect.unit (s := S3x256x512) ![0, 0, 0] S1x256x512.size inb_S3x256x512_S1x256x512_0_0_0
abbrev r0_Wi1 : Rect S3x256x512 := Rect.unit (s := S3x256x512) ![1, 0, 0] S1x256x512.size inb_S3x256x512_S1x256x512_1_0_0
abbrev r0_Wi2 : Rect S3x256x512 := Rect.unit (s := S3x256x512) ![2, 0, 0] S1x256x512.size inb_S3x256x512_S1x256x512_2_0_0
/-- gate `g`'s 256 rows of the hidden weights' block -/
abbrev r0_Wh0 : Rect S3x256x2048 := Rect.unit (s := S3x256x2048) ![0, 0, 0] S1x256x2048.size inb_S3x256x2048_S1x256x2048_0_0_0
abbrev r0_Wh1 : Rect S3x256x2048 := Rect.unit (s := S3x256x2048) ![1, 0, 0] S1x256x2048.size inb_S3x256x2048_S1x256x2048_1_0_0
abbrev r0_Wh2 : Rect S3x256x2048 := Rect.unit (s := S3x256x2048) ![2, 0, 0] S1x256x2048.size inb_S3x256x2048_S1x256x2048_2_0_0
/-- gate `g`'s row of a bias block -/
abbrev r0_B0 : Rect S3x256 := Rect.unit (s := S3x256) ![0, 0] S1x256.size inb_S3x256_S1x256_0_0
abbrev r0_B1 : Rect S3x256 := Rect.unit (s := S3x256) ![1, 0] S1x256.size inb_S3x256_S1x256_1_0
abbrev r0_B2 : Rect S3x256 := Rect.unit (s := S3x256) ![2, 0] S1x256.size inb_S3x256_S1x256_2_0
/-- the whole output block -/
abbrev r0_O : Rect S1x256 := Rect.unit (s := S1x256) ![0, 0] S1x256.size inb_S1x256_S1x256_0_0

/-! ## What the body leaves in the output window's buffer -/

/-- The output window's staging buffer after the body at grid coordinate `i`, from the six input blocks: its one
    store, of the whole block, of the new hidden columns computed from `x` (`x0`), `h` (`x1`, whole and at the
    point's columns), the three gates' input weights and biases (`x2`, `x4`) and hidden weights and biases (`x3`, `x5`). -/
def out0_6 (i : grid0.Coords) (x0 : Vec F S1x512 .f32) (x1 : Vec F S1x2048 .f32) (x2 : Vec F S3x256x512 .bf16) (x3 : Vec F S3x256x2048 .bf16) (x4 : Vec F S3x256 .f32) (x5 : Vec F S3x256 .f32) : Vec F S1x256 .f32 :=
  View.canon [⟨r0_O, k0_pay1 (k0_pay3 (View.ld x1 r0_H)) (k0_pay4 (View.ld x1 (r0_Ht i)))
    (k0_pay5 (View.ld x0 r0_X) (View.ld x2 r0_Wi0) (View.ld x4 r0_B0))
    (k0_pay6 (View.ld x0 r0_X) (View.ld x2 r0_Wi1) (View.ld x4 r0_B1))
    (k0_pay7 (View.ld x0 r0_X) (View.ld x2 r0_Wi2) (View.ld x4 r0_B2))
    (View.ld x3 r0_Wh0) (View.ld x5 r0_B0) (View.ld x3 r0_Wh1) (View.ld x5 r0_B1) (View.ld x3 r0_Wh2) (View.ld x5 r0_B2)⟩]

/-- The one store is of the whole block, so it covers the buffer. -/
theorem cover0_6 (p0 : Vec F S1x256 .f32) (y : S1x256.Idx) :
    ∃ pc ∈ ([⟨r0_O, p0⟩] : List (View.Piece (Elt F) S1x256 .f32)), y ∈ pc.1.set :=
  View.cover_of_tiled [⟨r0_O, p0⟩] S1x256.size (by rfl) y

/-! ## The body's triple -/

set_option maxHeartbeats 4000000 in
/-- The kernel body at grid coordinate `i` on whole staging memrefs, the inputs' at read contents `xW` and the output's
    at anything, runs to the continuation holding the inputs' as they were and the output's at `out0_6` of them:
    every load is of a rectangle inside a held buffer, and the one store overwrites the output's buffer whole. -/
theorem sound_kernel0 (c : Dev nD) (E : Set ℕ) (i : grid0.Coords) (arg1 : Memref sig .tc .vmem S1x512 .f32) (harg1 : arg1.IsWhole) (arg2 : Memref sig .tc .vmem S1x2048 .f32) (harg2 : arg2.IsWhole) (arg3 : Memref sig .tc .vmem S3x256x512 .bf16) (harg3 : arg3.IsWhole) (arg4 : Memref sig .tc .vmem S3x256x2048 .bf16) (harg4 : arg4.IsWhole) (arg5 : Memref sig .tc .vmem S3x256 .f32) (harg5 : arg5.IsWhole) (arg6 : Memref sig .tc .vmem S3x256 .f32) (harg6 : arg6.IsWhole) (arg7 : Memref sig .tc .vmem S1x256 .f32) (harg7 : arg7.IsWhole)
    (x0 : Vec F S1x512 .f32) (x1 : Vec F S1x2048 .f32) (x2 : Vec F S3x256x512 .bf16) (x3 : Vec F S3x256x2048 .bf16) (x4 : Vec F S3x256 .f32) (x5 : Vec F S3x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 i x0 x1 x2 x3 x4 x5)) -∗ K ⟨⟩))
      ⊢ wp frame (wpE (defs₀ (F := F)) Variants.none c none) E (cc0__gru_kernel i arg1 harg1 arg2 harg2 arg3 harg3 arg4 harg4 arg5 harg5 arg6 harg6 arg7 harg7) K := by
  simp only [cc0__gru_kernel_eq_skeleton]; unfold cc0__gru_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The pipeline's proof data -/

/-- The proof data of the region's pipeline on core `c`: the arrays as the region finds them (`V`); after the body at
    point `t` each input's buffer at its block and the output's at `out0_6` of the input blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (grid0.coords t) (iblk0 V c 0 t) (iblk0 V c 1 t) (iblk0 V c 2 t) (iblk0 V c 3 t) (iblk0 V c 4 t) (iblk0 V c 5 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (grid0.coords t) (iblk0 V c 0 t) (iblk0 V c 1 t) (iblk0 V c 2 t) (iblk0 V c 3 t) (iblk0 V c 4 t) (iblk0 V c 5 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`: the invariant, the core's dues, and each window's current staging memref
    at what it holds before the body, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 1000000 in
/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIdeal.Region1.lean ====
import proofs.«140640_j85452669321958_2_alg».proof.Proof.Gen.KernelIdeal.Launch
import proofs.«140640_j85452669321958_2_alg».proof.Proof.Gen.KernelIdeal.Skeleton
import proofs.«140640_j85452669321958_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 1: one recurrent layer's step as a pipeline over eight column blocks

The region's kernel computes, at grid point `i`, columns `256·i … 256·i+255` of the new hidden row
`h' = (1 − z) ⊙ n + z ⊙ h`, where `r = σ(x·Wᵢᵣᵀ + bᵢᵣ + h·Wₕᵣᵀ + bₕᵣ)`, `z = σ(x·Wᵢ𝓏ᵀ + bᵢ𝓏 + h·Wₕ𝓏ᵀ + bₕ𝓏)`,
`n = tanh(x·Wᵢₙᵀ + bᵢₙ + r ⊙ (h·Wₕₙᵀ + bₕₙ))`. Everything here is stated at a PARAMETER `V`, the
contents of the TensorCore's buffers when the region is entered:

* `iblk1 V c w t` — window `w`'s block at point `t`, read off its array;
* the rectangles the body reads (`r1_…`) and the one it writes (`r1_O`, the whole output block);
* `out1_6` — what the body leaves in the output window's buffer, as a function of the six input blocks;
* `sound_kernel1` — the body's triple; `dat1` — the pipeline's proof data; `body_obligation1`.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array at the region's entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current staging buffer holds its block at every point, whether the pipeline fetched it there
or not: a window fetched only at the first point has a constant block index, so the block of the point before is the
block of this point. This holds for any proof data whose array is `V`'s and whose body leaves the block in place. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes -/

/-- the whole input row `x` -/
abbrev r1_X : Rect S1x2048 := Rect.unit (s := S1x2048) ![0, 0] S1x2048.size inb_S1x2048_S1x2048_0_0
/-- the whole hidden row `h` -/
abbrev r1_H : Rect S1x2048 := Rect.unit (s := S1x2048) ![0, 0] S1x2048.size inb_S1x2048_S1x2048_0_0
/-- the 256 columns of `h` this point updates, at column `256·i` -/
abbrev r1_Ht (i : grid1.Coords) : Rect S1x2048 := Rect.unit (s := S1x2048) (k1_off1 i) S1x256.size (k1_off1_inb i)
/-- gate `g`'s 256 rows of the input weights' block -/
abbrev r1_Wi0 : Rect S3x256x2048 := Rect.unit (s := S3x256x2048) ![0, 0, 0] S1x256x2048.size inb_S3x256x2048_S1x256x2048_0_0_0
abbrev r1_Wi1 : Rect S3x256x2048 := Rect.unit (s := S3x256x2048) ![1, 0, 0] S1x256x2048.size inb_S3x256x2048_S1x256x2048_1_0_0
abbrev r1_Wi2 : Rect S3x256x2048 := Rect.unit (s := S3x256x2048) ![2, 0, 0] S1x256x2048.size inb_S3x256x2048_S1x256x2048_2_0_0
/-- gate `g`'s 256 rows of the hidden weights' block -/
abbrev r1_Wh0 : Rect S3x256x2048 := Rect.unit (s := S3x256x2048) ![0, 0, 0] S1x256x2048.size inb_S3x256x2048_S1x256x2048_0_0_0
abbrev r1_Wh1 : Rect S3x256x2048 := Rect.unit (s := S3x256x2048) ![1, 0, 0] S1x256x2048.size inb_S3x256x2048_S1x256x2048_1_0_0
abbrev r1_Wh2 : Rect S3x256x2048 := Rect.unit (s := S3x256x2048) ![2, 0, 0] S1x256x2048.size inb_S3x256x2048_S1x256x2048_2_0_0
/-- gate `g`'s row of a bias block -/
abbrev r1_B0 : Rect S3x256 := Rect.unit (s := S3x256) ![0, 0] S1x256.size inb_S3x256_S1x256_0_0
abbrev r1_B1 : Rect S3x256 := Rect.unit (s := S3x256) ![1, 0] S1x256.size inb_S3x256_S1x256_1_0
abbrev r1_B2 : Rect S3x256 := Rect.unit (s := S3x256) ![2, 0] S1x256.size inb_S3x256_S1x256_2_0
/-- the whole output block -/
abbrev r1_O : Rect S1x256 := Rect.unit (s := S1x256) ![0, 0] S1x256.size inb_S1x256_S1x256_0_0

/-! ## What the body leaves in the output window's buffer -/

/-- The output window's staging buffer after the body at grid coordinate `i`, from the six input blocks: its one
    store, of the whole block, of the new hidden columns computed from `x` (`x0`), `h` (`x1`, whole and at the
    point's columns), the three gates' input weights and biases (`x2`, `x4`) and hidden weights and biases (`x3`, `x5`). -/
def out1_6 (i : grid1.Coords) (x0 : Vec F S1x2048 .f32) (x1 : Vec F S1x2048 .f32) (x2 : Vec F S3x256x2048 .bf16) (x3 : Vec F S3x256x2048 .bf16) (x4 : Vec F S3x256 .f32) (x5 : Vec F S3x256 .f32) : Vec F S1x256 .f32 :=
  View.canon [⟨r1_O, k1_pay1 (k1_pay3 (View.ld x1 r1_H)) (k1_pay4 (View.ld x1 (r1_Ht i)))
    (k1_pay5 (View.ld x0 r1_X) (View.ld x2 r1_Wi0) (View.ld x4 r1_B0))
    (k1_pay6 (View.ld x0 r1_X) (View.ld x2 r1_Wi1) (View.ld x4 r1_B1))
    (k1_pay7 (View.ld x0 r1_X) (View.ld x2 r1_Wi2) (View.ld x4 r1_B2))
    (View.ld x3 r1_Wh0) (View.ld x5 r1_B0) (View.ld x3 r1_Wh1) (View.ld x5 r1_B1) (View.ld x3 r1_Wh2) (View.ld x5 r1_B2)⟩]

/-- The one store is of the whole block, so it covers the buffer. -/
theorem cover1_6 (p0 : Vec F S1x256 .f32) (y : S1x256.Idx) :
    ∃ pc ∈ ([⟨r1_O, p0⟩] : List (View.Piece (Elt F) S1x256 .f32)), y ∈ pc.1.set :=
  View.cover_of_tiled [⟨r1_O, p0⟩] S1x256.size (by rfl) y

/-! ## The body's triple -/

set_option maxHeartbeats 4000000 in
/-- The kernel body at grid coordinate `i` on whole staging memrefs, the inputs' at read contents `xW` and the output's
    at anything, runs to the continuation holding the inputs' as they were and the output's at `out1_6` of them:
    every load is of a rectangle inside a held buffer, and the one store overwrites the output's buffer whole. -/
theorem sound_kernel1 (c : Dev nD) (E : Set ℕ) (i : grid1.Coords) (arg1 : Memref sig .tc .vmem S1x2048 .f32) (harg1 : arg1.IsWhole) (arg2 : Memref sig .tc .vmem S1x2048 .f32) (harg2 : arg2.IsWhole) (arg3 : Memref sig .tc .vmem S3x256x2048 .bf16) (harg3 : arg3.IsWhole) (arg4 : Memref sig .tc .vmem S3x256x2048 .bf16) (harg4 : arg4.IsWhole) (arg5 : Memref sig .tc .vmem S3x256 .f32) (harg5 : arg5.IsWhole) (arg6 : Memref sig .tc .vmem S3x256 .f32) (harg6 : arg6.IsWhole) (arg7 : Memref sig .tc .vmem S1x256 .f32) (harg7 : arg7.IsWhole)
    (x0 : Vec F S1x2048 .f32) (x1 : Vec F S1x2048 .f32) (x2 : Vec F S3x256x2048 .bf16) (x3 : Vec F S3x256x2048 .bf16) (x4 : Vec F S3x256 .f32) (x5 : Vec F S3x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 i x0 x1 x2 x3 x4 x5)) -∗ K ⟨⟩))
      ⊢ wp frame (wpE (defs₀ (F := F)) Variants.none c none) E (cc1__gru_kernel i arg1 harg1 arg2 harg2 arg3 harg3 arg4 harg4 arg5 harg5 arg6 harg6 arg7 harg7) K := by
  simp only [cc1__gru_kernel_eq_skeleton]; unfold cc1__gru_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The pipeline's proof data -/

/-- The proof data of the region's pipeline on core `c`: the arrays as the region finds them (`V`); after the body at
    point `t` each input's buffer at its block and the output's at `out1_6` of the input blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (grid1.coords t) (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (grid1.coords t) (iblk1 V c 0 t) (iblk1 V c 1 t) (iblk1 V c 2 t) (iblk1 V c 3 t) (iblk1 V c 4 t) (iblk1 V c 5 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`: the invariant, the core's dues, and each window's current staging memref
    at what it holds before the body, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

set_option maxHeartbeats 1000000 in
/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIdeal.Frame.lean ====
import proofs.«140640_j85452669321958_2_alg».proof.Proof.KIdeal.Region0
import proofs.«140640_j85452669321958_2_alg».proof.Proof.KIdeal.Region1
import proofs.«140640_j85452669321958_2_alg».proof.Proof.Gen.KernelIdeal.Regions

/-!
# The run of the whole program, with every unscoped buffer's final contents named

The program is four segments: 33 host operations, the first layer's region, the second layer's region, 21 host
operations. The TensorCore's buffer contents at the five boundaries are a fold from the launch memory:

* `W0` — the launch memory; `W1` — after the first host stretch;
* `W2` — `W1` with region 0's arrays at what its pipeline leaves (inputs as entered, the output array with every
  block's write-back folded in); `W3` — `W2` with region 1's arrays likewise;
* `W4` — after the last host stretch.

`run_bufs`: every weakly fair execution from a memory with zero counters terminates, nothing faulting, and in every
final state each unscoped buffer of each core holds `W4`. `frame`: the thirteen argument arrays end as launched,
because no host operation and no region writes one.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents, region 1's entry contents). -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references (region 1's exit contents). -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the last host stretch: the contents the program returns with. -/
abbrev W4 : Dev nD → Valuation τ sig (Elt F) := fun c => StableHlo.after hostOps2 (W3 m ρ c)

/-! ### The arguments end as launched: no host operation writes one and no region has one among its arrays, so the
fold at an argument's buffer walks back to the launch memory -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_writes_sub hostOps2 _ hostOps2_writes (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_writes_sub hostOps2 _ hostOps2_writes (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_writes_sub hostOps2 _ hostOps2_writes (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := StableHlo.after_of_writes_sub hostOps2 _ hostOps2_writes (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := StableHlo.after_of_writes_sub hostOps2 _ hostOps2_writes (by decide)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := StableHlo.after_of_writes_sub hostOps2 _ hostOps2_writes (by decide)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := StableHlo.after_of_writes_sub hostOps2 _ hostOps2_writes (by decide)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl
theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := StableHlo.after_of_writes_sub hostOps2 _ hostOps2_writes (by decide)
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl
theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := StableHlo.after_of_writes_sub hostOps2 _ hostOps2_writes (by decide)
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl
theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := StableHlo.after_of_writes_sub hostOps2 _ hostOps2_writes (by decide)
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl
theorem W4_main_arg10 (c : Dev nD) : W4 m ρ c (Proc.devRef .tc main_arg10) = m ((c : Thread nD τ).loc main_arg10) :=
  calc W4 m ρ c (Proc.devRef .tc main_arg10)
    _ = W3 m ρ c (Proc.devRef .tc main_arg10) := StableHlo.after_of_writes_sub hostOps2 _ hostOps2_writes (by decide)
    _ = W2 m ρ c (Proc.devRef .tc main_arg10) := W3_of_ne m ρ c main_arg10 (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide)
    _ = m ((c : Thread nD τ).loc main_arg10) := rfl
theorem W4_main_arg11 (c : Dev nD) : W4 m ρ c (Proc.devRef .tc main_arg11) = m ((c : Thread nD τ).loc main_arg11) :=
  calc W4 m ρ c (Proc.devRef .tc main_arg11)
    _ = W3 m ρ c (Proc.devRef .tc main_arg11) := StableHlo.after_of_writes_sub hostOps2 _ hostOps2_writes (by decide)
    _ = W2 m ρ c (Proc.devRef .tc main_arg11) := W3_of_ne m ρ c main_arg11 (by decide)
    _ = W1 m ρ c (Proc.devRef .tc main_arg11) := W2_of_ne m ρ c main_arg11 (by decide)
    _ = W0 m ρ c (Proc.devRef .tc main_arg11) := StableHlo.after_of_writes_sub hostOps0 _ hostOps0_writes (by decide)
    _ = m ((c : Thread nD τ).loc main_arg11) := rfl
theorem W4_main_arg12 (c : Dev nD) : W4 m ρ c (Proc.devRef .tc main_arg12) = m ((c : Thread nD τ).loc main_arg12) :=
  calc W4 m ρ c (Proc.devRef .tc main_arg12)
    _ = W3 m ρ c (Proc.devRef .tc main_arg12) := StableHlo.after_of_writes_sub hostOps2 _ hostOps2_writes (by decide)
    _ = W2 m ρ c (Proc.devRef .tc main_arg12) := W3_of_ne m ρ c main_arg12 (by decide)
    _ = W1 m ρ c (Proc.devRef .tc main_arg12) := W2_of_ne m ρ c main_arg12 (by decide)
    _ = W0 m ρ c (Proc.devRef .tc main_arg12) := StableHlo.after_of_writes_sub hostOps0 _ hostOps0_writes (by decide)
    _ = m ((c : Thread nD τ).loc main_arg12) := rfl

/-! ## The proof data family and the thread state -/

/-- The prefetched tables' admissible contents: no pipeline has a table. -/
abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with
    those references at `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents `W4`, the generator
    register at some state. -/
abbrev Tₙ (c : Dev nD) : sProp 𝕄 := iprop(StableHlo.held (c : Thread nD τ) (Pipeline.ucRefs τ sig) (W4 m ρ c) ∗ ∃ r, prngReg c r)

/-! ## The regions as segments -/

-- a library lemma stated over the pinned configuration `pin pcs a p` unifies with the printed one only when
-- unification may unfold plain definitions in a metavariable's type
set_option backward.isDefEq.respectTransparency.types false in
/-- REGION 0 as a segment over the thread state: entered from every unscoped buffer at `W1`, left at `W2`. Its
    arrays are split out of the unscoped buffers at entry and put back at their final contents at exit; the generator
    register goes into the pipeline's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration `pin pcs a p` unifies with the printed one only when
-- unification may unfold plain definitions in a metavariable's type
set_option backward.isDefEq.respectTransparency.types false in
/-- REGION 1 as a segment over the thread state: entered from every unscoped buffer at `W2`, left at `W3`. Its
    arrays are split out of the unscoped buffers at entry and put back at their final contents at exit; the generator
    register goes into the pipeline's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The four segments in order: host stretch, region 0, region 1, host stretch. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
/-- The program IS the run of the segments. -/
theorem main_run (c : Dev nD) : main (F := F) c = Pipeline.Seg.run (segs m ρ) := (main_chain c).trans (by chain_rfl)

set_option backward.isDefEq.respectTransparency.types false in
/-- THE RUN: at the compiled mesh, from any memory with zero counters, every weakly fair execution of the program on the
    TensorCores terminates, nothing faulting, and in every final state every unscoped buffer of every core holds `W4`. -/
theorem run_bufs : θ_run defs (onTc (τ := τ) (main (F := F))) ⟨m, fun _ => 0, ρ⟩ (fun r => ∀ c : Dev nD,
      ∀ b ∈ Pipeline.ucRefs τ sig, r.2.mem ((c : Thread nD τ).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- THE FRAME: the thirteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c),
     (h c _ (mem_uc main_arg10 (by decide))).trans (W4_main_arg10 m ρ c),
     (h c _ (mem_uc main_arg11 (by decide))).trans (W4_main_arg11 m ρ c),
     (h c _ (mem_uc main_arg12 (by decide))).trans (W4_main_arg12 m ρ c)⟩) (run_bufs m ρ)

end Cert.KernelIdeal.Hand

end
-- ==== Proof.Spec.lean ====
/-
  The function both programs compute, written once over the extended reals.

  One step of a two-layer gated recurrent unit on a single token. The token selects a row of the embedding table
  (an index below zero counts from the end; the row is then clamped into the table). A layer with input `x`,
  previous state `h`, packed weights `W_i`, `W_h` (the reset, update and candidate gates stacked along the rows)
  and biases `b_i`, `b_h` produces, for every hidden unit `j`,
      r = σ((W_i x + b_i)[j] + (W_h h + b_h)[j]),   z = σ((W_i x + b_i)[H + j] + (W_h h + b_h)[H + j]),
      n = tanh((W_i x + b_i)[2H + j] + r · (W_h h + b_h)[2H + j]),   h'[j] = (1 − z) · n + z · h[j],
  with H = 2048. Nothing here needs the inputs to be finite: the two programs perform these operations in this order.
-/
import Idealize.ShloMosaic.PureOps.Ideal
import Idealize.ShloMosaic.Lib.ValueIdx

noncomputable section

namespace Cert.Spec

open Idealize.ShloMosaic Idealize.ShloMosaic.ValueIdx

/-- The float word both programs write for the number one; it is the same word on both sides and is never evaluated. -/
abbrev one : EReal := Ideal.ofBits .f32 0x3F800000#32

/-- The rows of the packed gate matrices that belong to hidden unit `j`: reset, update, candidate. -/
def rowR (j : Fin 2048) : Fin 6144 := ⟨j.val, by have := j.isLt; omega⟩
def rowZ (j : Fin 2048) : Fin 6144 := ⟨2048 + j.val, by have := j.isLt; omega⟩
def rowN (j : Fin 2048) : Fin 6144 := ⟨4096 + j.val, by have := j.isLt; omega⟩

/-- Row `q` of `W x + b` for an input of 512 entries. -/
def aff512 (x : Fin 512 → EReal) (w : (⟨2, ![6144, 512]⟩ : Shape).Idx → EReal) (b : (⟨1, ![6144]⟩ : Shape).Idx → EReal)
    (q : Fin 6144) : EReal :=
  (∑ k : Fin 512, x k * w (ix2 q k)) + b (ix1 q)

/-- Row `q` of `W x + b` for an input of 2048 entries. -/
def aff2048 (x : Fin 2048 → EReal) (w : (⟨2, ![6144, 2048]⟩ : Shape).Idx → EReal) (b : (⟨1, ![6144]⟩ : Shape).Idx → EReal)
    (q : Fin 6144) : EReal :=
  (∑ k : Fin 2048, x k * w (ix2 q k)) + b (ix1 q)

/-- The gate arithmetic of one hidden unit from its six pre-activations and its previous state. -/
def cell (ir iz inn hr hz hn h : EReal) : EReal :=
  (one - Ideal.logistic (iz + hz)) * Ideal.tanh (inn + Ideal.logistic (ir + hr) * hn) + Ideal.logistic (iz + hz) * h

/-- The first layer: input of 512 entries. -/
def gru512 (x : Fin 512 → EReal) (h : Fin 2048 → EReal)
    (wi : (⟨2, ![6144, 512]⟩ : Shape).Idx → EReal) (wh : (⟨2, ![6144, 2048]⟩ : Shape).Idx → EReal)
    (bi bh : (⟨1, ![6144]⟩ : Shape).Idx → EReal) : Fin 2048 → EReal := fun j =>
  cell (aff512 x wi bi (rowR j)) (aff512 x wi bi (rowZ j)) (aff512 x wi bi (rowN j))
    (aff2048 h wh bh (rowR j)) (aff2048 h wh bh (rowZ j)) (aff2048 h wh bh (rowN j)) (h j)

/-- The second layer: input of 2048 entries. -/
def gru2048 (x : Fin 2048 → EReal) (h : Fin 2048 → EReal)
    (wi : (⟨2, ![6144, 2048]⟩ : Shape).Idx → EReal) (wh : (⟨2, ![6144, 2048]⟩ : Shape).Idx → EReal)
    (bi bh : (⟨1, ![6144]⟩ : Shape).Idx → EReal) : Fin 2048 → EReal := fun j =>
  cell (aff2048 x wi bi (rowR j)) (aff2048 x wi bi (rowZ j)) (aff2048 x wi bi (rowN j))
    (aff2048 h wh bh (rowR j)) (aff2048 h wh bh (rowZ j)) (aff2048 h wh bh (rowN j)) (h j)

/-- The token's index after counting a negative one from the end of the 64-row table. -/
def wrapped (x : BitVec 32) : BitVec 32 := Scalar.select (IntOp.cmpi .slt x 0#32) (IntOp.addi x 64#32) x

/-- The table row read: the wrapped index clamped into `[0, 63]`. -/
def tokenRow (x : BitVec 32) : Fin 64 := ⟨(min (max (wrapped x).toInt 0) 63).toNat, by omega⟩

/-- The thirteen argument arrays. -/
structure Args where
  tok : (⟨1, ![1]⟩ : Shape).Idx → BitVec 32
  hin : (⟨3, ![2, 1, 2048]⟩ : Shape).Idx → EReal
  emb : (⟨2, ![64, 512]⟩ : Shape).Idx → EReal
  wi0 : (⟨2, ![6144, 512]⟩ : Shape).Idx → EReal
  wh0 : (⟨2, ![6144, 2048]⟩ : Shape).Idx → EReal
  bi0 : (⟨1, ![6144]⟩ : Shape).Idx → EReal
  bh0 : (⟨1, ![6144]⟩ : Shape).Idx → EReal
  wi1 : (⟨2, ![6144, 2048]⟩ : Shape).Idx → EReal
  wh1 : (⟨2, ![6144, 2048]⟩ : Shape).Idx → EReal
  bi1 : (⟨1, ![6144]⟩ : Shape).Idx → EReal
  bh1 : (⟨1, ![6144]⟩ : Shape).Idx → EReal
  whead : (⟨2, ![16, 2048]⟩ : Shape).Idx → EReal
  bhead : (⟨1, ![16]⟩ : Shape).Idx → EReal

/-- The embedded token. -/
def embedded (a : Args) : Fin 512 → EReal := fun k => a.emb (ix2 (tokenRow (a.tok (ix1 0))) k)

/-- The previous state of layer `l`. -/
def prev (a : Args) (l : Fin 2) : Fin 2048 → EReal := fun j => a.hin (ix3 l 0 j)

/-- The new state of the first layer. -/
def h0 (a : Args) : Fin 2048 → EReal := gru512 (embedded a) (prev a 0) a.wi0 a.wh0 a.bi0 a.bh0

/-- The new state of the second layer, whose input is the first layer's new state. -/
def h1 (a : Args) : Fin 2048 → EReal := gru2048 (h0 a) (prev a 1) a.wi1 a.wh1 a.bi1 a.bh1

/-- A state as the one-row array both programs hold it in. -/
def asRow (h : Fin 2048 → EReal) : (⟨2, ![1, 2048]⟩ : Shape).Idx → EReal := fun i => h (i 1)

end Cert.Spec

end
-- ==== Proof.Tail.lean ====
/-
  The operations both programs apply, after the two recurrent layers, to the new states: the linear head
  `h₁ · W_headᵀ + b_head`, its softmax over the sixteen classes (the row maximum subtracted, exponentials,
  their sum, the quotient), and the two states stacked into one array. Both programs perform exactly these
  operations on their states, so they are carried as ONE function of the states and never opened.
-/
import proofs.«140640_j85452669321958_2_alg».proof.KernelIdeal
import proofs.«140640_j85452669321958_2_alg».proof.Proof.Gen.KernelIdeal
import proofs.«140640_j85452669321958_2_alg».proof.Proof.Spec

noncomputable section

namespace Cert.Tail

open Idealize.ShloMosaic Cert.KernelIdeal Cert.KernelIdeal.Gen

/-- The class probabilities from the second layer's new state (a one-row array), the head's weights and its bias. -/
def probsOf (h1 : FVec Ideal S1x2048 .f32) (whead : FVec Ideal S16x2048 .f32) (bhead : FVec Ideal S16 .f32) :
    FVec Ideal S1x16 .f32 :=
  let logits : FVec Ideal S1x16 .f32 :=
    addf (Host.dotGeneral dot_S1x2048_S2048x16_S1x16_1_0_0_1_n_n none h1
        (transpose S2048x16 [1, 0] whead transposes_S16x2048_S2048x16_1_0))
      (broadcastInDim S1x16 ![1] bcast_S16_S1x16_1 bhead)
  let top : FVec Ideal S1 .f32 :=
    maximumf (broadcastInDim S1 ![] bcast_S_S1 (constant (F := Ideal) S_ .f32 0xFF800000#32))
      (Host.reduce FloatOps.maximumf logits (constant (F := Ideal) S_ .f32 0xFF800000#32) reducesTo_S1x16_S1_d1 h_S_)
  let e : FVec Ideal S1x16 .f32 :=
    Host.exp (subf logits (broadcastInDim S1x16 ![0, 1] bcast_S1x1_S1x16_0_1 (broadcastInDim S1x1 ![0] bcast_S1_S1x1_0 top)))
  Host.divf e (broadcastInDim S1x16 ![0, 1] bcast_S1x1_S1x16_0_1 (broadcastInDim S1x1 ![0] bcast_S1_S1x1_0
    (Host.reduceAdd e (constant (F := Ideal) S_ .f32 0x00000000#32) reducesTo_S1x16_S1_d1 h_S_)))

/-- The two new states stacked along a new leading axis. -/
def stackOf (h0 h1 : FVec Ideal S1x2048 .f32) : FVec Ideal S2x1x2048 .f32 :=
  concatenate S2x1x2048 0
    [⟨S1x1x2048, broadcastInDim S1x1x2048 ![1, 2] bcast_S1x2048_S1x1x2048_1_2 h0⟩,
     ⟨S1x1x2048, broadcastInDim S1x1x2048 ![1, 2] bcast_S1x2048_S1x1x2048_1_2 h1⟩]
    concatenates_S1x1x2048_S1x1x2048_S2x1x2048_d0

/-- The first result: the class probabilities of the specification's second state. -/
def probs (a : Cert.Spec.Args) : FVec Ideal S1x16 .f32 := probsOf (Cert.Spec.asRow (Cert.Spec.h1 a)) a.whead a.bhead

/-- The second result: the specification's two new states, stacked. -/
def states (a : Cert.Spec.Args) : FVec Ideal S2x1x2048 .f32 :=
  stackOf (Cert.Spec.asRow (Cert.Spec.h0 a)) (Cert.Spec.asRow (Cert.Spec.h1 a))

end Cert.Tail

end
-- ==== Proof.KIdeal.Fold.lean ====
import proofs.«140640_j85452669321958_2_alg».proof.Proof.KIdeal.Frame
import proofs.«140640_j85452669321958_2_alg».proof.Proof.Tail
import Idealize.ShloMosaic.Lib.Pipeline.Value
import Idealize.ShloMosaic.Lib.ValueIdx
import Idealize.ShloMosaic.Lib.ValueLayout
import Idealize.ShloMosaic.Lib.StableHlo.Run

/-!
# The program's results as functions of the two regions' output arrays

The host operations after the second region compute the class probabilities from region 1's output array (the second
layer's new state) and stack the two regions' output arrays; region 1's arrays other than its first input are not
arrays of region 0. Everything is read off the fold of buffer contents `W0 … W4` of the run.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.StableHlo (after_cons after_nil nullary_result unary_result binary_result ternary_result quaternary_result
  reshape_result binaryIndexed_result nary4_result nary_result unaryIndexed_result nullary_result_ne unary_result_ne binary_result_ne
  ternary_result_ne quaternary_result_ne reshape_result_ne binaryIndexed_result_ne nary_result_ne unaryIndexed_result_ne)

variable (m : (ℓ : Loc nD τ sig) → Buf (Elt Ideal) ℓ) (ρ : Dev nD → PrngReg)

/-! ## The regions' output arrays

Region 1's output array is its window 6; region 0's output array is ALSO region 1's input window 0, which region 1
leaves as entered, so at the end it still holds what region 0's pipeline left. -/

theorem W3_v27 (c : Dev nD) : W3 m ρ c (Proc.devRef .tc main_v27) = (dat1 (V2 m ρ) c).arrAt 6 cfg1.N :=
  W3_arr m ρ c 6

theorem V2_v26 (c : Dev nD) : V2 m ρ c main_v26 = (dat0 (V1 m ρ) c).arrAt 6 cfg0.N :=
  W2_arr m ρ c 6

theorem W3_v26 (c : Dev nD) : W3 m ρ c (Proc.devRef .tc main_v26) = (dat0 (V1 m ρ) c).arrAt 6 cfg0.N :=
  (W3_arr m ρ c 0).trans (((dat1 (V2 m ρ) c).arrAt_in 0 rfl _).trans ((A_eq1 (V2 m ρ) c 0).trans (W2_arr m ρ c 6)))

/-! ## Region 1's other arrays are not arrays of region 0, so region 0 leaves them as it found them -/

theorem V2_v13 (c : Dev nD) : V2 m ρ c main_v13 = V1 m ρ c main_v13 := W2_of_ne m ρ c main_v13 (by decide)
theorem V2_v21 (c : Dev nD) : V2 m ρ c main_v21 = V1 m ρ c main_v21 := W2_of_ne m ρ c main_v21 (by decide)
theorem V2_v23 (c : Dev nD) : V2 m ρ c main_v23 = V1 m ρ c main_v23 := W2_of_ne m ρ c main_v23 (by decide)
theorem V2_v24 (c : Dev nD) : V2 m ρ c main_v24 = V1 m ρ c main_v24 := W2_of_ne m ρ c main_v24 (by decide)
theorem V2_v25 (c : Dev nD) : V2 m ρ c main_v25 = V1 m ρ c main_v25 := W2_of_ne m ρ c main_v25 (by decide)

/-! ## The host operations after region 1, as one function of the two new states -/

theorem W3_arg11 (c : Dev nD) : W3 m ρ c (Proc.devRef .tc main_arg11) = m ((c : Thread nD τ).loc main_arg11) :=
  calc W3 m ρ c (Proc.devRef .tc main_arg11)
    _ = W2 m ρ c (Proc.devRef .tc main_arg11) := W3_of_ne m ρ c main_arg11 (by decide)
    _ = W1 m ρ c (Proc.devRef .tc main_arg11) := W2_of_ne m ρ c main_arg11 (by decide)
    _ = W0 m ρ c (Proc.devRef .tc main_arg11) := StableHlo.after_of_writes_sub hostOps0 _ hostOps0_writes (by decide)
    _ = m ((c : Thread nD τ).loc main_arg11) := rfl
theorem W3_arg12 (c : Dev nD) : W3 m ρ c (Proc.devRef .tc main_arg12) = m ((c : Thread nD τ).loc main_arg12) :=
  calc W3 m ρ c (Proc.devRef .tc main_arg12)
    _ = W2 m ρ c (Proc.devRef .tc main_arg12) := W3_of_ne m ρ c main_arg12 (by decide)
    _ = W1 m ρ c (Proc.devRef .tc main_arg12) := W2_of_ne m ρ c main_arg12 (by decide)
    _ = W0 m ρ c (Proc.devRef .tc main_arg12) := StableHlo.after_of_writes_sub hostOps0 _ hostOps0_writes (by decide)
    _ = m ((c : Thread nD τ).loc main_arg12) := rfl

set_option maxHeartbeats 1000000 in
/-- The class probabilities the program returns are the head and its softmax applied to region 1's output array. -/
theorem W4_probs (c : Dev nD) : W4 m ρ c (Proc.devRef .tc main_v42)
    = Cert.Tail.probsOf (W3 m ρ c (Proc.devRef .tc main_v27)) (W3 m ρ c (Proc.devRef .tc main_arg11)) (W3 m ρ c (Proc.devRef .tc main_arg12)) := by
  show StableHlo.after hostOps2 _ (Proc.devRef .tc main_v42) = _
  after_results_simp
  rfl

/-- The stacked states the program returns are the two regions' output arrays, stacked. -/
theorem W4_states (c : Dev nD) : W4 m ρ c (Proc.devRef .tc main_v45)
    = Cert.Tail.stackOf (W3 m ρ c (Proc.devRef .tc main_v26)) (W3 m ρ c (Proc.devRef .tc main_v27)) := by
  show StableHlo.after hostOps2 _ (Proc.devRef .tc main_v45) = _
  after_results
  rfl

end Cert.KernelIdeal.Hand

end
-- ==== Proof.KIdeal.FoldIn.lean ====
import proofs.«140640_j85452669321958_2_alg».proof.Proof.KIdeal.Frame
import Idealize.ShloMosaic.Lib.Pipeline.Value
import Idealize.ShloMosaic.Lib.ValueIdx
import Idealize.ShloMosaic.Lib.ValueLayout
import Idealize.ShloMosaic.Lib.StableHlo.Run
import proofs.«140640_j85452669321958_2_alg».proof.Proof.Spec
/-!
# The arrays the two regions read, as functions of the program's arguments

Before the first region the program only re-lays-out its arguments: it reshapes the packed weights and biases to
gates × rows (× columns), slices the stacked previous states, and selects the embedding row of the token. This module
reads each of those arrays, and each at an index, as the corresponding entry of an argument array.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.StableHlo (after_cons after_nil nullary_result unary_result binary_result ternary_result quaternary_result
  reshape_result binaryIndexed_result nary4_result nary_result unaryIndexed_result nullary_result_ne unary_result_ne binary_result_ne
  ternary_result_ne quaternary_result_ne reshape_result_ne binaryIndexed_result_ne nary_result_ne unaryIndexed_result_ne)

variable (m : (ℓ : Loc nD τ sig) → Buf (Elt Ideal) ℓ) (ρ : Dev nD → PrngReg)

/-! ## The host operations before region 0: each array a region reads, as its term of the argument arrays, and that
term read at an index

The weights and biases are reshaped so that the three gates' rows lie along a new leading axis (and the weights change
format, which on extended reals is the identity); the previous states are the two slices of the stacked state array. -/

/-- The first layer's input weights: the argument reshaped to gates × rows × columns, then the change of format. -/
theorem V1_v15 (c : Dev nD) : (V1 m ρ c main_v15 : FVec Ideal S3x2048x512 .bf16)
    = truncf (F := Ideal) .bf16 (shapeCast S3x2048x512 (m ((c : Thread nD τ).loc main_arg3) : FVec Ideal S6144x512 .f32) shapeCasts_S6144x512_S3x2048x512) bitsLt_bf16_f32 := by
  show StableHlo.after hostOps0 _ (Proc.devRef .tc main_v15) = _
  after_results
  rfl

/-- Entry (gate `g`, row `j`, column `k`) of it is entry (row `2048·g + j`, column `k`) of the argument: the reshape
    keeps the row-major position and the change of format is the identity on extended reals. -/
theorem V1_v15_apply (c : Dev nD) (g : Fin 3) (j : Fin 2048) (k : Fin 512) :
    V1 m ρ c main_v15 (ix3 g j k)
      = m ((c : Thread nD τ).loc main_arg3) (ix2 (⟨g.val * 2048 + j.val, by have := g.isLt; have := j.isLt; omega⟩ : Fin 6144) k) := by
  rw [V1_v15]
  show shapeCast S3x2048x512 (m ((c : Thread nD τ).loc main_arg3) : FVec Ideal S6144x512 .f32) shapeCasts_S6144x512_S3x2048x512 (ix3 g j k) = _
  refine shapeCast_apply _ _ (ix3 g j k) (ix2 (⟨g.val * 2048 + j.val, by have := g.isLt; have := j.isLt; omega⟩ : Fin 6144) k) ?_
  rw [Shape.rowMajor_val_two, Shape.rowMajor_val_three]
  show (g.val * 2048 + j.val) * 512 + k.val = (g.val * 2048 + j.val) * 512 + k.val
  rfl

/-- The first layer's hidden weights. -/
theorem V1_v17 (c : Dev nD) : (V1 m ρ c main_v17 : FVec Ideal S3x2048x2048 .bf16)
    = truncf (F := Ideal) .bf16 (shapeCast S3x2048x2048 (m ((c : Thread nD τ).loc main_arg4) : FVec Ideal S6144x2048 .f32) shapeCasts_S6144x2048_S3x2048x2048) bitsLt_bf16_f32 := by
  show StableHlo.after hostOps0 _ (Proc.devRef .tc main_v17) = _
  after_results
  rfl

/-- Entry (gate `g`, row `j`, column `k`) of it is entry (row `2048·g + j`, column `k`) of the argument: the reshape
    keeps the row-major position and the change of format is the identity on extended reals. -/
theorem V1_v17_apply (c : Dev nD) (g : Fin 3) (j : Fin 2048) (k : Fin 2048) :
    V1 m ρ c main_v17 (ix3 g j k)
      = m ((c : Thread nD τ).loc main_arg4) (ix2 (⟨g.val * 2048 + j.val, by have := g.isLt; have := j.isLt; omega⟩ : Fin 6144) k) := by
  rw [V1_v17]
  show shapeCast S3x2048x2048 (m ((c : Thread nD τ).loc main_arg4) : FVec Ideal S6144x2048 .f32) shapeCasts_S6144x2048_S3x2048x2048 (ix3 g j k) = _
  refine shapeCast_apply _ _ (ix3 g j k) (ix2 (⟨g.val * 2048 + j.val, by have := g.isLt; have := j.isLt; omega⟩ : Fin 6144) k) ?_
  rw [Shape.rowMajor_val_two, Shape.rowMajor_val_three]
  show (g.val * 2048 + j.val) * 2048 + k.val = (g.val * 2048 + j.val) * 2048 + k.val
  rfl

/-- The second layer's input weights. -/
theorem V1_v21 (c : Dev nD) : (V1 m ρ c main_v21 : FVec Ideal S3x2048x2048 .bf16)
    = truncf (F := Ideal) .bf16 (shapeCast S3x2048x2048 (m ((c : Thread nD τ).loc main_arg7) : FVec Ideal S6144x2048 .f32) shapeCasts_S6144x2048_S3x2048x2048) bitsLt_bf16_f32 := by
  show StableHlo.after hostOps0 _ (Proc.devRef .tc main_v21) = _
  after_results
  rfl

/-- Entry (gate `g`, row `j`, column `k`) of it is entry (row `2048·g + j`, column `k`) of the argument: the reshape
    keeps the row-major position and the change of format is the identity on extended reals. -/
theorem V1_v21_apply (c : Dev nD) (g : Fin 3) (j : Fin 2048) (k : Fin 2048) :
    V1 m ρ c main_v21 (ix3 g j k)
      = m ((c : Thread nD τ).loc main_arg7) (ix2 (⟨g.val * 2048 + j.val, by have := g.isLt; have := j.isLt; omega⟩ : Fin 6144) k) := by
  rw [V1_v21]
  show shapeCast S3x2048x2048 (m ((c : Thread nD τ).loc main_arg7) : FVec Ideal S6144x2048 .f32) shapeCasts_S6144x2048_S3x2048x2048 (ix3 g j k) = _
  refine shapeCast_apply _ _ (ix3 g j k) (ix2 (⟨g.val * 2048 + j.val, by have := g.isLt; have := j.isLt; omega⟩ : Fin 6144) k) ?_
  rw [Shape.rowMajor_val_two, Shape.rowMajor_val_three]
  show (g.val * 2048 + j.val) * 2048 + k.val = (g.val * 2048 + j.val) * 2048 + k.val
  rfl

/-- The second layer's hidden weights. -/
theorem V1_v23 (c : Dev nD) : (V1 m ρ c main_v23 : FVec Ideal S3x2048x2048 .bf16)
    = truncf (F := Ideal) .bf16 (shapeCast S3x2048x2048 (m ((c : Thread nD τ).loc main_arg8) : FVec Ideal S6144x2048 .f32) shapeCasts_S6144x2048_S3x2048x2048) bitsLt_bf16_f32 := by
  show StableHlo.after hostOps0 _ (Proc.devRef .tc main_v23) = _
  after_results
  rfl

/-- Entry (gate `g`, row `j`, column `k`) of it is entry (row `2048·g + j`, column `k`) of the argument: the reshape
    keeps the row-major position and the change of format is the identity on extended reals. -/
theorem V1_v23_apply (c : Dev nD) (g : Fin 3) (j : Fin 2048) (k : Fin 2048) :
    V1 m ρ c main_v23 (ix3 g j k)
      = m ((c : Thread nD τ).loc main_arg8) (ix2 (⟨g.val * 2048 + j.val, by have := g.isLt; have := j.isLt; omega⟩ : Fin 6144) k) := by
  rw [V1_v23]
  show shapeCast S3x2048x2048 (m ((c : Thread nD τ).loc main_arg8) : FVec Ideal S6144x2048 .f32) shapeCasts_S6144x2048_S3x2048x2048 (ix3 g j k) = _
  refine shapeCast_apply _ _ (ix3 g j k) (ix2 (⟨g.val * 2048 + j.val, by have := g.isLt; have := j.isLt; omega⟩ : Fin 6144) k) ?_
  rw [Shape.rowMajor_val_two, Shape.rowMajor_val_three]
  show (g.val * 2048 + j.val) * 2048 + k.val = (g.val * 2048 + j.val) * 2048 + k.val
  rfl

/-- The first layer's input bias, reshaped to gates × positions. -/
theorem V1_v18 (c : Dev nD) : (V1 m ρ c main_v18 : FVec Ideal S3x2048 .f32)
    = shapeCast S3x2048 (m ((c : Thread nD τ).loc main_arg5) : FVec Ideal S6144 .f32) shapeCasts_S6144_S3x2048 := by
  show StableHlo.after hostOps0 _ (Proc.devRef .tc main_v18) = _
  after_results
  rfl

/-- Entry (gate `g`, position `j`) of it is entry `2048·g + j` of the argument. -/
theorem V1_v18_apply (c : Dev nD) (g : Fin 3) (j : Fin 2048) :
    V1 m ρ c main_v18 (ix2 g j)
      = m ((c : Thread nD τ).loc main_arg5) (ix1 (⟨g.val * 2048 + j.val, by have := g.isLt; have := j.isLt; omega⟩ : Fin 6144)) := by
  rw [V1_v18]
  refine shapeCast_apply _ _ (ix2 g j) (ix1 (⟨g.val * 2048 + j.val, by have := g.isLt; have := j.isLt; omega⟩ : Fin 6144)) ?_
  rw [Shape.rowMajor_val_one, Shape.rowMajor_val_two]
  show g.val * 2048 + j.val = g.val * 2048 + j.val
  rfl

/-- The first layer's hidden bias. -/
theorem V1_v19 (c : Dev nD) : (V1 m ρ c main_v19 : FVec Ideal S3x2048 .f32)
    = shapeCast S3x2048 (m ((c : Thread nD τ).loc main_arg6) : FVec Ideal S6144 .f32) shapeCasts_S6144_S3x2048 := by
  show StableHlo.after hostOps0 _ (Proc.devRef .tc main_v19) = _
  after_results
  rfl

/-- Entry (gate `g`, position `j`) of it is entry `2048·g + j` of the argument. -/
theorem V1_v19_apply (c : Dev nD) (g : Fin 3) (j : Fin 2048) :
    V1 m ρ c main_v19 (ix2 g j)
      = m ((c : Thread nD τ).loc main_arg6) (ix1 (⟨g.val * 2048 + j.val, by have := g.isLt; have := j.isLt; omega⟩ : Fin 6144)) := by
  rw [V1_v19]
  refine shapeCast_apply _ _ (ix2 g j) (ix1 (⟨g.val * 2048 + j.val, by have := g.isLt; have := j.isLt; omega⟩ : Fin 6144)) ?_
  rw [Shape.rowMajor_val_one, Shape.rowMajor_val_two]
  show g.val * 2048 + j.val = g.val * 2048 + j.val
  rfl

/-- The second layer's input bias. -/
theorem V1_v24 (c : Dev nD) : (V1 m ρ c main_v24 : FVec Ideal S3x2048 .f32)
    = shapeCast S3x2048 (m ((c : Thread nD τ).loc main_arg9) : FVec Ideal S6144 .f32) shapeCasts_S6144_S3x2048 := by
  show StableHlo.after hostOps0 _ (Proc.devRef .tc main_v24) = _
  after_results
  rfl

/-- Entry (gate `g`, position `j`) of it is entry `2048·g + j` of the argument. -/
theorem V1_v24_apply (c : Dev nD) (g : Fin 3) (j : Fin 2048) :
    V1 m ρ c main_v24 (ix2 g j)
      = m ((c : Thread nD τ).loc main_arg9) (ix1 (⟨g.val * 2048 + j.val, by have := g.isLt; have := j.isLt; omega⟩ : Fin 6144)) := by
  rw [V1_v24]
  refine shapeCast_apply _ _ (ix2 g j) (ix1 (⟨g.val * 2048 + j.val, by have := g.isLt; have := j.isLt; omega⟩ : Fin 6144)) ?_
  rw [Shape.rowMajor_val_one, Shape.rowMajor_val_two]
  show g.val * 2048 + j.val = g.val * 2048 + j.val
  rfl

/-- The second layer's hidden bias. -/
theorem V1_v25 (c : Dev nD) : (V1 m ρ c main_v25 : FVec Ideal S3x2048 .f32)
    = shapeCast S3x2048 (m ((c : Thread nD τ).loc main_arg10) : FVec Ideal S6144 .f32) shapeCasts_S6144_S3x2048 := by
  show StableHlo.after hostOps0 _ (Proc.devRef .tc main_v25) = _
  after_results
  rfl

/-- Entry (gate `g`, position `j`) of it is entry `2048·g + j` of the argument. -/
theorem V1_v25_apply (c : Dev nD) (g : Fin 3) (j : Fin 2048) :
    V1 m ρ c main_v25 (ix2 g j)
      = m ((c : Thread nD τ).loc main_arg10) (ix1 (⟨g.val * 2048 + j.val, by have := g.isLt; have := j.isLt; omega⟩ : Fin 6144)) := by
  rw [V1_v25]
  refine shapeCast_apply _ _ (ix2 g j) (ix1 (⟨g.val * 2048 + j.val, by have := g.isLt; have := j.isLt; omega⟩ : Fin 6144)) ?_
  rw [Shape.rowMajor_val_one, Shape.rowMajor_val_two]
  show g.val * 2048 + j.val = g.val * 2048 + j.val
  rfl

/-- The previous state of layer 0 as a one-row array: slice 0 of the stacked states, its unit axis dropped. -/
theorem V1_v11 (c : Dev nD) : (V1 m ρ c main_v11 : FVec Ideal S1x2048 .f32)
    = shapeCast S1x2048 (extractStridedSlice S1x1x2048 ![0, 0, 0] (m ((c : Thread nD τ).loc main_arg1) : FVec Ideal S2x1x2048 .f32) slices_S2x1x2048_S1x1x2048_0_0_0) shapeCasts_S1x1x2048_S1x2048 := by
  show StableHlo.after hostOps0 _ (Proc.devRef .tc main_v11) = _
  after_results
  rfl

theorem V1_v11_apply (c : Dev nD) (j : Fin 2048) :
    V1 m ρ c main_v11 (ix2 (0 : Fin 1) j) = m ((c : Thread nD τ).loc main_arg1) (ix3 (0 : Fin 2) (0 : Fin 1) j) := by
  rw [V1_v11]
  refine (shapeCast_apply _ _ (ix2 (0 : Fin 1) j) (ix3 (0 : Fin 1) (0 : Fin 1) j) ?_).trans ?_
  · rw [Shape.rowMajor_val_two, Shape.rowMajor_val_three]
    show (0 * 1 + 0) * 2048 + j.val = 0 * 2048 + j.val
    omega
  · exact extractStridedSlice_apply _ _ _ (ix3 (0 : Fin 1) (0 : Fin 1) j) (ix3 (0 : Fin 2) (0 : Fin 1) j) (fun a => match a with
      | ⟨0, _⟩ => by show 0 = 0 + 0; rfl
      | ⟨1, _⟩ => by show 0 = 0 + 0; rfl
      | ⟨2, _⟩ => by show j.val = 0 + j.val; omega)

/-- The previous state of layer 1 as a one-row array: slice 1 of the stacked states, its unit axis dropped. -/
theorem V1_v13 (c : Dev nD) : (V1 m ρ c main_v13 : FVec Ideal S1x2048 .f32)
    = shapeCast S1x2048 (extractStridedSlice S1x1x2048 ![1, 0, 0] (m ((c : Thread nD τ).loc main_arg1) : FVec Ideal S2x1x2048 .f32) slices_S2x1x2048_S1x1x2048_1_0_0) shapeCasts_S1x1x2048_S1x2048 := by
  show StableHlo.after hostOps0 _ (Proc.devRef .tc main_v13) = _
  after_results
  rfl

theorem V1_v13_apply (c : Dev nD) (j : Fin 2048) :
    V1 m ρ c main_v13 (ix2 (0 : Fin 1) j) = m ((c : Thread nD τ).loc main_arg1) (ix3 (1 : Fin 2) (0 : Fin 1) j) := by
  rw [V1_v13]
  refine (shapeCast_apply _ _ (ix2 (0 : Fin 1) j) (ix3 (0 : Fin 1) (0 : Fin 1) j) ?_).trans ?_
  · rw [Shape.rowMajor_val_two, Shape.rowMajor_val_three]
    show (0 * 1 + 0) * 2048 + j.val = 0 * 2048 + j.val
    omega
  · exact extractStridedSlice_apply _ _ _ (ix3 (0 : Fin 1) (0 : Fin 1) j) (ix3 (1 : Fin 2) (0 : Fin 1) j) (fun a => match a with
      | ⟨0, _⟩ => by show 1 = 1 + 0; rfl
      | ⟨1, _⟩ => by show 0 = 0 + 0; rfl
      | ⟨2, _⟩ => by show j.val = 0 + j.val; omega)

/-! ## The embedded token

The program wraps a negative token index around the 64-row table, clamps the result into the table, and slices that
row out; the slice's second start index is clamped to zero whatever it is, because the slice is as wide as the table. -/

/-- Each host operation's result, at its own result buffer and at any other reference. -/
local macro "results_loop" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

theorem V1_v9_apply (c : Dev nD) (k : Fin 512) :
    V1 m ρ c main_v9 (ix2 (0 : Fin 1) k)
      = m ((c : Thread nD τ).loc main_arg2) (ix2 (Cert.Spec.tokenRow (m ((c : Thread nD τ).loc main_arg0) (ix1 (0 : Fin 1)))) k) := by
  show StableHlo.after hostOps0 _ (Proc.devRef .tc main_v9) (ix2 (0 : Fin 1) k) = _
  after_results
  -- the buffer contents after the index arithmetic, named: the slice's start indices are read off it
  generalize hP : (StableHlo.ternary (τ := τ) (Val := Elt Ideal) main_v4 main_v5 main_c_5 main_v6 _ _ _ _ _).result _ = P
  -- the token, a one-entry array, reshaped to a scalar
  have hx : shapeCast S_ (m ((c : Thread nD τ).loc main_arg0) : IVec S1 32) shapeCasts_S1_S_ (Shape.Idx.first h_S_)
      = m ((c : Thread nD τ).loc main_arg0) (ix1 (0 : Fin 1)) :=
    shapeCast_apply _ _ _ _ (by
      show ((⟨1, ![1]⟩ : Shape).rowMajor (ix1 (0 : Fin 1))).val = _
      rw [Shape.rowMajor_val_one]; exact (Shape.rowMajorPi_zero _ _).symm)
  -- the first start index is the wrapped token
  have h3 : (P (Proc.devRef .tc main_v3) : IVec S_ 32) (Shape.Idx.first h_S_)
      = Cert.Spec.wrapped (m ((c : Thread nD τ).loc main_arg0) (ix1 (0 : Fin 1))) := by
    rw [← hP]
    results_loop
    unfold Cert.Spec.wrapped
    rw [← hx]
    rfl
  -- the broadcast along the new leading axis, then the reshape of the one-row slice to a vector
  refine (broadcastInDim_apply _ _ _ (ix2 (0 : Fin 1) k) (ix1 k) (fun a => match a with
    | ⟨0, _⟩ => by show k.val = if (512 : ℕ) = 1 then 0 else k.val; rw [if_neg (by decide)])).trans ?_
  refine (shapeCast_apply _ _ (ix1 k) (ix2 (0 : Fin 1) k) (by
    rw [Shape.rowMajor_val_two, Shape.rowMajor_val_one]
    show 0 * 512 + k.val = k.val
    omega)).trans ?_
  -- the slice at the clamped start indices
  unfold Host.dynamicSlice
  refine extractStridedSlice_apply _ _ _ (ix2 (0 : Fin 1) k)
    (ix2 (Cert.Spec.tokenRow (m ((c : Thread nD τ).loc main_arg0) (ix1 (0 : Fin 1)))) k) (fun a => match a with
    | ⟨0, _⟩ => ?_
    | ⟨1, _⟩ => ?_)
  · -- the row: the first start index is the wrapped token, clamped into the table
    show (Cert.Spec.tokenRow (m ((c : Thread nD τ).loc main_arg0) (ix1 (0 : Fin 1)))).val
      = (min (max (BitVec.toInt ((P (Proc.devRef .tc main_v3) : IVec S_ 32) (Shape.Idx.first h_S_))) 0) ((64 - 1 : ℕ) : ℤ)).toNat + 0
    rw [h3]
    unfold Cert.Spec.tokenRow
    show (min (max (Cert.Spec.wrapped (m ((c : Thread nD τ).loc main_arg0) (ix1 (0 : Fin 1)))).toInt 0) 63).toNat
      = (min (max (Cert.Spec.wrapped (m ((c : Thread nD τ).loc main_arg0) (ix1 (0 : Fin 1)))).toInt 0) ((64 - 1 : ℕ) : ℤ)).toNat + 0
    generalize (Cert.Spec.wrapped (m ((c : Thread nD τ).loc main_arg0) (ix1 (0 : Fin 1)))).toInt = z
    omega
  · -- the column: the slice is as wide as the table, so its second start index is clamped to zero
    show k.val = (min (max _ 0) ((512 - 512 : ℕ) : ℤ)).toNat + k.val
    omega

end Cert.KernelIdeal.Hand

end
-- ==== Proof.KVal.Dots.lean ====
/-
  The kernel body's matrix products read at an output column: with the accumulator zero, entry `(0, y)` of the
  product of a one-row input with a block of 256 weight rows (contracted along the rows' entries) is the inner product
  of the input with weight row `y` — a plain finite sum on the extended reals, in the operands' own order.
-/
import proofs.«140640_j85452669321958_2_alg».proof.KernelIdeal
import proofs.«140640_j85452669321958_2_alg».proof.Proof.Gen.KernelIdeal
import Idealize.ShloMosaic.Lib.ValueIdx
import Idealize.ShloMosaic.PureOps.Ideal.Laws

noncomputable section

namespace Cert.KVal

open Idealize.ShloMosaic Idealize.ShloMosaic.ValueIdx Cert.KernelIdeal Cert.KernelIdeal.Gen

/-! ### The product with a block of 2048-entry weight rows -/

theorem lhs2048_0 (i : S1x256.Idx) (q : dot_S1x2048_S256x2048_S1x256_1_1_0_0_n_n.contr.Idx) : (dot_S1x2048_S256x2048_S1x256_1_1_0_0_n_n.lhsIdx i q 0).val = (i 0).val := by
  unfold DotDims.lhsIdx
  rw [dif_neg (show ¬(0 : Fin S1x2048.rank) ∈ dot_S1x2048_S256x2048_S1x256_1_1_0_0_n_n.lhsBatch by decide),
    dif_pos (show (0 : Fin S1x2048.rank) ∈ dot_S1x2048_S256x2048_S1x256_1_1_0_0_n_n.lhsNonContracting by decide)]
  rfl
theorem lhs2048_1 (i : S1x256.Idx) (q : dot_S1x2048_S256x2048_S1x256_1_1_0_0_n_n.contr.Idx) : (dot_S1x2048_S256x2048_S1x256_1_1_0_0_n_n.lhsIdx i q 1).val = (q ⟨0, by decide⟩).val :=
  dot_S1x2048_S256x2048_S1x256_1_1_0_0_n_n.lhsIdx_val_of_single rfl i q
theorem rhs2048_0 (i : S1x256.Idx) (q : dot_S1x2048_S256x2048_S1x256_1_1_0_0_n_n.contr.Idx) : (dot_S1x2048_S256x2048_S1x256_1_1_0_0_n_n.rhsIdx i q 0).val = (i 1).val := by
  unfold DotDims.rhsIdx
  rw [dif_neg (show ¬(0 : Fin S256x2048.rank) ∈ dot_S1x2048_S256x2048_S1x256_1_1_0_0_n_n.rhsBatch by decide),
    dif_pos (show (0 : Fin S256x2048.rank) ∈ dot_S1x2048_S256x2048_S1x256_1_1_0_0_n_n.rhsNonContracting by decide)]
  rfl
theorem rhs2048_1 (i : S1x256.Idx) (q : dot_S1x2048_S256x2048_S1x256_1_1_0_0_n_n.contr.Idx) : (dot_S1x2048_S256x2048_S1x256_1_1_0_0_n_n.rhsIdx i q 1).val = (q ⟨0, by decide⟩).val :=
  dot_S1x2048_S256x2048_S1x256_1_1_0_0_n_n.rhsIdx_val_of_single rfl i q

/-- The kernel's product of the one-row input with a block of 256 weight rows, accumulated from zero, is at column `y`
    the inner product of the input with weight row `y`. -/
theorem matmul2048_apply (l : FVec Ideal S1x2048 .bf16) (r : FVec Ideal S256x2048 .bf16) (y : Fin 256) :
    matmul dot_S1x2048_S256x2048_S1x256_1_1_0_0_n_n none l r (constant (F := Ideal) S1x256 .f32 0x00000000#32) (ix2 (0 : Fin 1) y)
      = ∑ k : Fin 2048, l (ix2 (0 : Fin 1) k) * r (ix2 y k) := by
  simp only [matmul]
  rw [Ideal.matmul_constant_zero_apply, ← Equiv.sum_comp (contrEquiv1 dot_S1x2048_S256x2048_S1x256_1_1_0_0_n_n 2048 rfl rfl).symm]
  refine Finset.sum_congr rfl fun k _ => ?_
  have hk := contrEquiv1_symm_val dot_S1x2048_S256x2048_S1x256_1_1_0_0_n_n 2048 rfl rfl k
  have el : dot_S1x2048_S256x2048_S1x256_1_1_0_0_n_n.lhsIdx (ix2 (0 : Fin 1) y) ((contrEquiv1 dot_S1x2048_S256x2048_S1x256_1_1_0_0_n_n 2048 rfl rfl).symm k) = ix2 (0 : Fin 1) k :=
    funext fun a => Fin.ext (by
      match a with
      | ⟨0, _⟩ => exact lhs2048_0 _ _
      | ⟨1, _⟩ => exact (lhs2048_1 _ _).trans hk)
  have er : dot_S1x2048_S256x2048_S1x256_1_1_0_0_n_n.rhsIdx (ix2 (0 : Fin 1) y) ((contrEquiv1 dot_S1x2048_S256x2048_S1x256_1_1_0_0_n_n 2048 rfl rfl).symm k) = ix2 y k :=
    funext fun a => Fin.ext (by
      match a with
      | ⟨0, _⟩ => exact rhs2048_0 _ _
      | ⟨1, _⟩ => exact (rhs2048_1 _ _).trans hk)
  rw [el, er]

/-! ### The product with a block of 512-entry weight rows -/

theorem lhs512_0 (i : S1x256.Idx) (q : dot_S1x512_S256x512_S1x256_1_1_0_0_n_n.contr.Idx) : (dot_S1x512_S256x512_S1x256_1_1_0_0_n_n.lhsIdx i q 0).val = (i 0).val := by
  unfold DotDims.lhsIdx
  rw [dif_neg (show ¬(0 : Fin S1x512.rank) ∈ dot_S1x512_S256x512_S1x256_1_1_0_0_n_n.lhsBatch by decide),
    dif_pos (show (0 : Fin S1x512.rank) ∈ dot_S1x512_S256x512_S1x256_1_1_0_0_n_n.lhsNonContracting by decide)]
  rfl
theorem lhs512_1 (i : S1x256.Idx) (q : dot_S1x512_S256x512_S1x256_1_1_0_0_n_n.contr.Idx) : (dot_S1x512_S256x512_S1x256_1_1_0_0_n_n.lhsIdx i q 1).val = (q ⟨0, by decide⟩).val :=
  dot_S1x512_S256x512_S1x256_1_1_0_0_n_n.lhsIdx_val_of_single rfl i q
theorem rhs512_0 (i : S1x256.Idx) (q : dot_S1x512_S256x512_S1x256_1_1_0_0_n_n.contr.Idx) : (dot_S1x512_S256x512_S1x256_1_1_0_0_n_n.rhsIdx i q 0).val = (i 1).val := by
  unfold DotDims.rhsIdx
  rw [dif_neg (show ¬(0 : Fin S256x512.rank) ∈ dot_S1x512_S256x512_S1x256_1_1_0_0_n_n.rhsBatch by decide),
    dif_pos (show (0 : Fin S256x512.rank) ∈ dot_S1x512_S256x512_S1x256_1_1_0_0_n_n.rhsNonContracting by decide)]
  rfl
theorem rhs512_1 (i : S1x256.Idx) (q : dot_S1x512_S256x512_S1x256_1_1_0_0_n_n.contr.Idx) : (dot_S1x512_S256x512_S1x256_1_1_0_0_n_n.rhsIdx i q 1).val = (q ⟨0, by decide⟩).val :=
  dot_S1x512_S256x512_S1x256_1_1_0_0_n_n.rhsIdx_val_of_single rfl i q

/-- The kernel's product of the one-row input with a block of 256 weight rows, accumulated from zero, is at column `y`
    the inner product of the input with weight row `y`. -/
theorem matmul512_apply (l : FVec Ideal S1x512 .bf16) (r : FVec Ideal S256x512 .bf16) (y : Fin 256) :
    matmul dot_S1x512_S256x512_S1x256_1_1_0_0_n_n none l r (constant (F := Ideal) S1x256 .f32 0x00000000#32) (ix2 (0 : Fin 1) y)
      = ∑ k : Fin 512, l (ix2 (0 : Fin 1) k) * r (ix2 y k) := by
  simp only [matmul]
  rw [Ideal.matmul_constant_zero_apply, ← Equiv.sum_comp (contrEquiv1 dot_S1x512_S256x512_S1x256_1_1_0_0_n_n 512 rfl rfl).symm]
  refine Finset.sum_congr rfl fun k _ => ?_
  have hk := contrEquiv1_symm_val dot_S1x512_S256x512_S1x256_1_1_0_0_n_n 512 rfl rfl k
  have el : dot_S1x512_S256x512_S1x256_1_1_0_0_n_n.lhsIdx (ix2 (0 : Fin 1) y) ((contrEquiv1 dot_S1x512_S256x512_S1x256_1_1_0_0_n_n 512 rfl rfl).symm k) = ix2 (0 : Fin 1) k :=
    funext fun a => Fin.ext (by
      match a with
      | ⟨0, _⟩ => exact lhs512_0 _ _
      | ⟨1, _⟩ => exact (lhs512_1 _ _).trans hk)
  have er : dot_S1x512_S256x512_S1x256_1_1_0_0_n_n.rhsIdx (ix2 (0 : Fin 1) y) ((contrEquiv1 dot_S1x512_S256x512_S1x256_1_1_0_0_n_n 512 rfl rfl).symm k) = ix2 y k :=
    funext fun a => Fin.ext (by
      match a with
      | ⟨0, _⟩ => exact rhs512_0 _ _
      | ⟨1, _⟩ => exact (rhs512_1 _ _).trans hk)
  rw [el, er]

end Cert.KVal

end
-- ==== Proof.KVal.Cell.lean ====
/-
  The kernel body's arithmetic at one hidden unit. The body loads, per gate, a slab of 256 weight rows and the matching
  256 bias entries, forms the six pre-activations (three from the layer's input, three from the previous state) and
  combines them with the previous state's entry: exactly the specification's cell, whose sigmoid is the body's
  logistic and whose constant one is the body's own float word.
-/
import proofs.«140640_j85452669321958_2_alg».proof.Proof.Gen.KernelIdeal.Skeleton
import proofs.«140640_j85452669321958_2_alg».proof.Proof.Spec
import proofs.«140640_j85452669321958_2_alg».proof.Proof.KVal.Dots
import Idealize.ShloMosaic.Lib.Pipeline.Value
import Idealize.ShloMosaic.Lib.ValueLayout

noncomputable section

namespace Cert.KVal

open Idealize.ShloMosaic Idealize.ShloMosaic.ValueIdx Cert.KernelIdeal Cert.KernelIdeal.Gen

/-- One gate's pre-activation for unit `y` of a block: the inner product of the input row `x` with row `y` of the
    block's gate slab `w`, plus the bias entry. -/
def lin2048 (x : Vec Ideal S1x2048 .f32) (w : Vec Ideal S1x256x2048 .bf16) (b : Vec Ideal S1x256 .f32) (y : Fin 256) : EReal :=
  (∑ k : Fin 2048, x (ix2 (0 : Fin 1) k) * w (ix3 (0 : Fin 1) y k)) + b (ix2 (0 : Fin 1) y)

/-- What the body computes for one gate — the input narrowed (the identity on exact values), the slab's leading unit
    axis dropped, the product, the bias passed through a flat vector and back — is that pre-activation. -/
theorem side2048 (x : Vec Ideal S1x2048 .f32) (w : Vec Ideal S1x256x2048 .bf16) (b : Vec Ideal S1x256 .f32) (y : Fin 256) :
    (addf (matmul dot_S1x2048_S256x2048_S1x256_1_1_0_0_n_n none (truncf .bf16 (shapeCast S1x2048 x shapeCasts_S1x2048_S1x2048 : FVec Ideal S1x2048 .f32) bitsLt_bf16_f32)
        (shapeCast S256x2048 w shapeCasts_S1x256x2048_S256x2048 : FVec Ideal S256x2048 .bf16) (constant (F := Ideal) S1x256 .f32 0x00000000#32))
      (shapeCast S1x256 (shapeCast S256 b shapeCasts_S1x256_S256 : FVec Ideal S256 .f32) shapeCasts_S256_S1x256 : FVec Ideal S1x256 .f32)) (ix2 (0 : Fin 1) y)
      = lin2048 x w b y := by
  unfold lin2048
  rw [addf_apply, matmul2048_apply]
  refine congrArg₂ (· + ·) (Finset.sum_congr rfl fun k _ => ?_) ?_
  · rw [truncf_apply, shapeCast_self, shapeCast_1ab_ab_apply]
  · rw [shapeCast_a_1a_apply, shapeCast_1a_a_apply]

/-- One gate's pre-activation for unit `y` of a block: the inner product of the input row `x` with row `y` of the
    block's gate slab `w`, plus the bias entry. -/
def lin512 (x : Vec Ideal S1x512 .f32) (w : Vec Ideal S1x256x512 .bf16) (b : Vec Ideal S1x256 .f32) (y : Fin 256) : EReal :=
  (∑ k : Fin 512, x (ix2 (0 : Fin 1) k) * w (ix3 (0 : Fin 1) y k)) + b (ix2 (0 : Fin 1) y)

/-- What the body computes for one gate — the input narrowed (the identity on exact values), the slab's leading unit
    axis dropped, the product, the bias passed through a flat vector and back — is that pre-activation. -/
theorem side512 (x : Vec Ideal S1x512 .f32) (w : Vec Ideal S1x256x512 .bf16) (b : Vec Ideal S1x256 .f32) (y : Fin 256) :
    (addf (matmul dot_S1x512_S256x512_S1x256_1_1_0_0_n_n none (truncf .bf16 (shapeCast S1x512 x shapeCasts_S1x512_S1x512 : FVec Ideal S1x512 .f32) bitsLt_bf16_f32)
        (shapeCast S256x512 w shapeCasts_S1x256x512_S256x512 : FVec Ideal S256x512 .bf16) (constant (F := Ideal) S1x256 .f32 0x00000000#32))
      (shapeCast S1x256 (shapeCast S256 b shapeCasts_S1x256_S256 : FVec Ideal S256 .f32) shapeCasts_S256_S1x256 : FVec Ideal S1x256 .f32)) (ix2 (0 : Fin 1) y)
      = lin512 x w b y := by
  unfold lin512
  rw [addf_apply, matmul512_apply]
  refine congrArg₂ (· + ·) (Finset.sum_congr rfl fun k _ => ?_) ?_
  · rw [truncf_apply, shapeCast_self, shapeCast_1ab_ab_apply]
  · rw [shapeCast_a_1a_apply, shapeCast_1a_a_apply]

/-- REGION 1. The stored block at unit `y`, from the loaded pieces: the specification's cell of the six pre-activations
    (input side: gates 0, 1, 2 of the input-weight block; state side: gates 0, 1, 2 of the state-weight block) and the
    previous state's entry for this unit (`v9`, the state row read at this block's columns). -/
theorem pay1_apply (v2 : Vec Ideal S1x2048 .f32) (v5 : Vec Ideal S1x2048 .f32) (v9 : Vec Ideal S1x256 .f32)
    (v11 v18 v25 : Vec Ideal S1x256x2048 .bf16) (v14 v21 v28 : Vec Ideal S1x256 .f32)
    (v32 v39 v46 : Vec Ideal S1x256x2048 .bf16) (v35 v42 v49 : Vec Ideal S1x256 .f32) (y : Fin 256) :
    k1_pay1 (k1_pay3 v5) (k1_pay4 v9) (k1_pay5 v2 v11 v14) (k1_pay6 v2 v18 v21) (k1_pay7 v2 v25 v28)
        v32 v35 v39 v42 v46 v49 (ix2 (0 : Fin 1) y)
      = Cert.Spec.cell (lin2048 v2 v11 v14 y) (lin2048 v2 v18 v21 y) (lin2048 v2 v25 v28 y)
          (lin2048 v5 v32 v35 y) (lin2048 v5 v39 v42 y) (lin2048 v5 v46 v49 y) (v9 (ix2 (0 : Fin 1) y)) := by
  have e17 : k1_pay5 v2 v11 v14 (ix2 (0 : Fin 1) y) = lin2048 v2 v11 v14 y := side2048 v2 v11 v14 y
  have e24 : k1_pay6 v2 v18 v21 (ix2 (0 : Fin 1) y) = lin2048 v2 v18 v21 y := side2048 v2 v18 v21 y
  have e31 : k1_pay7 v2 v25 v28 (ix2 (0 : Fin 1) y) = lin2048 v2 v25 v28 y := side2048 v2 v25 v28 y
  have e38 := side2048 v5 v32 v35 y
  have e45 := side2048 v5 v39 v42 y
  have e52 := side2048 v5 v46 v49 y
  have e10 : k1_pay4 v9 (ix2 (0 : Fin 1) y) = v9 (ix2 (0 : Fin 1) y) := by
    unfold k1_pay4; exact congrFun (shapeCast_self v9 _) _
  rw [← e17, ← e24, ← e31, ← e38, ← e45, ← e52, ← e10]
  rfl

/-- REGION 0. The stored block at unit `y`, from the loaded pieces: the specification's cell of the six pre-activations
    (input side: gates 0, 1, 2 of the input-weight block; state side: gates 0, 1, 2 of the state-weight block) and the
    previous state's entry for this unit (`v9`, the state row read at this block's columns). -/
theorem pay0_apply (v2 : Vec Ideal S1x512 .f32) (v5 : Vec Ideal S1x2048 .f32) (v9 : Vec Ideal S1x256 .f32)
    (v11 v18 v25 : Vec Ideal S1x256x512 .bf16) (v14 v21 v28 : Vec Ideal S1x256 .f32)
    (v32 v39 v46 : Vec Ideal S1x256x2048 .bf16) (v35 v42 v49 : Vec Ideal S1x256 .f32) (y : Fin 256) :
    k0_pay1 (k0_pay3 v5) (k0_pay4 v9) (k0_pay5 v2 v11 v14) (k0_pay6 v2 v18 v21) (k0_pay7 v2 v25 v28)
        v32 v35 v39 v42 v46 v49 (ix2 (0 : Fin 1) y)
      = Cert.Spec.cell (lin512 v2 v11 v14 y) (lin512 v2 v18 v21 y) (lin512 v2 v25 v28 y)
          (lin2048 v5 v32 v35 y) (lin2048 v5 v39 v42 y) (lin2048 v5 v46 v49 y) (v9 (ix2 (0 : Fin 1) y)) := by
  have e17 : k0_pay5 v2 v11 v14 (ix2 (0 : Fin 1) y) = lin512 v2 v11 v14 y := side512 v2 v11 v14 y
  have e24 : k0_pay6 v2 v18 v21 (ix2 (0 : Fin 1) y) = lin512 v2 v18 v21 y := side512 v2 v18 v21 y
  have e31 : k0_pay7 v2 v25 v28 (ix2 (0 : Fin 1) y) = lin512 v2 v25 v28 y := side512 v2 v25 v28 y
  have e38 := side2048 v5 v32 v35 y
  have e45 := side2048 v5 v39 v42 y
  have e52 := side2048 v5 v46 v49 y
  have e10 : k0_pay4 v9 (ix2 (0 : Fin 1) y) = v9 (ix2 (0 : Fin 1) y) := by
    unfold k0_pay4; exact congrFun (shapeCast_self v9 _) _
  rw [← e17, ← e24, ← e31, ← e38, ← e45, ← e52, ← e10]
  rfl

end Cert.KVal

end
-- ==== Proof.KVal.Block0.lean ====
/-
  Region 0 from blocks to the whole array. Grid point `t` handles hidden units `256·t … 256·t + 255`: it reads the
  whole input row and the whole previous-state row, rows `256·t …` of each gate's slab of the two weight arrays and
  of the two bias arrays, and writes columns `256·t …` of the new state. The eight blocks tile the 2048 columns, so
  the array after the region is one function of the region's arrays: the layer's formula at every hidden unit.
-/
import proofs.«140640_j85452669321958_2_alg».proof.Proof.KIdeal.Region0
import proofs.«140640_j85452669321958_2_alg».proof.Proof.KVal.Cell
import Idealize.ShloMosaic.Lib.Pipeline.Value

noncomputable section

namespace Cert.KVal

open Idealize.ShloMosaic Idealize.ShloMosaic.ValueIdx Idealize.ShloMosaic.TcCoe Idealize.SL.Sem
open Cert.KernelIdeal Cert.KernelIdeal.Gen Cert.KernelIdeal.Hand
open Idealize.ShloMosaic.Pipeline (Dat)

variable (V : (c : Dev nD) → (b : Ref sig .tc) → Buf (Elt Ideal) ((c : Thread nD τ).loc b))

/-- Gate `g`'s pre-activation for hidden unit `j` from a 512-entry input row and the gate-major weight and bias arrays. -/
def gate512 (x : FVec Ideal S1x512 .f32) (w : FVec Ideal S3x2048x512 .bf16) (b : FVec Ideal S3x2048 .f32) (g : Fin 3)
    (j : Fin 2048) : EReal :=
  (∑ k : Fin 512, x (ix2 (0 : Fin 1) k) * w (ix3 g j k)) + b (ix2 g j)

/-- The same from a 2048-entry row. -/
def gate2048 (x : FVec Ideal S1x2048 .f32) (w : FVec Ideal S3x2048x2048 .bf16) (b : FVec Ideal S3x2048 .f32) (g : Fin 3)
    (j : Fin 2048) : EReal :=
  (∑ k : Fin 2048, x (ix2 (0 : Fin 1) k) * w (ix3 g j k)) + b (ix2 g j)

/-- Seven equal arguments give equal cells. -/
theorem cell_congr {a1 a2 a3 a4 a5 a6 a7 b1 b2 b3 b4 b5 b6 b7 : EReal} (h1 : a1 = b1) (h2 : a2 = b2) (h3 : a3 = b3)
    (h4 : a4 = b4) (h5 : a5 = b5) (h6 : a6 = b6) (h7 : a7 = b7) :
    Cert.Spec.cell a1 a2 a3 a4 a5 a6 a7 = Cert.Spec.cell b1 b2 b3 b4 b5 b6 b7 := by subst_vars; rfl

theorem hz2 : (![0, 0] : Fin 2 → Nat) = fun _ => 0 := funext fun a => by fin_cases a <;> rfl

/-- The layer over the region's own arrays, at hidden unit `j`. -/
def unit0 (x : FVec Ideal S1x512 .f32) (h : FVec Ideal S1x2048 .f32) (wi : FVec Ideal S3x2048x512 .bf16)
    (wh : FVec Ideal S3x2048x2048 .bf16) (bi bh : FVec Ideal S3x2048 .f32) (j : Fin 2048) : EReal :=
  Cert.Spec.cell (gate512 x wi bi 0 j) (gate512 x wi bi 1 j) (gate512 x wi bi 2 j)
    (gate2048 h wh bh 0 j) (gate2048 h wh bh 1 j) (gate2048 h wh bh 2 j) (h (ix2 (0 : Fin 1) j))

/-- The layer's new state as a one-row array. -/
def layer0 (x : FVec Ideal S1x512 .f32) (h : FVec Ideal S1x2048 .f32) (wi : FVec Ideal S3x2048x512 .bf16)
    (wh : FVec Ideal S3x2048x2048 .bf16) (bi bh : FVec Ideal S3x2048 .f32) : FVec Ideal S1x2048 .f32 :=
  fun i => unit0 x h wi wh bi bh (i 1)

/-- The block indices at every grid point: the two rows are read whole, every other window sits at block `t` of its
    blocked axis, and the state row is also read at column offset `256·t`. -/
theorem idx_facts0 : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 3) = 0 ∧ win0_2.index t (1 : Fin 3) = t.val ∧ win0_2.index t (2 : Fin 3) = 0
    ∧ win0_3.index t (0 : Fin 3) = 0 ∧ win0_3.index t (1 : Fin 3) = t.val ∧ win0_3.index t (2 : Fin 3) = 0
    ∧ win0_4.index t (0 : Fin 2) = 0 ∧ win0_4.index t (1 : Fin 2) = t.val
    ∧ win0_5.index t (0 : Fin 2) = 0 ∧ win0_5.index t (1 : Fin 2) = t.val
    ∧ win0_6.index t (0 : Fin 2) = 0 ∧ win0_6.index t (1 : Fin 2) = t.val
    ∧ k0_off1 (grid0.coords t) (0 : Fin 2) = 0 ∧ k0_off1 (grid0.coords t) (1 : Fin 2) = t.val * 256 :=
  (by decide +kernel : ∀ t : Fin grid0.N, _)

theorem t_lt0 (t : Fin cfg0.N) : t.val < 8 := lt_of_lt_of_eq t.isLt N_0

/-- The hidden unit that column `y` of block `t` is. -/
def unitOf0 (t : Fin cfg0.N) (y : Fin 256) : Fin 2048 :=
  ⟨t.val * 256 + y.val, by have := t_lt0 t; have := y.isLt; omega⟩

/-! ## What each load of the body reads, in the region's arrays -/

theorem rdX0 (c : Dev nD) (t : Fin cfg0.N) (k : Fin 512) :
    View.ld (iblk0 V c 0 t) r0_X (ix2 (0 : Fin 1) k) = V c main_v9 (ix2 (0 : Fin 1) k) := by
  obtain ⟨e00, e01, -, -, -, -, -, -, -, -, -, -, -, -, -, -, -, -⟩ := idx_facts0 t
  show V c main_v9 (((cfg0.win 0).blk t).view.emb (r0_X.idx (ix2 (0 : Fin 1) k))) = V c main_v9 (ix2 (0 : Fin 1) k)
  refine congrArg (V c main_v9) (funext fun a => Fin.ext ?_)
  match a with
  | ⟨0, _⟩ => show win0_0.index t (0 : Fin 2) * 1 + 1 * (0 + 1 * 0) = 0; omega
  | ⟨1, _⟩ => show win0_0.index t (1 : Fin 2) * 512 + 1 * (0 + 1 * k.val) = k.val; omega

theorem rdH0 (c : Dev nD) (t : Fin cfg0.N) (k : Fin 2048) :
    View.ld (iblk0 V c 1 t) r0_H (ix2 (0 : Fin 1) k) = V c main_v11 (ix2 (0 : Fin 1) k) := by
  obtain ⟨-, -, e10, e11, -, -, -, -, -, -, -, -, -, -, -, -, -, -⟩ := idx_facts0 t
  show V c main_v11 (((cfg0.win 1).blk t).view.emb (r0_H.idx (ix2 (0 : Fin 1) k))) = V c main_v11 (ix2 (0 : Fin 1) k)
  refine congrArg (V c main_v11) (funext fun a => Fin.ext ?_)
  match a with
  | ⟨0, _⟩ => show win0_1.index t (0 : Fin 2) * 1 + 1 * (0 + 1 * 0) = 0; omega
  | ⟨1, _⟩ => show win0_1.index t (1 : Fin 2) * 2048 + 1 * (0 + 1 * k.val) = k.val; omega

theorem rdHt0 (c : Dev nD) (t : Fin cfg0.N) (y : Fin 256) :
    View.ld (iblk0 V c 1 t) (r0_Ht (grid0.coords t)) (ix2 (0 : Fin 1) y)
      = V c main_v11 (ix2 (0 : Fin 1) (unitOf0 t y)) := by
  obtain ⟨-, -, e10, e11, -, -, -, -, -, -, -, -, -, -, -, -, eo0, eo1⟩ := idx_facts0 t
  show V c main_v11 (((cfg0.win 1).blk t).view.emb ((r0_Ht (grid0.coords t)).idx (ix2 (0 : Fin 1) y)))
    = V c main_v11 (ix2 (0 : Fin 1) (unitOf0 t y))
  refine congrArg (V c main_v11) (funext fun a => Fin.ext ?_)
  match a with
  | ⟨0, _⟩ => show win0_1.index t (0 : Fin 2) * 1 + 1 * (k0_off1 (grid0.coords t) (0 : Fin 2) + 1 * 0) = 0; omega
  | ⟨1, _⟩ =>
    show win0_1.index t (1 : Fin 2) * 2048 + 1 * (k0_off1 (grid0.coords t) (1 : Fin 2) + 1 * y.val) = t.val * 256 + y.val
    omega

theorem rdWi0_0 (c : Dev nD) (t : Fin cfg0.N) (y : Fin 256) (k : Fin 512) :
    View.ld (iblk0 V c 2 t) r0_Wi0 (ix3 (0 : Fin 1) y k) = V c main_v15 (ix3 (0 : Fin 3) (unitOf0 t y) k) := by
  obtain ⟨-, -, -, -, e20, e21, e22, -, -, -, -, -, -, -, -, -, -, -⟩ := idx_facts0 t
  show V c main_v15 (((cfg0.win 2).blk t).view.emb (r0_Wi0.idx (ix3 (0 : Fin 1) y k)))
    = V c main_v15 (ix3 (0 : Fin 3) (unitOf0 t y) k)
  refine congrArg (V c main_v15) (funext fun a => Fin.ext ?_)
  match a with
  | ⟨0, _⟩ => show win0_2.index t (0 : Fin 3) * 3 + 1 * (0 + 1 * 0) = 0; omega
  | ⟨1, _⟩ => show win0_2.index t (1 : Fin 3) * 256 + 1 * (0 + 1 * y.val) = t.val * 256 + y.val; omega
  | ⟨2, _⟩ => show win0_2.index t (2 : Fin 3) * 512 + 1 * (0 + 1 * k.val) = k.val; omega

theorem rdWh0_0 (c : Dev nD) (t : Fin cfg0.N) (y : Fin 256) (k : Fin 2048) :
    View.ld (iblk0 V c 3 t) r0_Wh0 (ix3 (0 : Fin 1) y k) = V c main_v17 (ix3 (0 : Fin 3) (unitOf0 t y) k) := by
  obtain ⟨-, -, -, -, -, -, -, e30, e31, e32, -, -, -, -, -, -, -, -⟩ := idx_facts0 t
  show V c main_v17 (((cfg0.win 3).blk t).view.emb (r0_Wh0.idx (ix3 (0 : Fin 1) y k)))
    = V c main_v17 (ix3 (0 : Fin 3) (unitOf0 t y) k)
  refine congrArg (V c main_v17) (funext fun a => Fin.ext ?_)
  match a with
  | ⟨0, _⟩ => show win0_3.index t (0 : Fin 3) * 3 + 1 * (0 + 1 * 0) = 0; omega
  | ⟨1, _⟩ => show win0_3.index t (1 : Fin 3) * 256 + 1 * (0 + 1 * y.val) = t.val * 256 + y.val; omega
  | ⟨2, _⟩ => show win0_3.index t (2 : Fin 3) * 2048 + 1 * (0 + 1 * k.val) = k.val; omega

theorem rdBi0_0 (c : Dev nD) (t : Fin cfg0.N) (y : Fin 256) :
    View.ld (iblk0 V c 4 t) r0_B0 (ix2 (0 : Fin 1) y) = V c main_v18 (ix2 (0 : Fin 3) (unitOf0 t y)) := by
  obtain ⟨-, -, -, -, -, -, -, -, -, -, e40, e41, -, -, -, -, -, -⟩ := idx_facts0 t
  show V c main_v18 (((cfg0.win 4).blk t).view.emb (r0_B0.idx (ix2 (0 : Fin 1) y)))
    = V c main_v18 (ix2 (0 : Fin 3) (unitOf0 t y))
  refine congrArg (V c main_v18) (funext fun a => Fin.ext ?_)
  match a with
  | ⟨0, _⟩ => show win0_4.index t (0 : Fin 2) * 3 + 1 * (0 + 1 * 0) = 0; omega
  | ⟨1, _⟩ => show win0_4.index t (1 : Fin 2) * 256 + 1 * (0 + 1 * y.val) = t.val * 256 + y.val; omega

theorem rdBh0_0 (c : Dev nD) (t : Fin cfg0.N) (y : Fin 256) :
    View.ld (iblk0 V c 5 t) r0_B0 (ix2 (0 : Fin 1) y) = V c main_v19 (ix2 (0 : Fin 3) (unitOf0 t y)) := by
  obtain ⟨-, -, -, -, -, -, -, -, -, -, -, -, e50, e51, -, -, -, -⟩ := idx_facts0 t
  show V c main_v19 (((cfg0.win 5).blk t).view.emb (r0_B0.idx (ix2 (0 : Fin 1) y)))
    = V c main_v19 (ix2 (0 : Fin 3) (unitOf0 t y))
  refine congrArg (V c main_v19) (funext fun a => Fin.ext ?_)
  match a with
  | ⟨0, _⟩ => show win0_5.index t (0 : Fin 2) * 3 + 1 * (0 + 1 * 0) = 0; omega
  | ⟨1, _⟩ => show win0_5.index t (1 : Fin 2) * 256 + 1 * (0 + 1 * y.val) = t.val * 256 + y.val; omega

/-- Gate 0 from the layer's input, as the block computes it, is the gate of the region's arrays at this unit. -/
theorem inGate0_0 (c : Dev nD) (t : Fin cfg0.N) (y : Fin 256) :
    lin512 (View.ld (iblk0 V c 0 t) r0_X) (View.ld (iblk0 V c 2 t) r0_Wi0) (View.ld (iblk0 V c 4 t) r0_B0) y
      = gate512 (V c main_v9) (V c main_v15) (V c main_v18) 0 (unitOf0 t y) :=
  congrArg₂ (· + ·) (Finset.sum_congr rfl fun k _ => congrArg₂ (· * ·) (rdX0 V c t k) (rdWi0_0 V c t y k))
    (rdBi0_0 V c t y)

/-- Gate 0 from the previous state. -/
theorem stGate0_0 (c : Dev nD) (t : Fin cfg0.N) (y : Fin 256) :
    lin2048 (View.ld (iblk0 V c 1 t) r0_H) (View.ld (iblk0 V c 3 t) r0_Wh0) (View.ld (iblk0 V c 5 t) r0_B0) y
      = gate2048 (V c main_v11) (V c main_v17) (V c main_v19) 0 (unitOf0 t y) :=
  congrArg₂ (· + ·) (Finset.sum_congr rfl fun k _ => congrArg₂ (· * ·) (rdH0 V c t k) (rdWh0_0 V c t y k))
    (rdBh0_0 V c t y)

theorem rdWi0_1 (c : Dev nD) (t : Fin cfg0.N) (y : Fin 256) (k : Fin 512) :
    View.ld (iblk0 V c 2 t) r0_Wi1 (ix3 (0 : Fin 1) y k) = V c main_v15 (ix3 (1 : Fin 3) (unitOf0 t y) k) := by
  obtain ⟨-, -, -, -, e20, e21, e22, -, -, -, -, -, -, -, -, -, -, -⟩ := idx_facts0 t
  show V c main_v15 (((cfg0.win 2).blk t).view.emb (r0_Wi1.idx (ix3 (0 : Fin 1) y k)))
    = V c main_v15 (ix3 (1 : Fin 3) (unitOf0 t y) k)
  refine congrArg (V c main_v15) (funext fun a => Fin.ext ?_)
  match a with
  | ⟨0, _⟩ => show win0_2.index t (0 : Fin 3) * 3 + 1 * (1 + 1 * 0) = 1; omega
  | ⟨1, _⟩ => show win0_2.index t (1 : Fin 3) * 256 + 1 * (0 + 1 * y.val) = t.val * 256 + y.val; omega
  | ⟨2, _⟩ => show win0_2.index t (2 : Fin 3) * 512 + 1 * (0 + 1 * k.val) = k.val; omega

theorem rdWh0_1 (c : Dev nD) (t : Fin cfg0.N) (y : Fin 256) (k : Fin 2048) :
    View.ld (iblk0 V c 3 t) r0_Wh1 (ix3 (0 : Fin 1) y k) = V c main_v17 (ix3 (1 : Fin 3) (unitOf0 t y) k) := by
  obtain ⟨-, -, -, -, -, -, -, e30, e31, e32, -, -, -, -, -, -, -, -⟩ := idx_facts0 t
  show V c main_v17 (((cfg0.win 3).blk t).view.emb (r0_Wh1.idx (ix3 (0 : Fin 1) y k)))
    = V c main_v17 (ix3 (1 : Fin 3) (unitOf0 t y) k)
  refine congrArg (V c main_v17) (funext fun a => Fin.ext ?_)
  match a with
  | ⟨0, _⟩ => show win0_3.index t (0 : Fin 3) * 3 + 1 * (1 + 1 * 0) = 1; omega
  | ⟨1, _⟩ => show win0_3.index t (1 : Fin 3) * 256 + 1 * (0 + 1 * y.val) = t.val * 256 + y.val; omega
  | ⟨2, _⟩ => show win0_3.index t (2 : Fin 3) * 2048 + 1 * (0 + 1 * k.val) = k.val; omega

theorem rdBi0_1 (c : Dev nD) (t : Fin cfg0.N) (y : Fin 256) :
    View.ld (iblk0 V c 4 t) r0_B1 (ix2 (0 : Fin 1) y) = V c main_v18 (ix2 (1 : Fin 3) (unitOf0 t y)) := by
  obtain ⟨-, -, -, -, -, -, -, -, -, -, e40, e41, -, -, -, -, -, -⟩ := idx_facts0 t
  show V c main_v18 (((cfg0.win 4).blk t).view.emb (r0_B1.idx (ix2 (0 : Fin 1) y)))
    = V c main_v18 (ix2 (1 : Fin 3) (unitOf0 t y))
  refine congrArg (V c main_v18) (funext fun a => Fin.ext ?_)
  match a with
  | ⟨0, _⟩ => show win0_4.index t (0 : Fin 2) * 3 + 1 * (1 + 1 * 0) = 1; omega
  | ⟨1, _⟩ => show win0_4.index t (1 : Fin 2) * 256 + 1 * (0 + 1 * y.val) = t.val * 256 + y.val; omega

theorem rdBh0_1 (c : Dev nD) (t : Fin cfg0.N) (y : Fin 256) :
    View.ld (iblk0 V c 5 t) r0_B1 (ix2 (0 : Fin 1) y) = V c main_v19 (ix2 (1 : Fin 3) (unitOf0 t y)) := by
  obtain ⟨-, -, -, -, -, -, -, -, -, -, -, -, e50, e51, -, -, -, -⟩ := idx_facts0 t
  show V c main_v19 (((cfg0.win 5).blk t).view.emb (r0_B1.idx (ix2 (0 : Fin 1) y)))
    = V c main_v19 (ix2 (1 : Fin 3) (unitOf0 t y))
  refine congrArg (V c main_v19) (funext fun a => Fin.ext ?_)
  match a with
  | ⟨0, _⟩ => show win0_5.index t (0 : Fin 2) * 3 + 1 * (1 + 1 * 0) = 1; omega
  | ⟨1, _⟩ => show win0_5.index t (1 : Fin 2) * 256 + 1 * (0 + 1 * y.val) = t.val * 256 + y.val; omega

/-- Gate 1 from the layer's input, as the block computes it, is the gate of the region's arrays at this unit. -/
theorem inGate0_1 (c : Dev nD) (t : Fin cfg0.N) (y : Fin 256) :
    lin512 (View.ld (iblk0 V c 0 t) r0_X) (View.ld (iblk0 V c 2 t) r0_Wi1) (View.ld (iblk0 V c 4 t) r0_B1) y
      = gate512 (V c main_v9) (V c main_v15) (V c main_v18) 1 (unitOf0 t y) :=
  congrArg₂ (· + ·) (Finset.sum_congr rfl fun k _ => congrArg₂ (· * ·) (rdX0 V c t k) (rdWi0_1 V c t y k))
    (rdBi0_1 V c t y)

/-- Gate 1 from the previous state. -/
theorem stGate0_1 (c : Dev nD) (t : Fin cfg0.N) (y : Fin 256) :
    lin2048 (View.ld (iblk0 V c 1 t) r0_H) (View.ld (iblk0 V c 3 t) r0_Wh1) (View.ld (iblk0 V c 5 t) r0_B1) y
      = gate2048 (V c main_v11) (V c main_v17) (V c main_v19) 1 (unitOf0 t y) :=
  congrArg₂ (· + ·) (Finset.sum_congr rfl fun k _ => congrArg₂ (· * ·) (rdH0 V c t k) (rdWh0_1 V c t y k))
    (rdBh0_1 V c t y)

theorem rdWi0_2 (c : Dev nD) (t : Fin cfg0.N) (y : Fin 256) (k : Fin 512) :
    View.ld (iblk0 V c 2 t) r0_Wi2 (ix3 (0 : Fin 1) y k) = V c main_v15 (ix3 (2 : Fin 3) (unitOf0 t y) k) := by
  obtain ⟨-, -, -, -, e20, e21, e22, -, -, -, -, -, -, -, -, -, -, -⟩ := idx_facts0 t
  show V c main_v15 (((cfg0.win 2).blk t).view.emb (r0_Wi2.idx (ix3 (0 : Fin 1) y k)))
    = V c main_v15 (ix3 (2 : Fin 3) (unitOf0 t y) k)
  refine congrArg (V c main_v15) (funext fun a => Fin.ext ?_)
  match a with
  | ⟨0, _⟩ => show win0_2.index t (0 : Fin 3) * 3 + 1 * (2 + 1 * 0) = 2; omega
  | ⟨1, _⟩ => show win0_2.index t (1 : Fin 3) * 256 + 1 * (0 + 1 * y.val) = t.val * 256 + y.val; omega
  | ⟨2, _⟩ => show win0_2.index t (2 : Fin 3) * 512 + 1 * (0 + 1 * k.val) = k.val; omega

theorem rdWh0_2 (c : Dev nD) (t : Fin cfg0.N) (y : Fin 256) (k : Fin 2048) :
    View.ld (iblk0 V c 3 t) r0_Wh2 (ix3 (0 : Fin 1) y k) = V c main_v17 (ix3 (2 : Fin 3) (unitOf0 t y) k) := by
  obtain ⟨-, -, -, -, -, -, -, e30, e31, e32, -, -, -, -, -, -, -, -⟩ := idx_facts0 t
  show V c main_v17 (((cfg0.win 3).blk t).view.emb (r0_Wh2.idx (ix3 (0 : Fin 1) y k)))
    = V c main_v17 (ix3 (2 : Fin 3) (unitOf0 t y) k)
  refine congrArg (V c main_v17) (funext fun a => Fin.ext ?_)
  match a with
  | ⟨0, _⟩ => show win0_3.index t (0 : Fin 3) * 3 + 1 * (2 + 1 * 0) = 2; omega
  | ⟨1, _⟩ => show win0_3.index t (1 : Fin 3) * 256 + 1 * (0 + 1 * y.val) = t.val * 256 + y.val; omega
  | ⟨2, _⟩ => show win0_3.index t (2 : Fin 3) * 2048 + 1 * (0 + 1 * k.val) = k.val; omega

theorem rdBi0_2 (c : Dev nD) (t : Fin cfg0.N) (y : Fin 256) :
    View.ld (iblk0 V c 4 t) r0_B2 (ix2 (0 : Fin 1) y) = V c main_v18 (ix2 (2 : Fin 3) (unitOf0 t y)) := by
  obtain ⟨-, -, -, -, -, -, -, -, -, -, e40, e41, -, -, -, -, -, -⟩ := idx_facts0 t
  show V c main_v18 (((cfg0.win 4).blk t).view.emb (r0_B2.idx (ix2 (0 : Fin 1) y)))
    = V c main_v18 (ix2 (2 : Fin 3) (unitOf0 t y))
  refine congrArg (V c main_v18) (funext fun a => Fin.ext ?_)
  match a with
  | ⟨0, _⟩ => show win0_4.index t (0 : Fin 2) * 3 + 1 * (2 + 1 * 0) = 2; omega
  | ⟨1, _⟩ => show win0_4.index t (1 : Fin 2) * 256 + 1 * (0 + 1 * y.val) = t.val * 256 + y.val; omega

theorem rdBh0_2 (c : Dev nD) (t : Fin cfg0.N) (y : Fin 256) :
    View.ld (iblk0 V c 5 t) r0_B2 (ix2 (0 : Fin 1) y) = V c main_v19 (ix2 (2 : Fin 3) (unitOf0 t y)) := by
  obtain ⟨-, -, -, -, -, -, -, -, -, -, -, -, e50, e51, -, -, -, -⟩ := idx_facts0 t
  show V c main_v19 (((cfg0.win 5).blk t).view.emb (r0_B2.idx (ix2 (0 : Fin 1) y)))
    = V c main_v19 (ix2 (2 : Fin 3) (unitOf0 t y))
  refine congrArg (V c main_v19) (funext fun a => Fin.ext ?_)
  match a with
  | ⟨0, _⟩ => show win0_5.index t (0 : Fin 2) * 3 + 1 * (2 + 1 * 0) = 2; omega
  | ⟨1, _⟩ => show win0_5.index t (1 : Fin 2) * 256 + 1 * (0 + 1 * y.val) = t.val * 256 + y.val; omega

/-- Gate 2 from the layer's input, as the block computes it, is the gate of the region's arrays at this unit. -/
theorem inGate0_2 (c : Dev nD) (t : Fin cfg0.N) (y : Fin 256) :
    lin512 (View.ld (iblk0 V c 0 t) r0_X) (View.ld (iblk0 V c 2 t) r0_Wi2) (View.ld (iblk0 V c 4 t) r0_B2) y
      = gate512 (V c main_v9) (V c main_v15) (V c main_v18) 2 (unitOf0 t y) :=
  congrArg₂ (· + ·) (Finset.sum_congr rfl fun k _ => congrArg₂ (· * ·) (rdX0 V c t k) (rdWi0_2 V c t y k))
    (rdBi0_2 V c t y)

/-- Gate 2 from the previous state. -/
theorem stGate0_2 (c : Dev nD) (t : Fin cfg0.N) (y : Fin 256) :
    lin2048 (View.ld (iblk0 V c 1 t) r0_H) (View.ld (iblk0 V c 3 t) r0_Wh2) (View.ld (iblk0 V c 5 t) r0_B2) y
      = gate2048 (V c main_v11) (V c main_v17) (V c main_v19) 2 (unitOf0 t y) :=
  congrArg₂ (· + ·) (Finset.sum_congr rfl fun k _ => congrArg₂ (· * ·) (rdH0 V c t k) (rdWh0_2 V c t y k))
    (rdBh0_2 V c t y)

/-! ## What a grid point writes back, and the array after the region -/

/-- WHAT POINT `t` WRITES BACK is block `t` of the layer's new state over the region's arrays. -/
theorem flushed0_eq (c : Dev nD) (t : Fin cfg0.N) :
    (dat0 V c).flushed 6 t = ((cfg0.win 6).blk t).view.read (Elt Ideal)
      (layer0 (V c main_v9) (V c main_v11) (V c main_v15) (V c main_v17) (V c main_v18) (V c main_v19)) := by
  show (cfg0.win 6).cut (grid0.coords t) ((dat0 V c).after 6 t) = _
  rw [after0_6]
  unfold out0_6
  rw [View.canon_unit_zero hz2]
  funext j
  obtain ⟨-, -, -, -, -, -, -, -, -, -, -, -, -, -, e60, e61, -, -⟩ := idx_facts0 t
  have hj0 : (j 0).val = 0 := by
    have h := ((cfg0.win 6).xinj (grid0.coords t) j 0).isLt
    have h' : ((cfg0.win 6).xinj (grid0.coords t) j 0).val = (j 0).val := rfl
    have h1 : ((cfg0.win 6).xinj (grid0.coords t) j 0).val < 1 := h
    omega
  have hj1 : (j 1).val < 256 := ((cfg0.win 6).xinj (grid0.coords t) j 1).isLt
  have hx : (cfg0.win 6).xinj (grid0.coords t) j = ix2 (0 : Fin 1) (⟨(j 1).val, hj1⟩ : Fin 256) :=
    funext fun a => Fin.ext (by
      match a with
      | ⟨0, _⟩ => exact hj0
      | ⟨1, _⟩ => rfl)
  have hJ : ((cfg0.win 6).blk t).view.emb j = ix2 (0 : Fin 1) (unitOf0 t ⟨(j 1).val, hj1⟩) :=
    funext fun a => Fin.ext (by
      match a with
      | ⟨0, _⟩ => show win0_6.index t (0 : Fin 2) * 1 + 1 * (j 0).val = 0; omega
      | ⟨1, _⟩ => show win0_6.index t (1 : Fin 2) * 256 + 1 * (j 1).val = t.val * 256 + (j 1).val; omega)
  show k0_pay1 _ _ _ _ _ _ _ _ _ _ _ ((cfg0.win 6).xinj (grid0.coords t) j)
    = layer0 _ _ _ _ _ _ (((cfg0.win 6).blk t).view.emb j)
  rw [hx, hJ]
  refine (pay0_apply _ _ _ _ _ _ _ _ _ _ _ _ _ _ _ _).trans ?_
  exact cell_congr (inGate0_0 V c t _) (inGate0_1 V c t _) (inGate0_2 V c t _)
    (stGate0_0 V c t _) (stGate0_1 V c t _) (stGate0_2 V c t _) (rdHt0 V c t _)

/-- An index of the state row is in point `t`'s block iff its column is among the block's 256. -/
theorem mem_blk0 (t : Fin cfg0.N) (i : S1x2048.Idx) :
    i ∈ ((cfg0.win 6).blk t).view.set ↔ ∀ a : Fin 2, win0_6.index t a * S1x256.size a ≤ (i a).val
      ∧ (i a).val < win0_6.index t a * S1x256.size a + S1x256.size a := by
  show i ∈ ((View.whole main_v26).slice (win0_6.rect t)).set ↔ _
  rw [View.set_slice_whole, Rect.mem_set_unit]
  exact Iff.rfl

/-- Every column belongs to some point's block: the point `column / 256`. -/
theorem cover0 (i : S1x2048.Idx) :
    ∃ t : Fin cfg0.N, (cfg0.win 6).flush t = true ∧ i ∈ ((cfg0.win 6).blk t).view.set := by
  have hi0 : (i 0).val < 1 := (i 0).isLt
  have hi1 : (i 1).val < 2048 := (i 1).isLt
  let t : Fin cfg0.N := ⟨(i 1).val / 256, by rw [show cfg0.N = 8 from N_0]; omega⟩
  obtain ⟨-, -, -, -, -, -, -, -, -, -, -, -, -, -, e60, e61, -, -⟩ := idx_facts0 t
  have ht : t.val = (i 1).val / 256 := rfl
  refine ⟨t, flush0_6 t, ?_⟩
  rw [mem_blk0]
  intro a
  match a with
  | ⟨0, _⟩ => show win0_6.index t (0 : Fin 2) * 1 ≤ (i 0).val ∧ (i 0).val < win0_6.index t (0 : Fin 2) * 1 + 1; omega
  | ⟨1, _⟩ => show win0_6.index t (1 : Fin 2) * 256 ≤ (i 1).val ∧ (i 1).val < win0_6.index t (1 : Fin 2) * 256 + 256; omega

/-- THE ARRAY AFTER THE REGION: the layer's new state, a function of the arrays the region was entered with. -/
theorem final0 (c : Dev nD) :
    (dat0 V c).arrAt 6 cfg0.N
      = layer0 (V c main_v9) (V c main_v11) (V c main_v15) (V c main_v17) (V c main_v18) (V c main_v19) :=
  (dat0 V c).arrAt_eq_of_cover 6 _ (fun t _ => flushed0_eq V c t) (cover0)

end Cert.KVal

end
-- ==== Proof.KVal.Block1.lean ====
/-
  Region 1 from blocks to the whole array. Grid point `t` handles hidden units `256·t … 256·t + 255`: it reads the
  whole input row and the whole previous-state row, rows `256·t …` of each gate's slab of the two weight arrays and
  of the two bias arrays, and writes columns `256·t …` of the new state. The eight blocks tile the 2048 columns, so
  the array after the region is one function of the region's arrays: the layer's formula at every hidden unit.
-/
import proofs.«140640_j85452669321958_2_alg».proof.Proof.KIdeal.Region1
import proofs.«140640_j85452669321958_2_alg».proof.Proof.KVal.Cell
import proofs.«140640_j85452669321958_2_alg».proof.Proof.KVal.Block0
import Idealize.ShloMosaic.Lib.Pipeline.Value

noncomputable section

namespace Cert.KVal

open Idealize.ShloMosaic Idealize.ShloMosaic.ValueIdx Idealize.ShloMosaic.TcCoe Idealize.SL.Sem
open Cert.KernelIdeal Cert.KernelIdeal.Gen Cert.KernelIdeal.Hand
open Idealize.ShloMosaic.Pipeline (Dat)

variable (V : (c : Dev nD) → (b : Ref sig .tc) → Buf (Elt Ideal) ((c : Thread nD τ).loc b))

/-- The layer over the region's own arrays, at hidden unit `j`. -/
def unit1 (x : FVec Ideal S1x2048 .f32) (h : FVec Ideal S1x2048 .f32) (wi : FVec Ideal S3x2048x2048 .bf16)
    (wh : FVec Ideal S3x2048x2048 .bf16) (bi bh : FVec Ideal S3x2048 .f32) (j : Fin 2048) : EReal :=
  Cert.Spec.cell (gate2048 x wi bi 0 j) (gate2048 x wi bi 1 j) (gate2048 x wi bi 2 j)
    (gate2048 h wh bh 0 j) (gate2048 h wh bh 1 j) (gate2048 h wh bh 2 j) (h (ix2 (0 : Fin 1) j))

/-- The layer's new state as a one-row array. -/
def layer1 (x : FVec Ideal S1x2048 .f32) (h : FVec Ideal S1x2048 .f32) (wi : FVec Ideal S3x2048x2048 .bf16)
    (wh : FVec Ideal S3x2048x2048 .bf16) (bi bh : FVec Ideal S3x2048 .f32) : FVec Ideal S1x2048 .f32 :=
  fun i => unit1 x h wi wh bi bh (i 1)

/-- The block indices at every grid point: the two rows are read whole, every other window sits at block `t` of its
    blocked axis, and the state row is also read at column offset `256·t`. -/
theorem idx_facts1 : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 3) = 0 ∧ win1_2.index t (1 : Fin 3) = t.val ∧ win1_2.index t (2 : Fin 3) = 0
    ∧ win1_3.index t (0 : Fin 3) = 0 ∧ win1_3.index t (1 : Fin 3) = t.val ∧ win1_3.index t (2 : Fin 3) = 0
    ∧ win1_4.index t (0 : Fin 2) = 0 ∧ win1_4.index t (1 : Fin 2) = t.val
    ∧ win1_5.index t (0 : Fin 2) = 0 ∧ win1_5.index t (1 : Fin 2) = t.val
    ∧ win1_6.index t (0 : Fin 2) = 0 ∧ win1_6.index t (1 : Fin 2) = t.val
    ∧ k1_off1 (grid1.coords t) (0 : Fin 2) = 0 ∧ k1_off1 (grid1.coords t) (1 : Fin 2) = t.val * 256 :=
  (by decide +kernel : ∀ t : Fin grid1.N, _)

theorem t_lt1 (t : Fin cfg1.N) : t.val < 8 := lt_of_lt_of_eq t.isLt N_1

/-- The hidden unit that column `y` of block `t` is. -/
def unitOf1 (t : Fin cfg1.N) (y : Fin 256) : Fin 2048 :=
  ⟨t.val * 256 + y.val, by have := t_lt1 t; have := y.isLt; omega⟩

/-! ## What each load of the body reads, in the region's arrays -/

theorem rdX1 (c : Dev nD) (t : Fin cfg1.N) (k : Fin 2048) :
    View.ld (iblk1 V c 0 t) r1_X (ix2 (0 : Fin 1) k) = V c main_v26 (ix2 (0 : Fin 1) k) := by
  obtain ⟨e00, e01, -, -, -, -, -, -, -, -, -, -, -, -, -, -, -, -⟩ := idx_facts1 t
  show V c main_v26 (((cfg1.win 0).blk t).view.emb (r1_X.idx (ix2 (0 : Fin 1) k))) = V c main_v26 (ix2 (0 : Fin 1) k)
  refine congrArg (V c main_v26) (funext fun a => Fin.ext ?_)
  match a with
  | ⟨0, _⟩ => show win1_0.index t (0 : Fin 2) * 1 + 1 * (0 + 1 * 0) = 0; omega
  | ⟨1, _⟩ => show win1_0.index t (1 : Fin 2) * 2048 + 1 * (0 + 1 * k.val) = k.val; omega

theorem rdH1 (c : Dev nD) (t : Fin cfg1.N) (k : Fin 2048) :
    View.ld (iblk1 V c 1 t) r1_H (ix2 (0 : Fin 1) k) = V c main_v13 (ix2 (0 : Fin 1) k) := by
  obtain ⟨-, -, e10, e11, -, -, -, -, -, -, -, -, -, -, -, -, -, -⟩ := idx_facts1 t
  show V c main_v13 (((cfg1.win 1).blk t).view.emb (r1_H.idx (ix2 (0 : Fin 1) k))) = V c main_v13 (ix2 (0 : Fin 1) k)
  refine congrArg (V c main_v13) (funext fun a => Fin.ext ?_)
  match a with
  | ⟨0, _⟩ => show win1_1.index t (0 : Fin 2) * 1 + 1 * (0 + 1 * 0) = 0; omega
  | ⟨1, _⟩ => show win1_1.index t (1 : Fin 2) * 2048 + 1 * (0 + 1 * k.val) = k.val; omega

theorem rdHt1 (c : Dev nD) (t : Fin cfg1.N) (y : Fin 256) :
    View.ld (iblk1 V c 1 t) (r1_Ht (grid1.coords t)) (ix2 (0 : Fin 1) y)
      = V c main_v13 (ix2 (0 : Fin 1) (unitOf1 t y)) := by
  obtain ⟨-, -, e10, e11, -, -, -, -, -, -, -, -, -, -, -, -, eo0, eo1⟩ := idx_facts1 t
  show V c main_v13 (((cfg1.win 1).blk t).view.emb ((r1_Ht (grid1.coords t)).idx (ix2 (0 : Fin 1) y)))
    = V c main_v13 (ix2 (0 : Fin 1) (unitOf1 t y))
  refine congrArg (V c main_v13) (funext fun a => Fin.ext ?_)
  match a with
  | ⟨0, _⟩ => show win1_1.index t (0 : Fin 2) * 1 + 1 * (k1_off1 (grid1.coords t) (0 : Fin 2) + 1 * 0) = 0; omega
  | ⟨1, _⟩ =>
    show win1_1.index t (1 : Fin 2) * 2048 + 1 * (k1_off1 (grid1.coords t) (1 : Fin 2) + 1 * y.val) = t.val * 256 + y.val
    omega

theorem rdWi1_0 (c : Dev nD) (t : Fin cfg1.N) (y : Fin 256) (k : Fin 2048) :
    View.ld (iblk1 V c 2 t) r1_Wi0 (ix3 (0 : Fin 1) y k) = V c main_v21 (ix3 (0 : Fin 3) (unitOf1 t y) k) := by
  obtain ⟨-, -, -, -, e20, e21, e22, -, -, -, -, -, -, -, -, -, -, -⟩ := idx_facts1 t
  show V c main_v21 (((cfg1.win 2).blk t).view.emb (r1_Wi0.idx (ix3 (0 : Fin 1) y k)))
    = V c main_v21 (ix3 (0 : Fin 3) (unitOf1 t y) k)
  refine congrArg (V c main_v21) (funext fun a => Fin.ext ?_)
  match a with
  | ⟨0, _⟩ => show win1_2.index t (0 : Fin 3) * 3 + 1 * (0 + 1 * 0) = 0; omega
  | ⟨1, _⟩ => show win1_2.index t (1 : Fin 3) * 256 + 1 * (0 + 1 * y.val) = t.val * 256 + y.val; omega
  | ⟨2, _⟩ => show win1_2.index t (2 : Fin 3) * 2048 + 1 * (0 + 1 * k.val) = k.val; omega

theorem rdWh1_0 (c : Dev nD) (t : Fin cfg1.N) (y : Fin 256) (k : Fin 2048) :
    View.ld (iblk1 V c 3 t) r1_Wh0 (ix3 (0 : Fin 1) y k) = V c main_v23 (ix3 (0 : Fin 3) (unitOf1 t y) k) := by
  obtain ⟨-, -, -, -, -, -, -, e30, e31, e32, -, -, -, -, -, -, -, -⟩ := idx_facts1 t
  show V c main_v23 (((cfg1.win 3).blk t).view.emb (r1_Wh0.idx (ix3 (0 : Fin 1) y k)))
    = V c main_v23 (ix3 (0 : Fin 3) (unitOf1 t y) k)
  refine congrArg (V c main_v23) (funext fun a => Fin.ext ?_)
  match a with
  | ⟨0, _⟩ => show win1_3.index t (0 : Fin 3) * 3 + 1 * (0 + 1 * 0) = 0; omega
  | ⟨1, _⟩ => show win1_3.index t (1 : Fin 3) * 256 + 1 * (0 + 1 * y.val) = t.val * 256 + y.val; omega
  | ⟨2, _⟩ => show win1_3.index t (2 : Fin 3) * 2048 + 1 * (0 + 1 * k.val) = k.val; omega

theorem rdBi1_0 (c : Dev nD) (t : Fin cfg1.N) (y : Fin 256) :
    View.ld (iblk1 V c 4 t) r1_B0 (ix2 (0 : Fin 1) y) = V c main_v24 (ix2 (0 : Fin 3) (unitOf1 t y)) := by
  obtain ⟨-, -, -, -, -, -, -, -, -, -, e40, e41, -, -, -, -, -, -⟩ := idx_facts1 t
  show V c main_v24 (((cfg1.win 4).blk t).view.emb (r1_B0.idx (ix2 (0 : Fin 1) y)))
    = V c main_v24 (ix2 (0 : Fin 3) (unitOf1 t y))
  refine congrArg (V c main_v24) (funext fun a => Fin.ext ?_)
  match a with
  | ⟨0, _⟩ => show win1_4.index t (0 : Fin 2) * 3 + 1 * (0 + 1 * 0) = 0; omega
  | ⟨1, _⟩ => show win1_4.index t (1 : Fin 2) * 256 + 1 * (0 + 1 * y.val) = t.val * 256 + y.val; omega

theorem rdBh1_0 (c : Dev nD) (t : Fin cfg1.N) (y : Fin 256) :
    View.ld (iblk1 V c 5 t) r1_B0 (ix2 (0 : Fin 1) y) = V c main_v25 (ix2 (0 : Fin 3) (unitOf1 t y)) := by
  obtain ⟨-, -, -, -, -, -, -, -, -, -, -, -, e50, e51, -, -, -, -⟩ := idx_facts1 t
  show V c main_v25 (((cfg1.win 5).blk t).view.emb (r1_B0.idx (ix2 (0 : Fin 1) y)))
    = V c main_v25 (ix2 (0 : Fin 3) (unitOf1 t y))
  refine congrArg (V c main_v25) (funext fun a => Fin.ext ?_)
  match a with
  | ⟨0, _⟩ => show win1_5.index t (0 : Fin 2) * 3 + 1 * (0 + 1 * 0) = 0; omega
  | ⟨1, _⟩ => show win1_5.index t (1 : Fin 2) * 256 + 1 * (0 + 1 * y.val) = t.val * 256 + y.val; omega

/-- Gate 0 from the layer's input, as the block computes it, is the gate of the region's arrays at this unit. -/
theorem inGate1_0 (c : Dev nD) (t : Fin cfg1.N) (y : Fin 256) :
    lin2048 (View.ld (iblk1 V c 0 t) r1_X) (View.ld (iblk1 V c 2 t) r1_Wi0) (View.ld (iblk1 V c 4 t) r1_B0) y
      = gate2048 (V c main_v26) (V c main_v21) (V c main_v24) 0 (unitOf1 t y) :=
  congrArg₂ (· + ·) (Finset.sum_congr rfl fun k _ => congrArg₂ (· * ·) (rdX1 V c t k) (rdWi1_0 V c t y k))
    (rdBi1_0 V c t y)

/-- Gate 0 from the previous state. -/
theorem stGate1_0 (c : Dev nD) (t : Fin cfg1.N) (y : Fin 256) :
    lin2048 (View.ld (iblk1 V c 1 t) r1_H) (View.ld (iblk1 V c 3 t) r1_Wh0) (View.ld (iblk1 V c 5 t) r1_B0) y
      = gate2048 (V c main_v13) (V c main_v23) (V c main_v25) 0 (unitOf1 t y) :=
  congrArg₂ (· + ·) (Finset.sum_congr rfl fun k _ => congrArg₂ (· * ·) (rdH1 V c t k) (rdWh1_0 V c t y k))
    (rdBh1_0 V c t y)

theorem rdWi1_1 (c : Dev nD) (t : Fin cfg1.N) (y : Fin 256) (k : Fin 2048) :
    View.ld (iblk1 V c 2 t) r1_Wi1 (ix3 (0 : Fin 1) y k) = V c main_v21 (ix3 (1 : Fin 3) (unitOf1 t y) k) := by
  obtain ⟨-, -, -, -, e20, e21, e22, -, -, -, -, -, -, -, -, -, -, -⟩ := idx_facts1 t
  show V c main_v21 (((cfg1.win 2).blk t).view.emb (r1_Wi1.idx (ix3 (0 : Fin 1) y k)))
    = V c main_v21 (ix3 (1 : Fin 3) (unitOf1 t y) k)
  refine congrArg (V c main_v21) (funext fun a => Fin.ext ?_)
  match a with
  | ⟨0, _⟩ => show win1_2.index t (0 : Fin 3) * 3 + 1 * (1 + 1 * 0) = 1; omega
  | ⟨1, _⟩ => show win1_2.index t (1 : Fin 3) * 256 + 1 * (0 + 1 * y.val) = t.val * 256 + y.val; omega
  | ⟨2, _⟩ => show win1_2.index t (2 : Fin 3) * 2048 + 1 * (0 + 1 * k.val) = k.val; omega

theorem rdWh1_1 (c : Dev nD) (t : Fin cfg1.N) (y : Fin 256) (k : Fin 2048) :
    View.ld (iblk1 V c 3 t) r1_Wh1 (ix3 (0 : Fin 1) y k) = V c main_v23 (ix3 (1 : Fin 3) (unitOf1 t y) k) := by
  obtain ⟨-, -, -, -, -, -, -, e30, e31, e32, -, -, -, -, -, -, -, -⟩ := idx_facts1 t
  show V c main_v23 (((cfg1.win 3).blk t).view.emb (r1_Wh1.idx (ix3 (0 : Fin 1) y k)))
    = V c main_v23 (ix3 (1 : Fin 3) (unitOf1 t y) k)
  refine congrArg (V c main_v23) (funext fun a => Fin.ext ?_)
  match a with
  | ⟨0, _⟩ => show win1_3.index t (0 : Fin 3) * 3 + 1 * (1 + 1 * 0) = 1; omega
  | ⟨1, _⟩ => show win1_3.index t (1 : Fin 3) * 256 + 1 * (0 + 1 * y.val) = t.val * 256 + y.val; omega
  | ⟨2, _⟩ => show win1_3.index t (2 : Fin 3) * 2048 + 1 * (0 + 1 * k.val) = k.val; omega

theorem rdBi1_1 (c : Dev nD) (t : Fin cfg1.N) (y : Fin 256) :
    View.ld (iblk1 V c 4 t) r1_B1 (ix2 (0 : Fin 1) y) = V c main_v24 (ix2 (1 : Fin 3) (unitOf1 t y)) := by
  obtain ⟨-, -, -, -, -, -, -, -, -, -, e40, e41, -, -, -, -, -, -⟩ := idx_facts1 t
  show V c main_v24 (((cfg1.win 4).blk t).view.emb (r1_B1.idx (ix2 (0 : Fin 1) y)))
    = V c main_v24 (ix2 (1 : Fin 3) (unitOf1 t y))
  refine congrArg (V c main_v24) (funext fun a => Fin.ext ?_)
  match a with
  | ⟨0, _⟩ => show win1_4.index t (0 : Fin 2) * 3 + 1 * (1 + 1 * 0) = 1; omega
  | ⟨1, _⟩ => show win1_4.index t (1 : Fin 2) * 256 + 1 * (0 + 1 * y.val) = t.val * 256 + y.val; omega

theorem rdBh1_1 (c : Dev nD) (t : Fin cfg1.N) (y : Fin 256) :
    View.ld (iblk1 V c 5 t) r1_B1 (ix2 (0 : Fin 1) y) = V c main_v25 (ix2 (1 : Fin 3) (unitOf1 t y)) := by
  obtain ⟨-, -, -, -, -, -, -, -, -, -, -, -, e50, e51, -, -, -, -⟩ := idx_facts1 t
  show V c main_v25 (((cfg1.win 5).blk t).view.emb (r1_B1.idx (ix2 (0 : Fin 1) y)))
    = V c main_v25 (ix2 (1 : Fin 3) (unitOf1 t y))
  refine congrArg (V c main_v25) (funext fun a => Fin.ext ?_)
  match a with
  | ⟨0, _⟩ => show win1_5.index t (0 : Fin 2) * 3 + 1 * (1 + 1 * 0) = 1; omega
  | ⟨1, _⟩ => show win1_5.index t (1 : Fin 2) * 256 + 1 * (0 + 1 * y.val) = t.val * 256 + y.val; omega

/-- Gate 1 from the layer's input, as the block computes it, is the gate of the region's arrays at this unit. -/
theorem inGate1_1 (c : Dev nD) (t : Fin cfg1.N) (y : Fin 256) :
    lin2048 (View.ld (iblk1 V c 0 t) r1_X) (View.ld (iblk1 V c 2 t) r1_Wi1) (View.ld (iblk1 V c 4 t) r1_B1) y
      = gate2048 (V c main_v26) (V c main_v21) (V c main_v24) 1 (unitOf1 t y) :=
  congrArg₂ (· + ·) (Finset.sum_congr rfl fun k _ => congrArg₂ (· * ·) (rdX1 V c t k) (rdWi1_1 V c t y k))
    (rdBi1_1 V c t y)

/-- Gate 1 from the previous state. -/
theorem stGate1_1 (c : Dev nD) (t : Fin cfg1.N) (y : Fin 256) :
    lin2048 (View.ld (iblk1 V c 1 t) r1_H) (View.ld (iblk1 V c 3 t) r1_Wh1) (View.ld (iblk1 V c 5 t) r1_B1) y
      = gate2048 (V c main_v13) (V c main_v23) (V c main_v25) 1 (unitOf1 t y) :=
  congrArg₂ (· + ·) (Finset.sum_congr rfl fun k _ => congrArg₂ (· * ·) (rdH1 V c t k) (rdWh1_1 V c t y k))
    (rdBh1_1 V c t y)

theorem rdWi1_2 (c : Dev nD) (t : Fin cfg1.N) (y : Fin 256) (k : Fin 2048) :
    View.ld (iblk1 V c 2 t) r1_Wi2 (ix3 (0 : Fin 1) y k) = V c main_v21 (ix3 (2 : Fin 3) (unitOf1 t y) k) := by
  obtain ⟨-, -, -, -, e20, e21, e22, -, -, -, -, -, -, -, -, -, -, -⟩ := idx_facts1 t
  show V c main_v21 (((cfg1.win 2).blk t).view.emb (r1_Wi2.idx (ix3 (0 : Fin 1) y k)))
    = V c main_v21 (ix3 (2 : Fin 3) (unitOf1 t y) k)
  refine congrArg (V c main_v21) (funext fun a => Fin.ext ?_)
  match a with
  | ⟨0, _⟩ => show win1_2.index t (0 : Fin 3) * 3 + 1 * (2 + 1 * 0) = 2; omega
  | ⟨1, _⟩ => show win1_2.index t (1 : Fin 3) * 256 + 1 * (0 + 1 * y.val) = t.val * 256 + y.val; omega
  | ⟨2, _⟩ => show win1_2.index t (2 : Fin 3) * 2048 + 1 * (0 + 1 * k.val) = k.val; omega

theorem rdWh1_2 (c : Dev nD) (t : Fin cfg1.N) (y : Fin 256) (k : Fin 2048) :
    View.ld (iblk1 V c 3 t) r1_Wh2 (ix3 (0 : Fin 1) y k) = V c main_v23 (ix3 (2 : Fin 3) (unitOf1 t y) k) := by
  obtain ⟨-, -, -, -, -, -, -, e30, e31, e32, -, -, -, -, -, -, -, -⟩ := idx_facts1 t
  show V c main_v23 (((cfg1.win 3).blk t).view.emb (r1_Wh2.idx (ix3 (0 : Fin 1) y k)))
    = V c main_v23 (ix3 (2 : Fin 3) (unitOf1 t y) k)
  refine congrArg (V c main_v23) (funext fun a => Fin.ext ?_)
  match a with
  | ⟨0, _⟩ => show win1_3.index t (0 : Fin 3) * 3 + 1 * (2 + 1 * 0) = 2; omega
  | ⟨1, _⟩ => show win1_3.index t (1 : Fin 3) * 256 + 1 * (0 + 1 * y.val) = t.val * 256 + y.val; omega
  | ⟨2, _⟩ => show win1_3.index t (2 : Fin 3) * 2048 + 1 * (0 + 1 * k.val) = k.val; omega

theorem rdBi1_2 (c : Dev nD) (t : Fin cfg1.N) (y : Fin 256) :
    View.ld (iblk1 V c 4 t) r1_B2 (ix2 (0 : Fin 1) y) = V c main_v24 (ix2 (2 : Fin 3) (unitOf1 t y)) := by
  obtain ⟨-, -, -, -, -, -, -, -, -, -, e40, e41, -, -, -, -, -, -⟩ := idx_facts1 t
  show V c main_v24 (((cfg1.win 4).blk t).view.emb (r1_B2.idx (ix2 (0 : Fin 1) y)))
    = V c main_v24 (ix2 (2 : Fin 3) (unitOf1 t y))
  refine congrArg (V c main_v24) (funext fun a => Fin.ext ?_)
  match a with
  | ⟨0, _⟩ => show win1_4.index t (0 : Fin 2) * 3 + 1 * (2 + 1 * 0) = 2; omega
  | ⟨1, _⟩ => show win1_4.index t (1 : Fin 2) * 256 + 1 * (0 + 1 * y.val) = t.val * 256 + y.val; omega

theorem rdBh1_2 (c : Dev nD) (t : Fin cfg1.N) (y : Fin 256) :
    View.ld (iblk1 V c 5 t) r1_B2 (ix2 (0 : Fin 1) y) = V c main_v25 (ix2 (2 : Fin 3) (unitOf1 t y)) := by
  obtain ⟨-, -, -, -, -, -, -, -, -, -, -, -, e50, e51, -, -, -, -⟩ := idx_facts1 t
  show V c main_v25 (((cfg1.win 5).blk t).view.emb (r1_B2.idx (ix2 (0 : Fin 1) y)))
    = V c main_v25 (ix2 (2 : Fin 3) (unitOf1 t y))
  refine congrArg (V c main_v25) (funext fun a => Fin.ext ?_)
  match a with
  | ⟨0, _⟩ => show win1_5.index t (0 : Fin 2) * 3 + 1 * (2 + 1 * 0) = 2; omega
  | ⟨1, _⟩ => show win1_5.index t (1 : Fin 2) * 256 + 1 * (0 + 1 * y.val) = t.val * 256 + y.val; omega

/-- Gate 2 from the layer's input, as the block computes it, is the gate of the region's arrays at this unit. -/
theorem inGate1_2 (c : Dev nD) (t : Fin cfg1.N) (y : Fin 256) :
    lin2048 (View.ld (iblk1 V c 0 t) r1_X) (View.ld (iblk1 V c 2 t) r1_Wi2) (View.ld (iblk1 V c 4 t) r1_B2) y
      = gate2048 (V c main_v26) (V c main_v21) (V c main_v24) 2 (unitOf1 t y) :=
  congrArg₂ (· + ·) (Finset.sum_congr rfl fun k _ => congrArg₂ (· * ·) (rdX1 V c t k) (rdWi1_2 V c t y k))
    (rdBi1_2 V c t y)

/-- Gate 2 from the previous state. -/
theorem stGate1_2 (c : Dev nD) (t : Fin cfg1.N) (y : Fin 256) :
    lin2048 (View.ld (iblk1 V c 1 t) r1_H) (View.ld (iblk1 V c 3 t) r1_Wh2) (View.ld (iblk1 V c 5 t) r1_B2) y
      = gate2048 (V c main_v13) (V c main_v23) (V c main_v25) 2 (unitOf1 t y) :=
  congrArg₂ (· + ·) (Finset.sum_congr rfl fun k _ => congrArg₂ (· * ·) (rdH1 V c t k) (rdWh1_2 V c t y k))
    (rdBh1_2 V c t y)

/-! ## What a grid point writes back, and the array after the region -/

/-- WHAT POINT `t` WRITES BACK is block `t` of the layer's new state over the region's arrays. -/
theorem flushed1_eq (c : Dev nD) (t : Fin cfg1.N) :
    (dat1 V c).flushed 6 t = ((cfg1.win 6).blk t).view.read (Elt Ideal)
      (layer1 (V c main_v26) (V c main_v13) (V c main_v21) (V c main_v23) (V c main_v24) (V c main_v25)) := by
  show (cfg1.win 6).cut (grid1.coords t) ((dat1 V c).after 6 t) = _
  rw [after1_6]
  unfold out1_6
  rw [View.canon_unit_zero hz2]
  funext j
  obtain ⟨-, -, -, -, -, -, -, -, -, -, -, -, -, -, e60, e61, -, -⟩ := idx_facts1 t
  have hj0 : (j 0).val = 0 := by
    have h := ((cfg1.win 6).xinj (grid1.coords t) j 0).isLt
    have h' : ((cfg1.win 6).xinj (grid1.coords t) j 0).val = (j 0).val := rfl
    have h1 : ((cfg1.win 6).xinj (grid1.coords t) j 0).val < 1 := h
    omega
  have hj1 : (j 1).val < 256 := ((cfg1.win 6).xinj (grid1.coords t) j 1).isLt
  have hx : (cfg1.win 6).xinj (grid1.coords t) j = ix2 (0 : Fin 1) (⟨(j 1).val, hj1⟩ : Fin 256) :=
    funext fun a => Fin.ext (by
      match a with
      | ⟨0, _⟩ => exact hj0
      | ⟨1, _⟩ => rfl)
  have hJ : ((cfg1.win 6).blk t).view.emb j = ix2 (0 : Fin 1) (unitOf1 t ⟨(j 1).val, hj1⟩) :=
    funext fun a => Fin.ext (by
      match a with
      | ⟨0, _⟩ => show win1_6.index t (0 : Fin 2) * 1 + 1 * (j 0).val = 0; omega
      | ⟨1, _⟩ => show win1_6.index t (1 : Fin 2) * 256 + 1 * (j 1).val = t.val * 256 + (j 1).val; omega)
  show k1_pay1 _ _ _ _ _ _ _ _ _ _ _ ((cfg1.win 6).xinj (grid1.coords t) j)
    = layer1 _ _ _ _ _ _ (((cfg1.win 6).blk t).view.emb j)
  rw [hx, hJ]
  refine (pay1_apply _ _ _ _ _ _ _ _ _ _ _ _ _ _ _ _).trans ?_
  exact cell_congr (inGate1_0 V c t _) (inGate1_1 V c t _) (inGate1_2 V c t _)
    (stGate1_0 V c t _) (stGate1_1 V c t _) (stGate1_2 V c t _) (rdHt1 V c t _)

/-- An index of the state row is in point `t`'s block iff its column is among the block's 256. -/
theorem mem_blk1 (t : Fin cfg1.N) (i : S1x2048.Idx) :
    i ∈ ((cfg1.win 6).blk t).view.set ↔ ∀ a : Fin 2, win1_6.index t a * S1x256.size a ≤ (i a).val
      ∧ (i a).val < win1_6.index t a * S1x256.size a + S1x256.size a := by
  show i ∈ ((View.whole main_v27).slice (win1_6.rect t)).set ↔ _
  rw [View.set_slice_whole, Rect.mem_set_unit]
  exact Iff.rfl

/-- Every column belongs to some point's block: the point `column / 256`. -/
theorem cover1 (i : S1x2048.Idx) :
    ∃ t : Fin cfg1.N, (cfg1.win 6).flush t = true ∧ i ∈ ((cfg1.win 6).blk t).view.set := by
  have hi0 : (i 0).val < 1 := (i 0).isLt
  have hi1 : (i 1).val < 2048 := (i 1).isLt
  let t : Fin cfg1.N := ⟨(i 1).val / 256, by rw [show cfg1.N = 8 from N_1]; omega⟩
  obtain ⟨-, -, -, -, -, -, -, -, -, -, -, -, -, -, e60, e61, -, -⟩ := idx_facts1 t
  have ht : t.val = (i 1).val / 256 := rfl
  refine ⟨t, flush1_6 t, ?_⟩
  rw [mem_blk1]
  intro a
  match a with
  | ⟨0, _⟩ => show win1_6.index t (0 : Fin 2) * 1 ≤ (i 0).val ∧ (i 0).val < win1_6.index t (0 : Fin 2) * 1 + 1; omega
  | ⟨1, _⟩ => show win1_6.index t (1 : Fin 2) * 256 ≤ (i 1).val ∧ (i 1).val < win1_6.index t (1 : Fin 2) * 256 + 256; omega

/-- THE ARRAY AFTER THE REGION: the layer's new state, a function of the arrays the region was entered with. -/
theorem final1 (c : Dev nD) :
    (dat1 V c).arrAt 6 cfg1.N
      = layer1 (V c main_v26) (V c main_v13) (V c main_v21) (V c main_v23) (V c main_v24) (V c main_v25) :=
  (dat1 V c).arrAt_eq_of_cover 6 _ (fun t _ => flushed1_eq V c t) (cover1)

end Cert.KVal

end
-- ==== Proof.KVal.Layers.lean ====
/-
  From the regions' own arrays to the specification. The regions see the weights gate-major, `[3, 2048, K]`, and the
  biases as `[3, 2048]`; the specification sees them as the arguments are, `[6144, K]` and `[6144]`, gate `g` of unit
  `j` at row `2048·g + j`. Given that each region array reads the corresponding argument entry, a region's layer is the
  specification's.
-/
import proofs.«140640_j85452669321958_2_alg».proof.Proof.KVal.Block1

noncomputable section

namespace Cert.KVal

open Idealize.ShloMosaic Idealize.ShloMosaic.ValueIdx Cert.KernelIdeal Cert.KernelIdeal.Gen

/-- The row of the packed `[6144, K]` matrix that holds gate `g` of hidden unit `j`. -/
def rowOf (g : Fin 3) (j : Fin 2048) : Fin 6144 := ⟨g.val * 2048 + j.val, by have := g.isLt; have := j.isLt; omega⟩

theorem rowOf_zero (j : Fin 2048) : rowOf 0 j = Cert.Spec.rowR j := Fin.ext (by show 0 * 2048 + j.val = j.val; omega)
theorem rowOf_one (j : Fin 2048) : rowOf 1 j = Cert.Spec.rowZ j := Fin.ext (by show 1 * 2048 + j.val = 2048 + j.val; omega)
theorem rowOf_two (j : Fin 2048) : rowOf 2 j = Cert.Spec.rowN j := Fin.ext (by show 2 * 2048 + j.val = 4096 + j.val; omega)

variable {xs5 : Fin 512 → EReal} {xs : Fin 2048 → EReal} {hs : Fin 2048 → EReal}
  {W5 : (⟨2, ![6144, 512]⟩ : Shape).Idx → EReal} {W : (⟨2, ![6144, 2048]⟩ : Shape).Idx → EReal}
  {WH : (⟨2, ![6144, 2048]⟩ : Shape).Idx → EReal} {B BH : (⟨1, ![6144]⟩ : Shape).Idx → EReal}

theorem gate512_spec {x : FVec Ideal S1x512 .f32} {w : FVec Ideal S3x2048x512 .bf16} {b : FVec Ideal S3x2048 .f32}
    (hx : ∀ k, x (ix2 (0 : Fin 1) k) = xs5 k) (hw : ∀ g j k, w (ix3 g j k) = W5 (ix2 (rowOf g j) k))
    (hb : ∀ g j, b (ix2 g j) = B (ix1 (rowOf g j))) (g : Fin 3) (j : Fin 2048) :
    gate512 x w b g j = Cert.Spec.aff512 xs5 W5 B (rowOf g j) :=
  congrArg₂ (· + ·) (Finset.sum_congr rfl fun k _ => congrArg₂ (· * ·) (hx k) (hw g j k)) (hb g j)

theorem gate2048_spec {x : FVec Ideal S1x2048 .f32} {w : FVec Ideal S3x2048x2048 .bf16} {b : FVec Ideal S3x2048 .f32}
    (hx : ∀ k, x (ix2 (0 : Fin 1) k) = xs k) (hw : ∀ g j k, w (ix3 g j k) = W (ix2 (rowOf g j) k))
    (hb : ∀ g j, b (ix2 g j) = B (ix1 (rowOf g j))) (g : Fin 3) (j : Fin 2048) :
    gate2048 x w b g j = Cert.Spec.aff2048 xs W B (rowOf g j) :=
  congrArg₂ (· + ·) (Finset.sum_congr rfl fun k _ => congrArg₂ (· * ·) (hx k) (hw g j k)) (hb g j)

/-- The first region's layer is the specification's first layer. -/
theorem layer0_spec {x : FVec Ideal S1x512 .f32} {h : FVec Ideal S1x2048 .f32} {wi : FVec Ideal S3x2048x512 .bf16}
    {wh : FVec Ideal S3x2048x2048 .bf16} {bi bh : FVec Ideal S3x2048 .f32}
    (hx : ∀ k, x (ix2 (0 : Fin 1) k) = xs5 k) (hh : ∀ j, h (ix2 (0 : Fin 1) j) = hs j)
    (hwi : ∀ g j k, wi (ix3 g j k) = W5 (ix2 (rowOf g j) k)) (hwh : ∀ g j k, wh (ix3 g j k) = WH (ix2 (rowOf g j) k))
    (hbi : ∀ g j, bi (ix2 g j) = B (ix1 (rowOf g j))) (hbh : ∀ g j, bh (ix2 g j) = BH (ix1 (rowOf g j))) :
    layer0 x h wi wh bi bh = Cert.Spec.asRow (Cert.Spec.gru512 xs5 hs W5 WH B BH) := by
  have unit_spec : ∀ j : Fin 2048, unit0 x h wi wh bi bh j = Cert.Spec.gru512 xs5 hs W5 WH B BH j := by
    intro j
    unfold unit0 Cert.Spec.gru512
    rw [← rowOf_zero, ← rowOf_one, ← rowOf_two]
    exact cell_congr (gate512_spec hx hwi hbi 0 j) (gate512_spec hx hwi hbi 1 j) (gate512_spec hx hwi hbi 2 j)
      (gate2048_spec hh hwh hbh 0 j) (gate2048_spec hh hwh hbh 1 j) (gate2048_spec hh hwh hbh 2 j) (hh j)
  exact funext fun i => unit_spec (i 1)

/-- The second region's layer is the specification's second layer. -/
theorem layer1_spec {x : FVec Ideal S1x2048 .f32} {h : FVec Ideal S1x2048 .f32} {wi : FVec Ideal S3x2048x2048 .bf16}
    {wh : FVec Ideal S3x2048x2048 .bf16} {bi bh : FVec Ideal S3x2048 .f32}
    (hx : ∀ k, x (ix2 (0 : Fin 1) k) = xs k) (hh : ∀ j, h (ix2 (0 : Fin 1) j) = hs j)
    (hwi : ∀ g j k, wi (ix3 g j k) = W (ix2 (rowOf g j) k)) (hwh : ∀ g j k, wh (ix3 g j k) = WH (ix2 (rowOf g j) k))
    (hbi : ∀ g j, bi (ix2 g j) = B (ix1 (rowOf g j))) (hbh : ∀ g j, bh (ix2 g j) = BH (ix1 (rowOf g j))) :
    layer1 x h wi wh bi bh = Cert.Spec.asRow (Cert.Spec.gru2048 xs hs W WH B BH) := by
  have unit_spec : ∀ j : Fin 2048, unit1 x h wi wh bi bh j = Cert.Spec.gru2048 xs hs W WH B BH j := by
    intro j
    unfold unit1 Cert.Spec.gru2048
    rw [← rowOf_zero, ← rowOf_one, ← rowOf_two]
    exact cell_congr (gate2048_spec hx hwi hbi 0 j) (gate2048_spec hx hwi hbi 1 j) (gate2048_spec hx hwi hbi 2 j)
      (gate2048_spec hh hwh hbh 0 j) (gate2048_spec hh hwh hbh 1 j) (gate2048_spec hh hwh hbh 2 j) (hh j)
  exact funext fun i => unit_spec (i 1)

end Cert.KVal

end
-- ==== Proof.KVal.Run.lean ====
/-
  The kernel program's run, read: every execution ends with the class probabilities and the stacked states of the
  specification at the launch contents of the thirteen arguments, the arguments unchanged. The first region's output
  array is the first layer's new state; the second region reads it as its input row and leaves the second layer's; the
  host operations after the regions are the shared head, softmax and stacking.
-/
import proofs.«140640_j85452669321958_2_alg».proof.Proof.KIdeal.Fold
import proofs.«140640_j85452669321958_2_alg».proof.Proof.KIdeal.FoldIn
import proofs.«140640_j85452669321958_2_alg».proof.Proof.KVal.Layers
import proofs.«140640_j85452669321958_2_alg».proof.Proof.Tail

noncomputable section

namespace Cert.KVal

open Idealize.ShloMosaic Idealize.ShloMosaic.ValueIdx Idealize.ShloMosaic.TcCoe Idealize.SL.Sem
open Cert.KernelIdeal Cert.KernelIdeal.Gen Cert.KernelIdeal.Hand

variable (m : (ℓ : Loc nD τ sig) → Buf (Elt Ideal) ℓ) (ρ : Dev nD → PrngReg)

/-- The thirteen argument arrays at launch, on core `c`. -/
def args (c : Dev nD) : Cert.Spec.Args :=
  ⟨m ((c : Thread nD τ).loc main_arg0),
   m ((c : Thread nD τ).loc main_arg1),
   m ((c : Thread nD τ).loc main_arg2),
   m ((c : Thread nD τ).loc main_arg3),
   m ((c : Thread nD τ).loc main_arg4),
   m ((c : Thread nD τ).loc main_arg5),
   m ((c : Thread nD τ).loc main_arg6),
   m ((c : Thread nD τ).loc main_arg7),
   m ((c : Thread nD τ).loc main_arg8),
   m ((c : Thread nD τ).loc main_arg9),
   m ((c : Thread nD τ).loc main_arg10),
   m ((c : Thread nD τ).loc main_arg11),
   m ((c : Thread nD τ).loc main_arg12)⟩

/-- After the first region its output array holds the first layer's new state. -/
theorem state0 (c : Dev nD) : W3 m ρ c (Proc.devRef .tc main_v26) = Cert.Spec.asRow (Cert.Spec.h0 (args m c)) :=
  (W3_v26 m ρ c).trans ((final0 (V1 m ρ) c).trans
    (layer0_spec (V1_v9_apply m ρ c) (V1_v11_apply m ρ c) (V1_v15_apply m ρ c) (V1_v17_apply m ρ c)
      (V1_v18_apply m ρ c) (V1_v19_apply m ρ c)))

/-- The second region's input row is that state. -/
theorem input1 (c : Dev nD) (k : Fin 2048) : V2 m ρ c main_v26 (ix2 (0 : Fin 1) k) = Cert.Spec.h0 (args m c) k := by
  rw [V2_v26, ← W3_v26, state0]
  rfl

/-- After the second region its output array holds the second layer's new state. -/
theorem state1 (c : Dev nD) : W3 m ρ c (Proc.devRef .tc main_v27) = Cert.Spec.asRow (Cert.Spec.h1 (args m c)) :=
  (W3_v27 m ρ c).trans ((final1 (V2 m ρ) c).trans
    (layer1_spec (input1 m ρ c)
      (fun j => (congrFun (V2_v13 m ρ c) _).trans (V1_v13_apply m ρ c j))
      (fun g j k => (congrFun (V2_v21 m ρ c) _).trans (V1_v21_apply m ρ c g j k))
      (fun g j k => (congrFun (V2_v23 m ρ c) _).trans (V1_v23_apply m ρ c g j k))
      (fun g j => (congrFun (V2_v24 m ρ c) _).trans (V1_v24_apply m ρ c g j))
      (fun g j => (congrFun (V2_v25 m ρ c) _).trans (V1_v25_apply m ρ c g j))))

/-- The first result buffer at the end. -/
theorem probs_eq (c : Dev nD) : W4 m ρ c (Proc.devRef .tc main_v42) = Cert.Tail.probs (args m c) := by
  rw [W4_probs, state1, W3_arg11, W3_arg12]
  rfl

/-- The second result buffer at the end. -/
theorem states_eq (c : Dev nD) : W4 m ρ c (Proc.devRef .tc main_v45) = Cert.Tail.states (args m c) := by
  rw [W4_states, state0, state1]
  rfl

/-- THE KERNEL PROGRAM'S RUN: both results at the specification's values, the arguments unchanged. -/
theorem run : θ_run defs (onTc (τ := τ) (main (F := Ideal))) ⟨m, fun _ => 0, ρ⟩ (fun r => ∀ c : Dev nD,
      r.2.mem ((c.tc : Thread nD τ).loc main_v42) = Cert.Tail.probs (args m c)
      ∧ r.2.mem ((c.tc : Thread nD τ).loc main_v45) = Cert.Tail.states (args m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_v42 (by decide))).trans (probs_eq m ρ c),
     (h c _ (mem_uc main_v45 (by decide))).trans (states_eq m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c),
     (h c _ (mem_uc main_arg10 (by decide))).trans (W4_main_arg10 m ρ c),
     (h c _ (mem_uc main_arg11 (by decide))).trans (W4_main_arg11 m ρ c),
     (h c _ (mem_uc main_arg12 (by decide))).trans (W4_main_arg12 m ρ c)⟩)
    (run_bufs m ρ)

end Cert.KVal

end
-- ==== Proof.Ref.Aff.lean ====
/-
  The affine part of a recurrent layer as the reference program computes it: a one-row array times the transposed
  packed weights, plus the bias laid along the row. Read at column `q` of the row this is row `q` of `W x + b`,
  the specification's `aff2048` / `aff512`.
-/
import proofs.«140640_j85452669321958_2_alg».proof.Proof.Gen.ReferenceIdeal
import proofs.«140640_j85452669321958_2_alg».proof.Proof.Spec
import Idealize.ShloMosaic.Lib.ValueLayout
import Idealize.ShloMosaic.Lib.IdealHost
import Idealize.ShloMosaic.PureOps.Ideal.Laws

noncomputable section

namespace Cert.RefValue

open Idealize.ShloMosaic Idealize.ShloMosaic.ValueIdx Cert.ReferenceIdeal Cert.ReferenceIdeal.Gen
open scoped BigOperators

/-- The product of a one-row array of 2048 entries with the transposed weights, read at column `q`: the sum over the
    contraction coordinate of the row's entries times row `q` of the weights. -/
theorem dot2048_apply (x : FVec Ideal S1x2048 .f32) (w : FVec Ideal S6144x2048 .f32) (q : Fin 6144) :
    Host.dotGeneral (F := Ideal) dot_S1x2048_S2048x6144_S1x6144_1_0_0_1_n_n none x
        (transpose S2048x6144 [1, 0] w transposes_S6144x2048_S2048x6144_1_0) (ix2 (0 : Fin 1) q)
      = ∑ k : Fin 2048, x (ix2 (0 : Fin 1) k) * w (ix2 q k) := by
  show FloatOps.dotGeneral dot_S1x2048_S2048x6144_S1x6144_1_0_0_1_n_n none .single x _ (ix2 (0 : Fin 1) q) = _
  rw [Ideal.dotGeneral_apply]
  rw [← Equiv.sum_comp (contrEquiv1 dot_S1x2048_S2048x6144_S1x6144_1_0_0_1_n_n 2048 rfl rfl).symm]
  refine Finset.sum_congr rfl fun k _ => ?_
  have hl : (dot_S1x2048_S2048x6144_S1x6144_1_0_0_1_n_n).lhsIdx (ix2 (0 : Fin 1) q)
      ((contrEquiv1 dot_S1x2048_S2048x6144_S1x6144_1_0_0_1_n_n 2048 rfl rfl).symm k) = ix2 (0 : Fin 1) k := by
    funext a
    match a with
    | ⟨0, _⟩ => exact (Subsingleton.elim (α := Fin 1) _ _)
    | ⟨1, _⟩ => exact Fin.ext ((DotDims.lhsIdx_val_of_single _ rfl _ _).trans (contrEquiv1_symm_val _ _ _ _ k))
  have hr : (dot_S1x2048_S2048x6144_S1x6144_1_0_0_1_n_n).rhsIdx (ix2 (0 : Fin 1) q)
      ((contrEquiv1 dot_S1x2048_S2048x6144_S1x6144_1_0_0_1_n_n 2048 rfl rfl).symm k) = ix2 k q := by
    funext a
    match a with
    | ⟨0, _⟩ => exact Fin.ext ((DotDims.rhsIdx_val_of_single _ rfl _ _).trans (contrEquiv1_symm_val _ _ _ _ k))
    | ⟨1, _⟩ => rfl
  rw [hl, hr, transpose_ix2_apply]

/-- The product of a one-row array of 512 entries with the transposed weights, read at column `q`: the sum over the
    contraction coordinate of the row's entries times row `q` of the weights. -/
theorem dot512_apply (x : FVec Ideal S1x512 .f32) (w : FVec Ideal S6144x512 .f32) (q : Fin 6144) :
    Host.dotGeneral (F := Ideal) dot_S1x512_S512x6144_S1x6144_1_0_0_1_n_n none x
        (transpose S512x6144 [1, 0] w transposes_S6144x512_S512x6144_1_0) (ix2 (0 : Fin 1) q)
      = ∑ k : Fin 512, x (ix2 (0 : Fin 1) k) * w (ix2 q k) := by
  show FloatOps.dotGeneral dot_S1x512_S512x6144_S1x6144_1_0_0_1_n_n none .single x _ (ix2 (0 : Fin 1) q) = _
  rw [Ideal.dotGeneral_apply]
  rw [← Equiv.sum_comp (contrEquiv1 dot_S1x512_S512x6144_S1x6144_1_0_0_1_n_n 512 rfl rfl).symm]
  refine Finset.sum_congr rfl fun k _ => ?_
  have hl : (dot_S1x512_S512x6144_S1x6144_1_0_0_1_n_n).lhsIdx (ix2 (0 : Fin 1) q)
      ((contrEquiv1 dot_S1x512_S512x6144_S1x6144_1_0_0_1_n_n 512 rfl rfl).symm k) = ix2 (0 : Fin 1) k := by
    funext a
    match a with
    | ⟨0, _⟩ => exact (Subsingleton.elim (α := Fin 1) _ _)
    | ⟨1, _⟩ => exact Fin.ext ((DotDims.lhsIdx_val_of_single _ rfl _ _).trans (contrEquiv1_symm_val _ _ _ _ k))
  have hr : (dot_S1x512_S512x6144_S1x6144_1_0_0_1_n_n).rhsIdx (ix2 (0 : Fin 1) q)
      ((contrEquiv1 dot_S1x512_S512x6144_S1x6144_1_0_0_1_n_n 512 rfl rfl).symm k) = ix2 k q := by
    funext a
    match a with
    | ⟨0, _⟩ => exact Fin.ext ((DotDims.rhsIdx_val_of_single _ rfl _ _).trans (contrEquiv1_symm_val _ _ _ _ k))
    | ⟨1, _⟩ => rfl
  rw [hl, hr, transpose_ix2_apply]

/-- The bias laid along the one row reads, at column `q`, its entry `q`. -/
theorem bias_apply (b : FVec Ideal S6144 .f32) (q : Fin 6144) :
    broadcastInDim S1x6144 ![1] bcast_S6144_S1x6144_1 b (ix2 (0 : Fin 1) q) = b (ix1 q) :=
  broadcastInDim_apply _ _ b _ (ix1 q) fun a => by
    match a with
    | ⟨0, _⟩ => rfl

/-- Column `q` of `x · Wᵀ + b` for an input row of 2048 entries is row `q` of `W x + b`. -/
theorem aff2048_row (x : FVec Ideal S1x2048 .f32) (w : FVec Ideal S6144x2048 .f32) (b : FVec Ideal S6144 .f32) (q : Fin 6144) :
    addf (Host.dotGeneral (F := Ideal) dot_S1x2048_S2048x6144_S1x6144_1_0_0_1_n_n none x
        (transpose S2048x6144 [1, 0] w transposes_S6144x2048_S2048x6144_1_0))
      (broadcastInDim S1x6144 ![1] bcast_S6144_S1x6144_1 b) (ix2 (0 : Fin 1) q)
      = Cert.Spec.aff2048 (fun k => x (ix2 (0 : Fin 1) k)) w b q := by
  rw [addf_apply, dot2048_apply, bias_apply]
  rfl

/-- Column `q` of `x · Wᵀ + b` for an input row of 512 entries is row `q` of `W x + b`. -/
theorem aff512_row (x : FVec Ideal S1x512 .f32) (w : FVec Ideal S6144x512 .f32) (b : FVec Ideal S6144 .f32) (q : Fin 6144) :
    addf (Host.dotGeneral (F := Ideal) dot_S1x512_S512x6144_S1x6144_1_0_0_1_n_n none x
        (transpose S512x6144 [1, 0] w transposes_S6144x512_S512x6144_1_0))
      (broadcastInDim S1x6144 ![1] bcast_S6144_S1x6144_1 b) (ix2 (0 : Fin 1) q)
      = Cert.Spec.aff512 (fun k => x (ix2 (0 : Fin 1) k)) w b q := by
  rw [addf_apply, dot512_apply, bias_apply]
  rfl

end Cert.RefValue

end
-- ==== Proof.Ref.Cell.lean ====
/-
  The gate arithmetic of a recurrent layer as the reference program prints it, as ONE function of the two rows of
  pre-activations (`x · W_iᵀ + b_i` and `h · W_hᵀ + b_h`, 6144 entries each: reset, update, candidate) and of the
  previous state. Read at hidden unit `j` it is the specification's `cell` of the six pre-activations of that unit.
  The reference writes the logistic function out as `1 / (1 + exp (−x))`, which is what the logistic function of the
  extended reals is by definition once its float word for one is read as the number one.
-/
import proofs.«140640_j85452669321958_2_alg».proof.Proof.Gen.ReferenceIdeal
import proofs.«140640_j85452669321958_2_alg».proof.Proof.Spec
import Idealize.ShloMosaic.Lib.ValueLayout
import Idealize.ShloMosaic.Lib.IdealHost

noncomputable section

namespace Cert.RefValue

open Idealize.ShloMosaic Idealize.ShloMosaic.ValueIdx Cert.ReferenceIdeal Cert.ReferenceIdeal.Gen

/-- The one-row array filled with the float word for one. -/
def ones : FVec Ideal S1x2048 .f32 :=
  broadcastInDim S1x2048 ![] bcast_S_S1x2048 (constant (F := Ideal) S_ .f32 0x3F800000#32)

/-- The update gate: the logistic function, written out, of the middle thirds of the two rows added. -/
def updateGate (gi gh : FVec Ideal S1x6144 .f32) : FVec Ideal S1x2048 .f32 :=
  Host.divf ones (addf ones (Host.exp (Host.negf (addf
    (extractStridedSlice S1x2048 ![0, 2048] gi slices_S1x6144_S1x2048_0_2048)
    (extractStridedSlice S1x2048 ![0, 2048] gh slices_S1x6144_S1x2048_0_2048)))))

/-- The new state from the two rows of pre-activations and the previous state. -/
def newState (gi gh : FVec Ideal S1x6144 .f32) (h : FVec Ideal S1x2048 .f32) : FVec Ideal S1x2048 .f32 :=
  addf (mulf (subf ones (updateGate gi gh)) (Host.tanh (addf
      (extractStridedSlice S1x2048 ![0, 4096] gi slices_S1x6144_S1x2048_0_4096)
      (mulf (Host.divf ones (addf ones (Host.exp (Host.negf (addf
          (extractStridedSlice S1x2048 ![0, 0] gi slices_S1x6144_S1x2048_0_0)
          (extractStridedSlice S1x2048 ![0, 0] gh slices_S1x6144_S1x2048_0_0))))))
        (extractStridedSlice S1x2048 ![0, 4096] gh slices_S1x6144_S1x2048_0_4096)))))
    (mulf (updateGate gi gh) h)

/-- The host's exponential, negation and hyperbolic tangent at an index are the extended reals' of the element. -/
theorem hostExp_apply {s : Shape} {φ : FTy} (a : FVec Ideal s φ) (i : s.Idx) : Host.exp a i = Ideal.exp (a i) := rfl
theorem hostNegf_apply {s : Shape} {φ : FTy} (a : FVec Ideal s φ) (i : s.Idx) : Host.negf a i = -(a i) := rfl
theorem hostTanh_apply {s : Shape} {φ : FTy} (a : FVec Ideal s φ) (i : s.Idx) : Host.tanh a i = Ideal.tanh (a i) := rfl

/-- The filled row reads the float word for one everywhere. -/
theorem ones_apply (i : S1x2048.Idx) : ones i = Ideal.ofBits .f32 0x3F800000#32 := by
  unfold ones
  rw [broadcastInDim_scalar_apply, constant_apply]

/-- The three thirds of a row of 6144 entries, read at hidden unit `j`. -/
theorem sliceR_apply (g : FVec Ideal S1x6144 .f32) (j : Fin 2048) :
    extractStridedSlice S1x2048 ![0, 0] g slices_S1x6144_S1x2048_0_0 (ix2 (0 : Fin 1) j)
      = g (ix2 (0 : Fin 1) (Cert.Spec.rowR j)) :=
  slice2_axis1_apply 0 g _ 0 j _ (by show j.val = 0 + j.val; omega)
theorem sliceZ_apply (g : FVec Ideal S1x6144 .f32) (j : Fin 2048) :
    extractStridedSlice S1x2048 ![0, 2048] g slices_S1x6144_S1x2048_0_2048 (ix2 (0 : Fin 1) j)
      = g (ix2 (0 : Fin 1) (Cert.Spec.rowZ j)) :=
  slice2_axis1_apply 2048 g _ 0 j _ rfl
theorem sliceN_apply (g : FVec Ideal S1x6144 .f32) (j : Fin 2048) :
    extractStridedSlice S1x2048 ![0, 4096] g slices_S1x6144_S1x2048_0_4096 (ix2 (0 : Fin 1) j)
      = g (ix2 (0 : Fin 1) (Cert.Spec.rowN j)) :=
  slice2_axis1_apply 4096 g _ 0 j _ rfl

/-- The update gate at hidden unit `j`. -/
theorem updateGate_apply (gi gh : FVec Ideal S1x6144 .f32) (j : Fin 2048) :
    updateGate gi gh (ix2 (0 : Fin 1) j)
      = Ideal.logistic (gi (ix2 (0 : Fin 1) (Cert.Spec.rowZ j)) + gh (ix2 (0 : Fin 1) (Cert.Spec.rowZ j))) := by
  simp only [updateGate, hostDivf_apply, addf_apply, hostExp_apply, hostNegf_apply, ones_apply, sliceZ_apply,
    Ideal.ofBits_one_f32]
  rfl

/-- THE NEW STATE AT HIDDEN UNIT `j`: the specification's gate arithmetic of that unit's six pre-activations. -/
theorem newState_apply (gi gh : FVec Ideal S1x6144 .f32) (h : FVec Ideal S1x2048 .f32) (j : Fin 2048) :
    newState gi gh h (ix2 (0 : Fin 1) j)
      = Cert.Spec.cell (gi (ix2 (0 : Fin 1) (Cert.Spec.rowR j))) (gi (ix2 (0 : Fin 1) (Cert.Spec.rowZ j)))
          (gi (ix2 (0 : Fin 1) (Cert.Spec.rowN j))) (gh (ix2 (0 : Fin 1) (Cert.Spec.rowR j)))
          (gh (ix2 (0 : Fin 1) (Cert.Spec.rowZ j))) (gh (ix2 (0 : Fin 1) (Cert.Spec.rowN j))) (h (ix2 (0 : Fin 1) j)) := by
  simp only [newState, updateGate_apply, hostDivf_apply, addf_apply, mulf_apply, subf_apply, hostExp_apply, hostNegf_apply,
    hostTanh_apply, ones_apply, sliceR_apply, sliceN_apply, Cert.Spec.cell, Cert.Spec.one, Ideal.ofBits_one_f32]
  rfl

end Cert.RefValue

end
-- ==== Proof.Ref.Layer.lean ====
/-
  One recurrent layer as the reference program computes it, over variables: the gate arithmetic applied to the two
  affine rows of the input and of the previous state is the specification's layer of the input's and the state's entries.
-/
import proofs.«140640_j85452669321958_2_alg».proof.Proof.Ref.Aff
import proofs.«140640_j85452669321958_2_alg».proof.Proof.Ref.Cell

noncomputable section

namespace Cert.RefValue

open Idealize.ShloMosaic Idealize.ShloMosaic.ValueIdx Cert.ReferenceIdeal Cert.ReferenceIdeal.Gen

/-- A layer whose input is a row of 2048 entries: the printed gate arithmetic of the two printed affine rows is the
    specification's layer, as a one-row array. -/
theorem layer2048 (x : FVec Ideal S1x2048 .f32) (h : FVec Ideal S1x2048 .f32) (wi : FVec Ideal S6144x2048 .f32)
    (wh : FVec Ideal S6144x2048 .f32) (bi bh : FVec Ideal S6144 .f32) :
    newState
        (addf (Host.dotGeneral (F := Ideal) dot_S1x2048_S2048x6144_S1x6144_1_0_0_1_n_n none x
            (transpose S2048x6144 [1, 0] wi transposes_S6144x2048_S2048x6144_1_0))
          (broadcastInDim S1x6144 ![1] bcast_S6144_S1x6144_1 bi))
        (addf (Host.dotGeneral (F := Ideal) dot_S1x2048_S2048x6144_S1x6144_1_0_0_1_n_n none h
            (transpose S2048x6144 [1, 0] wh transposes_S6144x2048_S2048x6144_1_0))
          (broadcastInDim S1x6144 ![1] bcast_S6144_S1x6144_1 bh))
        h
      = Cert.Spec.asRow (Cert.Spec.gru2048 (fun k => x (ix2 (0 : Fin 1) k)) (fun j => h (ix2 (0 : Fin 1) j)) wi wh bi bh) := by
  funext i
  obtain ⟨a, j, rfl⟩ : ∃ (a : Fin 1) (j : Fin 2048), i = ix2 a j := ⟨i 0, i 1, eq_ix2 i⟩
  obtain rfl : a = 0 := Subsingleton.elim _ _
  rw [newState_apply, aff2048_row, aff2048_row, aff2048_row, aff2048_row, aff2048_row, aff2048_row]
  rfl

/-- A layer whose input is a row of 512 entries: the printed gate arithmetic of the two printed affine rows is the
    specification's layer, as a one-row array. -/
theorem layer512 (x : FVec Ideal S1x512 .f32) (h : FVec Ideal S1x2048 .f32) (wi : FVec Ideal S6144x512 .f32)
    (wh : FVec Ideal S6144x2048 .f32) (bi bh : FVec Ideal S6144 .f32) :
    newState
        (addf (Host.dotGeneral (F := Ideal) dot_S1x512_S512x6144_S1x6144_1_0_0_1_n_n none x
            (transpose S512x6144 [1, 0] wi transposes_S6144x512_S512x6144_1_0))
          (broadcastInDim S1x6144 ![1] bcast_S6144_S1x6144_1 bi))
        (addf (Host.dotGeneral (F := Ideal) dot_S1x2048_S2048x6144_S1x6144_1_0_0_1_n_n none h
            (transpose S2048x6144 [1, 0] wh transposes_S6144x2048_S2048x6144_1_0))
          (broadcastInDim S1x6144 ![1] bcast_S6144_S1x6144_1 bh))
        h
      = Cert.Spec.asRow (Cert.Spec.gru512 (fun k => x (ix2 (0 : Fin 1) k)) (fun j => h (ix2 (0 : Fin 1) j)) wi wh bi bh) := by
  funext i
  obtain ⟨a, j, rfl⟩ : ∃ (a : Fin 1) (j : Fin 2048), i = ix2 a j := ⟨i 0, i 1, eq_ix2 i⟩
  obtain rfl : a = 0 := Subsingleton.elim _ _
  rw [newState_apply, aff512_row, aff512_row, aff512_row, aff2048_row, aff2048_row, aff2048_row]
  rfl

end Cert.RefValue

end
-- ==== Proof.Ref.Input.lean ====
/-
  The reference program's reads of its inputs: the previous state of a layer as a one-row array (a slice of the stacked
  states along the leading axis, its unit axis dropped), and the embedded token (the table row gathered at the token's
  index, a negative index first counted from the end; the gather clamps the row into the table).
-/
import proofs.«140640_j85452669321958_2_alg».proof.Proof.Gen.ReferenceIdeal
import proofs.«140640_j85452669321958_2_alg».proof.Proof.Spec
import Idealize.ShloMosaic.Lib.ValueLayout
import Idealize.ShloMosaic.Lib.IdealHost

noncomputable section

namespace Cert.RefValue

open Idealize.ShloMosaic Idealize.ShloMosaic.ValueIdx Cert.ReferenceIdeal Cert.ReferenceIdeal.Gen

/-- The first layer's previous state, read at hidden unit `j`. -/
theorem prev0_apply (hin : FVec Ideal S2x1x2048 .f32) (j : Fin 2048) :
    shapeCast S1x2048 (extractStridedSlice S1x1x2048 ![0, 0, 0] hin slices_S2x1x2048_S1x1x2048_0_0_0)
        shapeCasts_S1x1x2048_S1x2048 (ix2 (0 : Fin 1) j)
      = hin (ix3 (0 : Fin 2) (0 : Fin 1) j) := by
  rw [shapeCast_1ab_ab_apply]
  exact extractStridedSlice_apply _ hin _ _ (ix3 (0 : Fin 2) (0 : Fin 1) j) fun a => by
    match a with
    | ⟨0, _⟩ => rfl
    | ⟨1, _⟩ => rfl
    | ⟨2, _⟩ => exact (Nat.zero_add _).symm

/-- The second layer's previous state, read at hidden unit `j`. -/
theorem prev1_apply (hin : FVec Ideal S2x1x2048 .f32) (j : Fin 2048) :
    shapeCast S1x2048 (extractStridedSlice S1x1x2048 ![1, 0, 0] hin slices_S2x1x2048_S1x1x2048_1_0_0)
        shapeCasts_S1x1x2048_S1x2048 (ix2 (0 : Fin 1) j)
      = hin (ix3 (1 : Fin 2) (0 : Fin 1) j) := by
  rw [shapeCast_1ab_ab_apply]
  exact extractStridedSlice_apply _ hin _ _ (ix3 (1 : Fin 2) (0 : Fin 1) j) fun a => by
    match a with
    | ⟨0, _⟩ => rfl
    | ⟨1, _⟩ => rfl
    | ⟨2, _⟩ => exact (Nat.zero_add _).symm

/-- The array of start indices the gather reads: the token's index, a negative one counted from the end of the table. -/
def startIndices (tok : IVec S1 32) : IVec S1x1 32 :=
  broadcastInDim S1x1 ![0] bcast_S1_S1x1_0
    (select (cmpi .slt tok (broadcastInDim S1 ![] bcast_S_S1 (constantI S_ 32 0#32)))
      (addi tok (broadcastInDim S1 ![] bcast_S_S1 (constantI S_ 32 64#32))) tok)

/-- Its one entry is the specification's wrapped index. -/
theorem startIndices_apply (tok : IVec S1 32) (i : S1x1.Idx) :
    startIndices tok i = Cert.Spec.wrapped (tok (ix1 (0 : Fin 1))) := by
  unfold startIndices
  rw [broadcastInDim_apply _ _ _ i (ix1 (0 : Fin 1)) (fun a => by
    match a with
    | ⟨0, _⟩ => rfl)]
  rfl

/-- The gather of one table row at a one-entry array of start indices reads, at column `k`, the table at the row the
    start index names: read signed and clamped into the table (`r`, given by its value). -/
theorem gather_row_apply (emb : FVec Ideal S64x512 .f32) (idx : IVec S1x1 32) (k : Fin 512) (r : Fin 64)
    (hr : r.val = min (idx (ix2 (0 : Fin 1) (0 : Fin 1))).toInt.toNat 63) :
    Host.gather gather_S64x512_S1x1_S1x512_1_0_n_n_0_1_1512 emb idx (ix2 (0 : Fin 1) k) = emb (ix2 r k) := by
  unfold Host.gather
  refine congrArg emb ?_
  funext a
  match a with
  | ⟨0, _⟩ =>
    refine Fin.ext ?_
    show GatherDims.start gather_S64x512_S1x1_S1x512_1_0_n_n_0_1_1512 (ix2 (0 : Fin 1) k) idx 0
        + GatherDims.batchCoord gather_S64x512_S1x1_S1x512_1_0_n_n_0_1_1512 (ix2 (0 : Fin 1) k) 0
        + GatherDims.offCoord gather_S64x512_S1x1_S1x512_1_0_n_n_0_1_1512 (ix2 (0 : Fin 1) k) 0 = r.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gather_S64x512_S1x1_S1x512_1_0_n_n_0_1_1512).startIndexMap from List.mem_singleton.mpr rfl)]
    have hsi : (gather_S64x512_S1x1_S1x512_1_0_n_n_0_1_1512).siIdx (ix2 (0 : Fin 1) k)
        ⟨List.idxOf (0 : Fin 2) (gather_S64x512_S1x1_S1x512_1_0_n_n_0_1_1512).startIndexMap,
          List.idxOf_lt_length_iff.2 (List.mem_singleton.mpr rfl)⟩ = ix2 (0 : Fin 1) (0 : Fin 1) := by
      funext b
      match b with
      | ⟨0, _⟩ => exact Subsingleton.elim (α := Fin 1) _ _
      | ⟨1, _⟩ => exact Subsingleton.elim (α := Fin 1) _ _
    rw [hsi]
    exact hr.symm
  | ⟨1, _⟩ =>
    refine Fin.ext ?_
    show GatherDims.start gather_S64x512_S1x1_S1x512_1_0_n_n_0_1_1512 (ix2 (0 : Fin 1) k) idx 1
        + GatherDims.batchCoord gather_S64x512_S1x1_S1x512_1_0_n_n_0_1_1512 (ix2 (0 : Fin 1) k) 1
        + GatherDims.offCoord gather_S64x512_S1x1_S1x512_1_0_n_n_0_1_1512 (ix2 (0 : Fin 1) k) 1 = k.val
    rw [GatherDims.batchCoord_eq_zero _ _ _ List.not_mem_nil]
    have hst : GatherDims.start gather_S64x512_S1x1_S1x512_1_0_n_n_0_1_1512 (ix2 (0 : Fin 1) k) idx 1 = 0 := by
      unfold GatherDims.start
      rw [dif_neg (by decide)]
    have hoff : GatherDims.offCoord gather_S64x512_S1x1_S1x512_1_0_n_n_0_1_1512 (ix2 (0 : Fin 1) k) 1 = k.val := by
      unfold GatherDims.offCoord
      rw [dif_pos ((GatherDims.mem_sKept _ _).mpr ⟨by decide, List.not_mem_nil⟩)]
      rfl
    rw [hst, hoff]
    omega

/-- THE EMBEDDED TOKEN: the gathered row at column `k` is the table at the specification's row for the token. -/
theorem embedded_apply (emb : FVec Ideal S64x512 .f32) (tok : IVec S1 32) (k : Fin 512) :
    Host.gather gather_S64x512_S1x1_S1x512_1_0_n_n_0_1_1512 emb (startIndices tok) (ix2 (0 : Fin 1) k)
      = emb (ix2 (Cert.Spec.tokenRow (tok (ix1 (0 : Fin 1)))) k) :=
  gather_row_apply emb (startIndices tok) k _ (by
    rw [startIndices_apply]
    show (min (max (Cert.Spec.wrapped (tok (ix1 (0 : Fin 1)))).toInt 0) 63).toNat
      = min (Cert.Spec.wrapped (tok (ix1 (0 : Fin 1)))).toInt.toNat 63
    omega)

end Cert.RefValue

end
-- ==== Proof.Ref.States.lean ====
/-
  The reference program's two new states, over any contents `V` of its argument arrays: the first layer's state is the
  specification's first layer of the embedded token and the first previous state; the second layer's state is the
  specification's second layer of the first layer's new state and the second previous state.
-/
import proofs.«140640_j85452669321958_2_alg».proof.Proof.Gen.ReferenceIdeal.Run
import proofs.«140640_j85452669321958_2_alg».proof.Proof.Ref.Layer
import proofs.«140640_j85452669321958_2_alg».proof.Proof.Ref.Input

noncomputable section

namespace Cert.RefValue

open Idealize.ShloMosaic Idealize.ShloMosaic.ValueIdx Idealize.SL.Sem Idealize.ShloMosaic.StableHlo
open Cert.ReferenceIdeal Cert.ReferenceIdeal.Gen

/-- The first layer's new state as a function of the argument arrays' contents. -/
def first (V : Valuation τ sig (Elt Ideal)) : Fin 2048 → EReal :=
  Cert.Spec.gru512 (fun k => (V (Proc.devRef .tc main_arg2)) (ix2 (Cert.Spec.tokenRow ((V (Proc.devRef .tc main_arg0)) (ix1 (0 : Fin 1)))) k))
    (fun j => (V (Proc.devRef .tc main_arg1)) (ix3 (0 : Fin 2) (0 : Fin 1) j))
    (V (Proc.devRef .tc main_arg3)) (V (Proc.devRef .tc main_arg4)) (V (Proc.devRef .tc main_arg5)) (V (Proc.devRef .tc main_arg6))

/-- The second layer's new state as a function of the argument arrays' contents. -/
def second (V : Valuation τ sig (Elt Ideal)) : Fin 2048 → EReal :=
  Cert.Spec.gru2048 (first V) (fun j => (V (Proc.devRef .tc main_arg1)) (ix3 (1 : Fin 2) (0 : Fin 1) j))
    (V (Proc.devRef .tc main_arg7)) (V (Proc.devRef .tc main_arg8)) (V (Proc.devRef .tc main_arg9)) (V (Proc.devRef .tc main_arg10))

/-- THE FIRST LAYER'S NEW STATE. -/
theorem v44_eq (V : Valuation τ sig (Elt Ideal)) :
    Cert.ReferenceIdeal.Value.res_main_v44 (F := Ideal) V = Cert.Spec.asRow (first V) := by
  have e : Cert.ReferenceIdeal.Value.res_main_v44 (F := Ideal) V
      = newState
          (addf (Host.dotGeneral (F := Ideal) dot_S1x512_S512x6144_S1x6144_1_0_0_1_n_n none
              (Host.gather gather_S64x512_S1x1_S1x512_1_0_n_n_0_1_1512 (V (Proc.devRef .tc main_arg2)) (startIndices (V (Proc.devRef .tc main_arg0))))
              (transpose S512x6144 [1, 0] (V (Proc.devRef .tc main_arg3)) transposes_S6144x512_S512x6144_1_0))
            (broadcastInDim S1x6144 ![1] bcast_S6144_S1x6144_1 (V (Proc.devRef .tc main_arg5))))
          (addf (Host.dotGeneral (F := Ideal) dot_S1x2048_S2048x6144_S1x6144_1_0_0_1_n_n none
              (Cert.ReferenceIdeal.Value.res_main_v8 (F := Ideal) V)
              (transpose S2048x6144 [1, 0] (V (Proc.devRef .tc main_arg4)) transposes_S6144x2048_S2048x6144_1_0))
            (broadcastInDim S1x6144 ![1] bcast_S6144_S1x6144_1 (V (Proc.devRef .tc main_arg6))))
          (Cert.ReferenceIdeal.Value.res_main_v8 (F := Ideal) V) := rfl
  rw [e, layer512]
  have hx : (fun k => Host.gather gather_S64x512_S1x1_S1x512_1_0_n_n_0_1_1512 (V (Proc.devRef .tc main_arg2)) (startIndices (V (Proc.devRef .tc main_arg0)))
        (ix2 (0 : Fin 1) k))
      = fun k => (V (Proc.devRef .tc main_arg2)) (ix2 (Cert.Spec.tokenRow ((V (Proc.devRef .tc main_arg0)) (ix1 (0 : Fin 1)))) k) :=
    funext fun k => embedded_apply _ _ k
  have hh : (fun j => Cert.ReferenceIdeal.Value.res_main_v8 (F := Ideal) V (ix2 (0 : Fin 1) j))
      = fun j => (V (Proc.devRef .tc main_arg1)) (ix3 (0 : Fin 2) (0 : Fin 1) j) :=
    funext fun j => prev0_apply _ j
  rw [hx, hh]
  rfl

/-- THE SECOND LAYER'S NEW STATE. -/
theorem v82_eq (V : Valuation τ sig (Elt Ideal)) :
    Cert.ReferenceIdeal.Value.res_main_v82 (F := Ideal) V = Cert.Spec.asRow (second V) := by
  have e : Cert.ReferenceIdeal.Value.res_main_v82 (F := Ideal) V
      = newState
          (addf (Host.dotGeneral (F := Ideal) dot_S1x2048_S2048x6144_S1x6144_1_0_0_1_n_n none
              (Cert.ReferenceIdeal.Value.res_main_v44 (F := Ideal) V)
              (transpose S2048x6144 [1, 0] (V (Proc.devRef .tc main_arg7)) transposes_S6144x2048_S2048x6144_1_0))
            (broadcastInDim S1x6144 ![1] bcast_S6144_S1x6144_1 (V (Proc.devRef .tc main_arg9))))
          (addf (Host.dotGeneral (F := Ideal) dot_S1x2048_S2048x6144_S1x6144_1_0_0_1_n_n none
              (Cert.ReferenceIdeal.Value.res_main_v46 (F := Ideal) V)
              (transpose S2048x6144 [1, 0] (V (Proc.devRef .tc main_arg8)) transposes_S6144x2048_S2048x6144_1_0))
            (broadcastInDim S1x6144 ![1] bcast_S6144_S1x6144_1 (V (Proc.devRef .tc main_arg10))))
          (Cert.ReferenceIdeal.Value.res_main_v46 (F := Ideal) V) := rfl
  rw [e, layer2048, v44_eq]
  have hh : (fun j => Cert.ReferenceIdeal.Value.res_main_v46 (F := Ideal) V (ix2 (0 : Fin 1) j))
      = fun j => (V (Proc.devRef .tc main_arg1)) (ix3 (1 : Fin 2) (0 : Fin 1) j) :=
    funext fun j => prev1_apply _ j
  rw [hh]
  rfl

end Cert.RefValue

end
-- ==== Proof.Ref.Value.lean ====
/-
  The reference program's side: what its run leaves in its two results, as the specification's function of the arguments.
  Its two new states are the specification's (`state0_eq`, `state1_eq`); the operations it applies to them afterwards —
  the linear head with its softmax, and the stacking — are the very operations `Cert.Tail` names, so the two results are
  `Cert.Tail.probs` and `Cert.Tail.states` of the argument arrays.
-/
import proofs.«140640_j85452669321958_2_alg».proof.Defs
import proofs.«140640_j85452669321958_2_alg».proof.Proof.Gen.ReferenceIdeal.Run
import proofs.«140640_j85452669321958_2_alg».proof.Proof.Spec
import proofs.«140640_j85452669321958_2_alg».proof.Proof.Tail
import proofs.«140640_j85452669321958_2_alg».proof.Proof.Ref.States

noncomputable section

namespace Cert.RefValue

open Idealize.ShloMosaic Idealize.ShloMosaic.TcCoe Idealize.SL.Sem Idealize.ShloMosaic.StableHlo

/-- The thirteen argument arrays of a launch on device `c`, in order. -/
def args (m : (ℓ : Loc Cert.ReferenceIdeal.nD Cert.ReferenceIdeal.τ Cert.ReferenceIdeal.sig) → Buf (Elt Ideal) ℓ)
    (c : Dev Cert.ReferenceIdeal.nD) : Cert.Spec.Args :=
  ⟨m ((c.tc : Thread Cert.ReferenceIdeal.nD Cert.ReferenceIdeal.τ).loc Cert.ReferenceIdeal.main_arg0),
    m ((c.tc : Thread Cert.ReferenceIdeal.nD Cert.ReferenceIdeal.τ).loc Cert.ReferenceIdeal.main_arg1),
    m ((c.tc : Thread Cert.ReferenceIdeal.nD Cert.ReferenceIdeal.τ).loc Cert.ReferenceIdeal.main_arg2),
    m ((c.tc : Thread Cert.ReferenceIdeal.nD Cert.ReferenceIdeal.τ).loc Cert.ReferenceIdeal.main_arg3),
    m ((c.tc : Thread Cert.ReferenceIdeal.nD Cert.ReferenceIdeal.τ).loc Cert.ReferenceIdeal.main_arg4),
    m ((c.tc : Thread Cert.ReferenceIdeal.nD Cert.ReferenceIdeal.τ).loc Cert.ReferenceIdeal.main_arg5),
    m ((c.tc : Thread Cert.ReferenceIdeal.nD Cert.ReferenceIdeal.τ).loc Cert.ReferenceIdeal.main_arg6),
    m ((c.tc : Thread Cert.ReferenceIdeal.nD Cert.ReferenceIdeal.τ).loc Cert.ReferenceIdeal.main_arg7),
    m ((c.tc : Thread Cert.ReferenceIdeal.nD Cert.ReferenceIdeal.τ).loc Cert.ReferenceIdeal.main_arg8),
    m ((c.tc : Thread Cert.ReferenceIdeal.nD Cert.ReferenceIdeal.τ).loc Cert.ReferenceIdeal.main_arg9),
    m ((c.tc : Thread Cert.ReferenceIdeal.nD Cert.ReferenceIdeal.τ).loc Cert.ReferenceIdeal.main_arg10),
    m ((c.tc : Thread Cert.ReferenceIdeal.nD Cert.ReferenceIdeal.τ).loc Cert.ReferenceIdeal.main_arg11),
    m ((c.tc : Thread Cert.ReferenceIdeal.nD Cert.ReferenceIdeal.τ).loc Cert.ReferenceIdeal.main_arg12)⟩

/-- The first layer's new state is the specification's. -/
theorem state0_eq (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v44 (F := Ideal) (launchContents m c) = Cert.Spec.asRow (Cert.Spec.h0 (args m c)) :=
  (v44_eq (launchContents m c)).trans rfl

/-- The second layer's new state is the specification's. -/
theorem state1_eq (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v82 (F := Ideal) (launchContents m c) = Cert.Spec.asRow (Cert.Spec.h1 (args m c)) :=
  (v82_eq (launchContents m c)).trans rfl

/-- The first result's printed term is the head-and-softmax function `Cert.Tail.probsOf` of the second layer's new
    state, the head's weights and its bias: the same operations in the same order, so nothing of it is opened. -/
theorem probs_term_eq (V : Valuation Cert.ReferenceIdeal.τ Cert.ReferenceIdeal.sig (Elt Ideal)) :
    Host.divf (Cert.ReferenceIdeal.Value.res_main_v93 (F := Ideal) V)
        (broadcastInDim Cert.ReferenceIdeal.S1x16 ![0, 1] Cert.ReferenceIdeal.Gen.bcast_S1x1_S1x16_0_1
          (broadcastInDim Cert.ReferenceIdeal.S1x1 ![0] Cert.ReferenceIdeal.Gen.bcast_S1_S1x1_0
            (Host.reduceAdd (Cert.ReferenceIdeal.Value.res_main_v93 (F := Ideal) V)
              (constant (F := Ideal) Cert.ReferenceIdeal.S_ .f32 0x00000000#32)
              Cert.ReferenceIdeal.Gen.reducesTo_S1x16_S1_d1 Cert.ReferenceIdeal.Gen.h_S_)))
      = Cert.Tail.probsOf (Cert.ReferenceIdeal.Value.res_main_v82 (F := Ideal) V)
          (V (Proc.devRef .tc Cert.ReferenceIdeal.main_arg11)) (V (Proc.devRef .tc Cert.ReferenceIdeal.main_arg12)) := rfl

/-- The second result's printed term is the stacking `Cert.Tail.stackOf` of the two new states. -/
theorem states_term_eq (V : Valuation Cert.ReferenceIdeal.τ Cert.ReferenceIdeal.sig (Elt Ideal)) :
    concatenate Cert.ReferenceIdeal.S2x1x2048 0
        [⟨Cert.ReferenceIdeal.S1x1x2048, broadcastInDim Cert.ReferenceIdeal.S1x1x2048 ![1, 2] Cert.ReferenceIdeal.Gen.bcast_S1x2048_S1x1x2048_1_2
            (Cert.ReferenceIdeal.Value.res_main_v44 (F := Ideal) V)⟩,
         ⟨Cert.ReferenceIdeal.S1x1x2048, broadcastInDim Cert.ReferenceIdeal.S1x1x2048 ![1, 2] Cert.ReferenceIdeal.Gen.bcast_S1x2048_S1x1x2048_1_2
            (Cert.ReferenceIdeal.Value.res_main_v82 (F := Ideal) V)⟩]
        Cert.ReferenceIdeal.Gen.concatenates_S1x1x2048_S1x1x2048_S2x1x2048_d0
      = Cert.Tail.stackOf (Cert.ReferenceIdeal.Value.res_main_v44 (F := Ideal) V) (Cert.ReferenceIdeal.Value.res_main_v82 (F := Ideal) V) := rfl

/-- THE REFERENCE'S RUN: every execution ends with the first result at the specification's class probabilities, the
    second at its two new states stacked, and the thirteen arguments unchanged. -/
theorem run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v97) = Cert.Tail.probs (args m c)
      ∧ r.2.mem ((c.tc : Thread Cert.ReferenceIdeal.nD Cert.ReferenceIdeal.τ).loc Cert.ReferenceIdeal.main_v100) = Cert.Tail.states (args m c)
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)) :=
  (θ_run (Cert.ReferenceIdeal.defs (F := Ideal)) _ _).mono (fun _ h c => by
      obtain ⟨h97, h100, hrest⟩ := h c
      refine ⟨h97.trans ?_, h100.trans ?_, hrest⟩
      · rw [probs_term_eq, state1_eq]
        rfl
      · rw [states_term_eq, state0_eq, state1_eq]
        rfl)
    (Cert.ReferenceIdeal.Value.run (F := Ideal) m ρ)

end Cert.RefValue

end
-- ==== Proof.lean ====
/-
  The proof of the certificate's claim for one step of a two-layer gated recurrent unit with an embedding lookup, a
  linear head and a softmax.

  Frames. The kernel program is a stretch of host operations, two pipelined kernel regions (one per layer; eight grid
  points each, a block of 256 hidden units per point) and a closing stretch of host operations; run to its end, every
  unscoped buffer holds the fold of those four items over the launch memory, and no item writes an argument. The
  reference program is a straight line of host operations.

  Values, on the extended reals. A region's grid point computes, for its 256 hidden units, the six gate pre-activations
  (inner products of the input row and of the previous state with the unit's three weight rows, plus biases), the two
  sigmoids, the hyperbolic tangent and the convex combination with the previous state; the eight blocks tile the state
  row, so each region leaves its layer's new state. The reference forms the same inner products through one transposed
  matrix product per weight array and slices the three gates out of the result; the kernel reads the gates from the
  weight arrays reshaped gate-major. Both index the same entries, row `2048·g + j` for gate `g` of unit `j`, and
  add and multiply them in the same order, so no finiteness of the inputs is used. The embedding row is read by a
  clamped slice in the kernel program and by a clamped gather in the reference: the same row for every token value.
  The head, the softmax and the stacking are the same operations in both programs and are carried as one function.

  The idealized kernel program is the kernel program's own text: the idealization rewrote nothing.
-/
import proofs.«140640_j85452669321958_2_alg».proof.Defs
import proofs.«140640_j85452669321958_2_alg».proof.Proof.Gen.Kernel
import proofs.«140640_j85452669321958_2_alg».proof.Proof.Gen.KernelIdeal
import proofs.«140640_j85452669321958_2_alg».proof.Proof.Gen.ReferenceIdeal
import proofs.«140640_j85452669321958_2_alg».proof.Proof.Gen.Pre_finite_inputs
import proofs.«140640_j85452669321958_2_alg».proof.Proof.Gen.ReferenceIdeal.Run
import proofs.«140640_j85452669321958_2_alg».proof.Proof.KBits.Frame
import proofs.«140640_j85452669321958_2_alg».proof.Proof.KIdeal.Frame
import proofs.«140640_j85452669321958_2_alg».proof.Proof.KVal.Run
import proofs.«140640_j85452669321958_2_alg».proof.Proof.Ref.Value

noncomputable section

namespace Cert.Proof

open Idealize.ShloMosaic Idealize.SL.Sem

/-- The word-level kernel program runs to its end and leaves its arguments as launched. -/
theorem frame_kernel : Cert.frame_Kernel (hKernel := Cert.Kernel.Gen.facts) (hPre_finite_inputs := Cert.Pre_finite_inputs.Gen.facts) :=
  fun m g _ => Cert.Kernel.Hand.frame (F := Bits) m g

/-- So does the same program read on the extended reals. -/
theorem frame_kernelIdeal : Cert.frame_KernelIdeal (hKernelIdeal := Cert.KernelIdeal.Gen.facts) (hPre_finite_inputs := Cert.Pre_finite_inputs.Gen.facts) :=
  fun m g _ => Cert.KernelIdeal.Hand.frame (F := Ideal) m g

/-- The reference is a straight line of host operations: its run, with the results forgotten. -/
theorem frame_reference : Cert.frame_ReferenceIdeal (hReferenceIdeal := Cert.ReferenceIdeal.Gen.facts) (hPre_finite_inputs := Cert.Pre_finite_inputs.Gen.facts) :=
  fun m g _ => (θ_run Cert.ReferenceIdeal.defs _ _).mono (fun _ h c => (h c).2.2)
    (Cert.ReferenceIdeal.Value.run (F := Ideal) m g)

/-- The idealization rewrote no operation. -/
theorem preserves : Cert.preserves_Kernel_KernelIdeal := trivial

/-- Both programs, from memories that agree on the arguments, end with the specification's two results. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m g m' g' _ hagree
  refine ⟨fun c => Cert.Tail.probs (Cert.KVal.args m c), fun c => Cert.Tail.states (Cert.KVal.args m c),
    Cert.KVal.run m g, ?_⟩
  refine (θ_run Cert.ReferenceIdeal.defs _ _).mono (fun r h c => ?_) (Cert.RefValue.run m' g')
  have ha : Cert.RefValue.args m' c = Cert.KVal.args m c := by
    obtain ⟨h0, h1, h2, h3, h4, h5, h6, h7, h8, h9, h10, h11, h12⟩ := hagree c
    unfold Cert.RefValue.args Cert.KVal.args
    rw [h0, h1, h2, h3, h4, h5, h6, h7, h8, h9, h10, h11, h12]
  exact ⟨(h c).1.trans (congrArg Cert.Tail.probs ha), (h c).2.1.trans (congrArg Cert.Tail.states ha), (h c).2.2⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
